-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  IdealRules.sign_bit.Statement Cert.KernelIdeal.S128x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩

class Facts : Prop where
  bcast_S_S8x2048x4096 : S_.BroadcastsInDim S8x2048x4096 (![] : Fin 0 → Fin S8x2048x4096.rank)
  reducesTo_S8x2048x4096_S_d0_1_2 : S8x2048x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8x2048x4096 .f32) (main_arg1 : FVec F S4096x4096 .f32) (main_arg2 : FVec F S4096 .f32) : IVec S_ 1 :=
  let main_v0 : FVec F S8x2048x4096 .f32 := Host.absf main_arg0
  let main_cst : FVec F S_ .f32 := constant S_ .f32 0x7F800000#32
  let main_v1 : FVec F S8x2048x4096 .f32 := broadcastInDim S8x2048x4096 ![] bcast_S_S8x2048x4096 main_cst
  let main_v2 : IVec S8x2048x4096 1 := cmpf .olt main_v0 main_v1
  let main_c : IVec S_ 1 := constantI S_ 1 1#1
  let main_v3 : IVec S_ 1 := (fun x v => Host.reduce IntOp.andi x v reducesTo_S8x2048x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8x2048x4096 : Shape := ⟨3, ![8, 2048, 4096]⟩
abbrev S4096x4096 : Shape := ⟨2, ![4096, 4096]⟩
abbrev S4096 : Shape := ⟨1, ![4096]⟩
abbrev S1x1 : Shape := ⟨2, ![1, 1]⟩
abbrev S128x4096 : Shape := ⟨2, ![128, 4096]⟩
abbrev S128 : Shape := ⟨1, ![128]⟩
abbrev S128x1 : Shape := ⟨2, ![128, 1]⟩
abbrev S1 : Shape := ⟨1, ![1]⟩
abbrev S16384x4096 : Shape := ⟨2, ![16384, 4096]⟩
abbrev S1x4096 : Shape := ⟨2, ![1, 4096]⟩
abbrev S1024x1024 : Shape := ⟨2, ![1024, 1024]⟩
abbrev S1x1024 : Shape := ⟨2, ![1, 1024]⟩

abbrev nBuf : Space → Nat
  | .hbm => 9
  | .vmem => 19
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S1x1, .f32⟩
  | .hbm, ⟨4, _⟩ => ⟨S4096x4096, .bf16⟩
  | .hbm, ⟨5, _⟩ => ⟨S16384x4096, .f32⟩
  | .hbm, ⟨6, _⟩ => ⟨S1x4096, .f32⟩
  | .hbm, ⟨7, _⟩ => ⟨S16384x4096, .f32⟩
  | .hbm, ⟨8, _⟩ => ⟨S8x2048x4096, .f32⟩
  | .local _ .vmem, ⟨0, _⟩ => ⟨S128x4096, .f32⟩
  | .local _ .vmem, ⟨1, _⟩ => ⟨S128x4096, .f32⟩
  | .local _ .vmem, ⟨2, _⟩ => ⟨S1x1, .f32⟩
  | .local _ .vmem, ⟨3, _⟩ => ⟨S1x1, .f32⟩
  | .local _ .vmem, ⟨4, _⟩ => ⟨S1x1, .f32⟩
  | .local _ .vmem, ⟨5, _⟩ => ⟨S128x4096, .f32⟩
  | .local _ .vmem, ⟨6, _⟩ => ⟨S128x4096, .f32⟩
  | .local _ .vmem, ⟨7, _⟩ => ⟨S1x1, .f32⟩
  | .local _ .vmem, ⟨8, _⟩ => ⟨S128x4096, .bf16⟩
  | .local _ .vmem, ⟨9, _⟩ => ⟨S128x4096, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | .local _ .vmem, ⟨13, _⟩ => ⟨S1024x1024, .bf16⟩
  | .local _ .vmem, ⟨14, _⟩ => ⟨S1x1024, .f32⟩
  | .local _ .vmem, ⟨15, _⟩ => ⟨S1x1024, .f32⟩
  | .local _ .vmem, ⟨16, _⟩ => ⟨S1024x1024, .f32⟩
  | .local _ .vmem, ⟨17, _⟩ => ⟨S1024x1024, .f32⟩
  | .local _ .vmem, ⟨18, _⟩ => ⟨S1024x1024, .f32⟩
  | _, _ => ⟨S8x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc0_scratch1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_scratch0 : Ref sig .tc := ⟨.vmem, 18, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc2_sem0_0 : DmaSem sig := 8
abbrev cc2_sem0_1 : DmaSem sig := 9
abbrev cc2_sem1_0 : DmaSem sig := 10
abbrev cc2_sem1_1 : DmaSem sig := 11
abbrev cc2_sem2_0 : DmaSem sig := 12
abbrev cc2_sem2_1 : DmaSem sig := 13
abbrev cc2_sem3_0 : DmaSem sig := 14
abbrev cc2_sem3_1 : DmaSem sig := 15

abbrev nD : Nat := 1
abbrev τ : Topo := Topo.v7x

variable {F : FTy → Type} [BitOps F]

abbrev grid0 : Pipeline.Grid := ⟨1, ![32], ![false]⟩

def k0_cond2 (i : grid0.Coords) : BitVec 1 :=
  let arg0 : BitVec 32 := BitVec.ofNat 32 (i 0).val
  let c31_i32 : BitVec 32 := 31#32
  let v29 : BitVec 1 := Scalar.cmpi .eq arg0 c31_i32
  let v30 : BitVec 32 := Scalar.extui v29
  let c0_i32_15 : BitVec 32 := 0#32
  let v31 : BitVec 1 := Scalar.cmpi .ne v30 c0_i32_15
  v31

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![16, 4, 4], ![false, false, false]⟩

def k2_cond2 (i : grid2.Coords) : BitVec 1 :=
  let arg2 : BitVec 32 := BitVec.ofNat 32 (i 2).val
  let c3_i32 : BitVec 32 := 3#32
  let v14 : BitVec 1 := Scalar.cmpi .eq arg2 c3_i32
  let v15 : BitVec 32 := Scalar.extui v14
  let c0_i32_8 : BitVec 32 := 0#32
  let v16 : BitVec 1 := Scalar.cmpi .ne v15 c0_i32_8
  v16

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 2 → Memref sig .tc .vmem S1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true, false]

abbrev stage2_3 : Fin 2 → Memref sig .tc .vmem S1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x4096_S128x4096_0_0 : ∀ a, (![0, 0] : Fin 2 → Nat) a + S128x4096.size a ≤ S128x4096.size a
  h_S128x4096 : 0 < S128x4096.numel
  natLt_1_32 : 1 < 32
  reduces_S128x4096_S128 : S128x4096.Reduces [1] S128
  shapeCasts_S128_S128x1 : S128.ShapeCasts S128x1
  reduces_S128x1_S1 : S128x1.Reduces [0] S1
  shapeCasts_S1_S1x1 : S1.ShapeCasts S1x1
  inpos_S1x1_p0_0 : ∀ a, (![0, 0] : Fin 2 → Nat) a < S1x1.size a
  bitsLt_bf16_f32 : FTy.bits .bf16 < FTy.bits .f32
  packedbf16_S128x4096_S128x4096_0_0 : (Rect.unit (s := S128x4096) ![0, 0] S128x4096.size inb_S128x4096_S128x4096_0_0).PackedRows (EltTy.packing .bf16)
  shapeCasts_S8x2048x4096_S16384x4096 : S8x2048x4096.ShapeCasts S16384x4096
  shapeCasts_S4096_S1x4096 : S4096.ShapeCasts S1x4096
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S16384x4096_S8x2048x4096 : S16384x4096.ShapeCasts S8x2048x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x4096.size a ≤ S4096x4096.size a
  hwx0_0 : ∀ i : grid0.Coords, EltTy.bits .f32 = 32 ∨ (Rect.block (s := S4096x4096) S128x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S128x4096.size a ≤ S4096x4096.size a
  hwx1_0 : ∀ i : grid1.Coords, EltTy.bits .f32 = 32 ∨ (Rect.block (s := S4096x4096) S128x4096.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x1.size a ≤ S1x1.size a
  hwx1_1 : ∀ i : grid1.Coords, EltTy.bits .f32 = 32 ∨ (Rect.block (s := S1x1) S1x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S128x4096.size a ≤ S4096x4096.size a
  hwx1_2 : ∀ i : grid1.Coords, EltTy.bits .bf16 = 32 ∨ (Rect.block (s := S4096x4096) S128x4096.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S16384x4096.size a
  hwx2_0 : ∀ i : grid2.Coords, EltTy.bits .f32 = 32 ∨ (Rect.block (s := S16384x4096) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x4096.size a
  hwx2_2 : ∀ i : grid2.Coords, EltTy.bits .f32 = 32 ∨ (Rect.block (s := S1x4096) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1024.size a ≤ S16384x4096.size a
  hwx2_3 : ∀ i : grid2.Coords, EltTy.bits .f32 = 32 ∨ (Rect.block (s := S16384x4096) S1024x1024.size (cc2_transform_3 i) (hinb2_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_arg1) S128x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_arg1) S128x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S1x1.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S128x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v2) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v3) S1x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev idle2 : Fin 4 → grid2.Coords → Bool := fun | 0 => fun _ => false | 1 => fun _ => false | 2 => fun _ => false | 3 => fun i => !(k2_cond2 i == 1#1) | ⟨_ + 4, h⟩ => absurd h (Nat.not_lt.2 (Nat.le_add_left _ _))

class Facts : Prop extends Facts₀ where

variable [Facts]
-- ==== ReferenceIdeal.lean ====
abbrev S8x2048x4096 : Shape := ⟨3, ![8, 2048, 4096]⟩
abbrev S4096x4096 : Shape := ⟨2, ![4096, 4096]⟩
abbrev S4096 : Shape := ⟨1, ![4096]⟩
abbrev S_ : Shape := ⟨0, ![]⟩
abbrev S1x1x4096 : Shape := ⟨3, ![1, 1, 4096]⟩

abbrev nBuf : Space → Nat
  | .hbm => 33
  | .vmem => 0
  | .smem => 0
  | _ => 0

abbrev bufTy : (tb : Table) → Fin (tcTables nBuf tb) → BufTy
  | .hbm, ⟨0, _⟩ => ⟨S8x2048x4096, .f32⟩
  | .hbm, ⟨1, _⟩ => ⟨S4096x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .i1⟩
  | .hbm, ⟨7, _⟩ => ⟨S4096x4096, .i32⟩
  | .hbm, ⟨8, _⟩ => ⟨S_, .i32⟩
  | .hbm, ⟨9, _⟩ => ⟨S_, .i32⟩
  | .hbm, ⟨10, _⟩ => ⟨S_, .f32⟩
  | .hbm, ⟨11, _⟩ => ⟨S_, .f32⟩
  | .hbm, ⟨12, _⟩ => ⟨S4096x4096, .f32⟩
  | .hbm, ⟨13, _⟩ => ⟨S4096x4096, .f32⟩
  | .hbm, ⟨14, _⟩ => ⟨S_, .f32⟩
  | .hbm, ⟨15, _⟩ => ⟨S_, .f32⟩
  | .hbm, ⟨16, _⟩ => ⟨S_, .i32⟩
  | .hbm, ⟨17, _⟩ => ⟨S_, .i1⟩
  | .hbm, ⟨18, _⟩ => ⟨S_, .i32⟩
  | .hbm, ⟨19, _⟩ => ⟨S_, .i32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S8x2048x4096, .f32⟩
  | .hbm, ⟨30, _⟩ => ⟨S1x1x4096, .f32⟩
  | .hbm, ⟨31, _⟩ => ⟨S8x2048x4096, .f32⟩
  | .hbm, ⟨32, _⟩ => ⟨S8x2048x4096, .f32⟩
  | _, _ => ⟨S8x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_cst_0 : Ref sig .tc := ⟨.hbm, 10, rfl⟩
abbrev main_call0_v0 : Ref sig .tc := ⟨.hbm, 11, rfl⟩
abbrev main_call0_v1 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_c_2 : Ref sig .tc := ⟨.hbm, 16, rfl⟩
abbrev main_v7 : Ref sig .tc := ⟨.hbm, 17, rfl⟩
abbrev main_c_3 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_4 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  natLt_1_32 : 1 < 32
  reducesTo_S4096x4096_S_d0_1 : S4096x4096.ReducesTo [0, 1] S_
  h_S_ : 0 < S_.numel
  bcast_S4096_S1x1x4096_2 : S4096.BroadcastsInDim S1x1x4096 (![2] : Fin 1 → Fin S1x1x4096.rank)
  bcast_S1x1x4096_S8x2048x4096_0_1_2 : S1x1x4096.BroadcastsInDim S8x2048x4096 (![0, 1, 2] : Fin 3 → Fin S8x2048x4096.rank)
  dot_S8x2048x4096_S4096x4096_S8x2048x4096_2_1_01_0_n_n_wf : DotDims.WF S8x2048x4096 S4096x4096 S8x2048x4096 [2] [1] [0, 1] [0] [] []

variable [Facts₀]

def dot_S8x2048x4096_S4096x4096_S8x2048x4096_2_1_01_0_n_n : DotDims S8x2048x4096 S4096x4096 S8x2048x4096 where
  lhsContracting := [2]
  rhsContracting := [1]
  lhsNonContracting := [0, 1]
  rhsNonContracting := [0]
  lhsBatch := []
  rhsBatch := []
  wf := dot_S8x2048x4096_S4096x4096_S8x2048x4096_2_1_01_0_n_n_wf

class Facts : Prop extends Facts₀ where

variable [Facts]
-- ==== Proof.Pure.lean ====
/-
  The three kernels' arithmetic as pure recursions over sequences of blocks.

  Stage 1 walks the weight matrix in 32 row blocks of 128 rows; it keeps two 1x1 accumulators, the count of
  entries whose magnitude exceeds one half and the sum of those magnitudes, both started at zero at the first
  block, and at the last block turns them into the scale: the mean magnitude of the counted entries, or one when
  nothing was counted. Stage 3 walks the contracted axis of one output tile in four blocks of 1024 columns; it
  keeps a 1024x1024 accumulator started at zero at the first block, adds one tile product per block, and at the
  last block adds the bias row. Both are recursions on the number of blocks seen, written here over an arbitrary
  sequence of blocks so that the memory side (which block a grid point holds) and the arithmetic side (what the
  recursion computes, index by index) can be proved apart.
-/
import proofs.«171202_j46084999086226_2_alg».proof.Proof.Gen.KernelIdeal.Skeleton

noncomputable section

namespace Cert.KernelIdeal.H

open Idealize.ShloMosaic Cert.KernelIdeal Cert.KernelIdeal.Gen

variable {F : FTy → Type} [FloatOps F]

/-- Stage 1 after the blocks `xs 0 … xs n`: the pair (count accumulator, sum accumulator). The first block adds
    to the zeros the kernel stores at the first grid point; each later block adds to what the block before left. -/
def acc0 (xs : ℕ → Vec F S128x4096 .f32) : ℕ → Vec F S1x1 .f32 × Vec F S1x1 .f32
  | 0 => (k0_pay5 (xs 0) (k0_pay1 (F := F)), k0_pay6 (xs 0) (k0_pay2 (F := F)))
  | n + 1 => (k0_pay5 (xs (n + 1)) (acc0 xs n).1, k0_pay6 (xs (n + 1)) (acc0 xs n).2)

/-- Stage 1's result after all 32 blocks: the scale, from the final count and sum. -/
def scale0 (xs : ℕ → Vec F S128x4096 .f32) : Vec F S1x1 .f32 :=
  k0_pay7 (acc0 xs 31).1 (acc0 xs 31).2

/-- Stage 3's accumulator for one output tile after the contraction blocks `0 … k`: the first block adds its tile
    product to the zeros stored at the first block, each later one to what the block before left. -/
def acc2 (xb : ℕ → Vec F S1024x1024 .f32) (wb : ℕ → Vec F S1024x1024 .bf16) : ℕ → Vec F S1024x1024 .f32
  | 0 => k2_pay2 (xb 0) (wb 0) (k2_pay1 (F := F))
  | k + 1 => k2_pay2 (xb (k + 1)) (wb (k + 1)) (acc2 xb wb k)

/-- Stage 3's output tile: the accumulator after the four contraction blocks plus the bias row. -/
def out2 (xb : ℕ → Vec F S1024x1024 .f32) (wb : ℕ → Vec F S1024x1024 .bf16) (b : Vec F S1x1024 .f32) : Vec F S1024x1024 .f32 :=
  k2_pay3 (acc2 xb wb 3) b

end Cert.KernelIdeal.H

end
-- ==== Proof.KI.Reg0.lean ====
/-
  Region 0, the scale reduction, as proof data over the buffer contents `V` the region is entered from.

  The grid has 32 points; point t holds row block t (128 rows) of the weight matrix in window 0 and the 1x1 scale in
  window 1, which the body stores only at the last point and leaves untouched before. Two 1x1 accumulators (the count
  of entries whose magnitude exceeds one half, and the sum of those magnitudes) live in scratch buffers carried from
  point to point: zeroed at the first point, added to at every point, turned into the scale at the last. The
  invariant names both accumulators after each point through the pure recursion `acc0` over the 32 row blocks.
-/
import proofs.«171202_j46084999086226_2_alg».proof.Proof.Gen.KernelIdeal.Launch
import proofs.«171202_j46084999086226_2_alg».proof.Proof.Gen.KernelIdeal.Skeleton
import proofs.«171202_j46084999086226_2_alg».proof.Proof.Gen.KernelIdeal.Points
import proofs.«171202_j46084999086226_2_alg».proof.Proof.Pure
import Idealize.ShloMosaic.Lib.Pipeline.FrameBody
import Idealize.ShloMosaic.Lib.Pipeline.Value
import Idealize.ShloMosaic.Lib.Ring
import Idealize.ShloMosaic.Lib.ValueIdx
import Idealize.ShloMosaic.Lib.Tactic

set_option maxRecDepth 16384

noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 32 row blocks as a sequence (block n mod 32). -/
def blks0 (c : Dev nD) : ℕ → Vec F S128x4096 .f32 := fun n => iblk0 V c 0 ⟨n % 32, lt_of_lt_of_eq (Nat.mod_lt n (Nat.succ_pos 31)) N_0.symm⟩

/-- The sequence at a grid point's number is that point's block. -/
theorem blks0_val (c : Dev nD) (t : Fin cfg0.N) : blks0 V c t.val = iblk0 V c 0 t := by
  unfold blks0
  have h : t.val % 32 = t.val := Nat.mod_eq_of_lt (lt_of_lt_of_eq t.isLt N_0)
  congr 1
  exact Fin.ext h

/-- An input window's current buffer holds its block at every point, fetched there or not: unfetched, the block's
    index has not moved since the fetch. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The invariant: the two accumulators named after each point -/

/-- The two accumulators' scratch buffers, whole. -/
abbrev scM0_0 : Memref sig .tc .vmem S1x1 .f32 := Memref.whole cc0_scratch0
abbrev scM0_1 : Memref sig .tc .vmem S1x1 .f32 := Memref.whole cc0_scratch1

/-- The core's scoped buffers that region 0 neither stages through nor accumulates in, each at some contents. -/
def tail0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- The entry invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ tail0 c) ∗ (∃ r, prngReg c r)) := by
  unfold Pipeline.ΦA tail0; rw [scopedRest0_eq]; simp only [scM0_0, scM0_1, owns_whole]; try rfl

/-- The region's invariant before point n: at entry every scoped buffer at anything; afterwards the count
    accumulator and the sum accumulator at what the recursion over the row blocks gives after point n - 1, the other
    scoped buffers at anything; the generator register at some state throughout. -/
def Phi0 (c : Dev nD) : ℕ → sProp 𝕄
  | 0 => Pipeline.ΦA spec0 c
  | n + 1 => iprop(iprop(owns (c : Thread nD τ) scM0_0 fullShare (acc0 (blks0 V c) n).1 ∗ owns (c : Thread nD τ) scM0_1 fullShare (acc0 (blks0 V c) n).2 ∗ tail0 c) ∗ (∃ r, prngReg c r))

theorem Phi0_succ (c : Dev nD) (n : ℕ) :
    Phi0 V c (n + 1) = iprop(iprop(owns (c : Thread nD τ) scM0_0 fullShare (acc0 (blks0 V c) n).1 ∗ owns (c : Thread nD τ) scM0_1 fullShare (acc0 (blks0 V c) n).2 ∗ tail0 c) ∗ (∃ r, prngReg c r)) := rfl

theorem Phi0_pos (c : Dev nD) (n : ℕ) (hn : n ≠ 0) :
    Phi0 V c n = iprop(iprop(owns (c : Thread nD τ) scM0_0 fullShare (acc0 (blks0 V c) (n - 1)).1 ∗ owns (c : Thread nD τ) scM0_1 fullShare (acc0 (blks0 V c) (n - 1)).2 ∗ tail0 c) ∗ (∃ r, prngReg c r)) := by
  cases n with
  | zero => exact absurd rfl hn
  | succ n => rfl

/-! ## The proof data -/

/-- The proof data of pipeline 0 on core `c`: the arrays as the region finds them; after the body at point `t` the
    input's buffer at its block and the output's at the scale of the 32 blocks (consulted at the last point only:
    before it the window is idle and not written back); the invariant `Phi0`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => scale0 (blks0 V c)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = scale0 (blks0 V c) := by dsimp only [dat0]

theorem before0_0 (c : Dev nD) (t : Fin cfg0.N) (d) : (dat0 V c).before 0 t d = iblk0 V c 0 t :=
  before0_0_of V (dat0 V c) (A_eq0 V c 0) (after0_0 V c) t d

/-- The zero offsets of a rank-2 rectangle, as the constant function. -/
theorem hz0 : (![0, 0] : Fin 2 → Nat) = fun _ => 0 := funext fun a => by fin_cases a <;> rfl

/-! ## The body's two conditionals over the grid -/

/-- The condition of the body's first conditional (the accumulators are zeroed), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)
/-- The condition of the body's second conditional (the scale is formed and stored), from the grid coordinates. -/
abbrev cond0_1 (i : grid0.Coords) : Prop := k0_cond2 i = 1#1
/-- It holds at the last point only. -/
theorem hcond0_1 : ∀ t : Fin cfg0.N, cond0_1 (grid0.coords t) ↔ t.val = 31 :=
  (by decide +kernel : ∀ t : Fin grid0.N, cond0_1 (grid0.coords t) ↔ t.val = 31)

/-- A list of stores whose last one is through the whole 1x1 rectangle covers the buffer. -/
theorem cover0_one (p : Vec F S1x1 .f32) (L : List (View.Piece (Elt F) S1x1 .f32)) (y : S1x1.Idx) :
    ∃ pc ∈ ((⟨Rect.unit (s := S1x1) ![0, 0] S1x1.size inb_S1x1_S1x1_0_0, p⟩ :: L : List (View.Piece (Elt F) S1x1 .f32))), y ∈ pc.1.set :=
  ⟨_, List.mem_cons_self, View.mem_set_unit_zero (S := S1x1) hz0 inb_S1x1_S1x1_0_0 y⟩

/-! ## The body on any whole memrefs, case by case

The input block `x` is loaded whole; the count accumulator is read and rewritten as `k0_pay5 x ·`, the sum accumulator
as `k0_pay6 x ·`. At the first point both are first stored at zero (`k0_pay1`, `k0_pay2`), and those zeros are what
the following loads read; at the last point the two fresh accumulators are read back and their scale `k0_pay7` is
stored into the output window's buffer, which every other point leaves as it found it. -/

set_option maxHeartbeats 1000000 in
/-- The first point: both accumulators handed at anything, left at the first step of the recursion. -/
theorem run0_first (c : Dev nD) (E : Set ℕ) (i : grid0.Coords) (arg1 : Memref sig .tc .vmem S128x4096 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole)
    (hc0 : cond0_0 i) (hc1 : ¬cond0_1 i)
    (x : Vec F S128x4096 .f32) (x1 : Vec F S1x1 .f32) (K : PUnit → sProp 𝕄) :
    iprop(owns (c : Thread nD τ) arg1 fullShare x ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x ∗ owns (c : Thread nD τ) arg2 fullShare x1 ∗ owns (c : Thread nD τ) arg3 fullShare (k0_pay5 x (k0_pay1 (F := F))) ∗ owns (c : Thread nD τ) arg4 fullShare (k0_pay6 x (k0_pay2 (F := F)))) -∗ K ⟨⟩))
      ⊢ wp frame (wpE (defs₀ (F := F)) Variants.none c none) E (cc0__reduce_kernel i arg1 harg1 arg2 harg2 arg3 harg3 arg4 harg4) K := by
  simp only [cc0__reduce_kernel_eq_skeleton]; unfold cc0__reduce_kernel_skel
  unfold owns
  iintro ⟨⟨%f1, %hf1, H1⟩, ⟨%f2, %hf2, H2⟩, ⟨%d3, %f3, -, H3⟩, ⟨%d4, %f4, -, H4⟩, Hk⟩
  subst hf1
  sl_exec (disch := first | exact hc0 | exact hc1)
  sl_step
  iapply Hk
  isplitl [H1]
  · iexists f1; isplitr; · ipureintro; rfl
    iexact H1
  isplitl [H2]
  · iexists f2; isplitr; · ipureintro; exact hf2
    iexact H2
  isplitl [H3]
  · iexists _; isplitr
    swap; · iexact H3
    ipureintro
    try sl_unfold_run_names
    rw [View.read_writes_eq_canon _ _ _ (cover0_one _ _), View.canon_cons_unit_zero hz0]
    simp only [View.readAt_eq_ld, View.ld_unit_zero (S := S128x4096) hz0, View.ld_unit_zero (S := S1x1) hz0, View.readCov_unit_zero (S := S1x1) _ hz0]
  · iexists _; isplitr
    swap; · iexact H4
    ipureintro
    try sl_unfold_run_names
    rw [View.read_writes_eq_canon _ _ _ (cover0_one _ _), View.canon_cons_unit_zero hz0]
    simp only [View.readAt_eq_ld, View.ld_unit_zero (S := S128x4096) hz0, View.ld_unit_zero (S := S1x1) hz0, View.readCov_unit_zero (S := S1x1) _ hz0]

set_option maxHeartbeats 1000000 in
/-- A middle point: both accumulators handed at `a3`, `a4`, left one step on. -/
theorem run0_mid (c : Dev nD) (E : Set ℕ) (i : grid0.Coords) (arg1 : Memref sig .tc .vmem S128x4096 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole)
    (hc0 : ¬cond0_0 i) (hc1 : ¬cond0_1 i)
    (x : Vec F S128x4096 .f32) (x1 a3 a4 : Vec F S1x1 .f32) (K : PUnit → sProp 𝕄) :
    iprop(owns (c : Thread nD τ) arg1 fullShare x ∗ owns (c : Thread nD τ) arg2 fullShare x1 ∗ owns (c : Thread nD τ) arg3 fullShare a3 ∗ owns (c : Thread nD τ) arg4 fullShare a4
        ∗ (iprop(owns (c : Thread nD τ) arg1 fullShare x ∗ owns (c : Thread nD τ) arg2 fullShare x1 ∗ owns (c : Thread nD τ) arg3 fullShare (k0_pay5 x a3) ∗ owns (c : Thread nD τ) arg4 fullShare (k0_pay6 x a4)) -∗ K ⟨⟩))
      ⊢ wp frame (wpE (defs₀ (F := F)) Variants.none c none) E (cc0__reduce_kernel i arg1 harg1 arg2 harg2 arg3 harg3 arg4 harg4) K := by
  simp only [cc0__reduce_kernel_eq_skeleton]; unfold cc0__reduce_kernel_skel
  unfold owns
  iintro ⟨⟨%f1, %hf1, H1⟩, ⟨%f2, %hf2, H2⟩, ⟨%f3, %hf3, H3⟩, ⟨%f4, %hf4, H4⟩, Hk⟩
  subst hf1; subst hf3; subst hf4
  sl_exec (disch := first | exact hc0 | exact hc1)
  sl_step
  iapply Hk
  isplitl [H1]
  · iexists f1; isplitr; · ipureintro; rfl
    iexact H1
  isplitl [H2]
  · iexists f2; isplitr; · ipureintro; exact hf2
    iexact H2
  isplitl [H3]
  · iexists _; isplitr
    swap; · iexact H3
    ipureintro
    try sl_unfold_run_names
    rw [View.read_writes_eq_canon _ _ _ (cover0_one _ _), View.canon_cons_unit_zero hz0]
    simp only [View.readAt_eq_ld, View.ld_unit_zero (S := S128x4096) hz0, View.ld_unit_zero (S := S1x1) hz0, View.readCov_unit_zero (S := S1x1) _ hz0]
  · iexists _; isplitr
    swap; · iexact H4
    ipureintro
    try sl_unfold_run_names
    rw [View.read_writes_eq_canon _ _ _ (cover0_one _ _), View.canon_cons_unit_zero hz0]
    simp only [View.readAt_eq_ld, View.ld_unit_zero (S := S128x4096) hz0, View.ld_unit_zero (S := S1x1) hz0, View.readCov_unit_zero (S := S1x1) _ hz0]

set_option maxHeartbeats 1000000 in
/-- The last point: as a middle point, and the output window's buffer left at the scale of the fresh accumulators. -/
theorem run0_last (c : Dev nD) (E : Set ℕ) (i : grid0.Coords) (arg1 : Memref sig .tc .vmem S128x4096 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole)
    (hc0 : ¬cond0_0 i) (hc1 : cond0_1 i)
    (x : Vec F S128x4096 .f32) (a3 a4 : Vec F S1x1 .f32) (K : PUnit → sProp 𝕄) :
    iprop(owns (c : Thread nD τ) arg1 fullShare x ∗ (∃ d, owns (c : Thread nD τ) arg2 fullShare d) ∗ owns (c : Thread nD τ) arg3 fullShare a3 ∗ owns (c : Thread nD τ) arg4 fullShare a4
        ∗ (iprop(owns (c : Thread nD τ) arg1 fullShare x ∗ owns (c : Thread nD τ) arg2 fullShare (k0_pay7 (k0_pay5 x a3) (k0_pay6 x a4)) ∗ owns (c : Thread nD τ) arg3 fullShare (k0_pay5 x a3) ∗ owns (c : Thread nD τ) arg4 fullShare (k0_pay6 x a4)) -∗ K ⟨⟩))
      ⊢ wp frame (wpE (defs₀ (F := F)) Variants.none c none) E (cc0__reduce_kernel i arg1 harg1 arg2 harg2 arg3 harg3 arg4 harg4) K := by
  simp only [cc0__reduce_kernel_eq_skeleton]; unfold cc0__reduce_kernel_skel
  unfold owns
  iintro ⟨⟨%f1, %hf1, H1⟩, ⟨%d2, %f2, -, H2⟩, ⟨%f3, %hf3, H3⟩, ⟨%f4, %hf4, H4⟩, Hk⟩
  subst hf1; subst hf3; subst hf4
  sl_exec (disch := first | exact hc0 | exact hc1)
  sl_step
  iapply Hk
  isplitl [H1]
  · iexists f1; isplitr; · ipureintro; rfl
    iexact H1
  isplitl [H2]
  · iexists _; isplitr
    swap; · iexact H2
    ipureintro
    try sl_unfold_run_names
    rw [View.read_writes_eq_canon _ _ _ (cover0_one _ _), View.canon_cons_unit_zero hz0]
    simp only [View.readAt_eq_ld, View.ld_unit_zero (S := S128x4096) hz0, View.ld_unit_zero (S := S1x1) hz0, View.readCov_unit_zero (S := S1x1) _ hz0]
  isplitl [H3]
  · iexists _; isplitr
    swap; · iexact H3
    ipureintro
    try sl_unfold_run_names
    rw [View.read_writes_eq_canon _ _ _ (cover0_one _ _), View.canon_cons_unit_zero hz0]
    simp only [View.readAt_eq_ld, View.ld_unit_zero (S := S128x4096) hz0, View.ld_unit_zero (S := S1x1) hz0, View.readCov_unit_zero (S := S1x1) _ hz0]
  · iexists _; isplitr
    swap; · iexact H4
    ipureintro
    try sl_unfold_run_names
    rw [View.read_writes_eq_canon _ _ _ (cover0_one _ _), View.canon_cons_unit_zero hz0]
    simp only [View.readAt_eq_ld, View.ld_unit_zero (S := S128x4096) hz0, View.ld_unit_zero (S := S1x1) hz0, View.readCov_unit_zero (S := S1x1) _ hz0]

/-! ## Where the windows are idle -/

/-- Window 0 is never idle (an input). -/
theorem liveAt0_0 : ∀ t : Fin cfg0.N, cfg0.idle 0 (grid0.coords t) = false := by decide +kernel
/-- Before the last point the body stores nothing into the output window, and the pipeline does not write it back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- At the last point it stores into it. -/
theorem liveAt0_1 : ∀ t : Fin cfg0.N, cond0_1 (grid0.coords t) → cfg0.idle 1 (grid0.coords t) = false := by decide +kernel

/-! ## The accumulators' recursion, by the point -/

theorem acc0_at_zero (xs : ℕ → Vec F S128x4096 .f32) (n : ℕ) (hn : n = 0) :
    acc0 xs n = (k0_pay5 (xs n) (k0_pay1 (F := F)), k0_pay6 (xs n) (k0_pay2 (F := F))) := by
  subst hn; rfl
theorem acc0_at_pos (xs : ℕ → Vec F S128x4096 .f32) (n : ℕ) (hn : n ≠ 0) :
    acc0 xs n = (k0_pay5 (xs n) (acc0 xs (n - 1)).1, k0_pay6 (xs n) (acc0 xs (n - 1)).2) := by
  cases n with
  | zero => exact absurd rfl hn
  | succ n => rfl
theorem Phi0_zero (c : Dev nD) (n : ℕ) (hn : n = 0) : Phi0 V c n = Pipeline.ΦA spec0 c := by
  subst hn; rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 2000000 in
/-- The body at any point. The input's buffer holds its block. At the first point the invariant hands the body both
    accumulators at anything and takes them back at the recursion's first step; at a later point it hands them at
    what the point before left and takes them back one step on; the output window is handed back untouched before
    the last point and at the scale of the final accumulators at the last. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) from rfl, Phi0_succ,
    show (dat0 V c).Φ t.castSucc = Phi0 V c t.val from rfl]
  rw [show (dat0 V c).leavesExact 0 t = owns (c : Thread nD τ) (st0_0 t) fullShare ((dat0 V c).after 0 t) from by
    unfold Dat.leavesExact; rw [liveAt0_0 t], after0_0]
  have hN : t.val < 32 := lt_of_lt_of_eq t.isLt N_0
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 1 t (idleAt0_1 t hc1) (noFlush0_1 t hc1)]
    rw [Phi0_zero V c _ h0, PhiA0_eq, acc0_at_zero _ _ h0, blks0_val]
    dsimp only
    iintro ⟨⟨⟨HS0, HS1, HT⟩, Hg⟩, Ho, ⟨%d0, H0⟩, ⟨%d1, H1⟩⟩
    iapply (run0_first c Set.univ (grid0.coords t) _ _ _ _ _ _ _ _ hc0 hc1 (iblk0 V c 0 t) _ _)
    isplitl [H0]; · iexact H0
    isplitl [H1]; · iexact H1
    isplitl [HS0]; · iexact HS0
    isplitl [HS1]; · iexact HS1
    iintro ⟨H0, H1, HS0, HS1⟩
    isplitl [HS0 HS1 HT Hg]
    · isplitl [HS0 HS1 HT]
      · isplitl [HS0]; · iexact HS0
        isplitl [HS1]; · iexact HS1
        iexact HT
      iexact Hg
    isplitl [Ho]; · iexact Ho
    isplitl [H0]; · iexact H0
    iexists _; iexact H1
  · have hc0 : ¬cond0_0 (grid0.coords t) := fun h => h0 ((hcond0_0 t).mp h)
    by_cases h31 : t.val = 31
    · have hc1 : cond0_1 (grid0.coords t) := (hcond0_1 t).mpr h31
      rw [show (dat0 V c).leavesExact 1 t = owns (c : Thread nD τ) (st0_1 t) fullShare ((dat0 V c).after 1 t) from by
        unfold Dat.leavesExact; rw [liveAt0_1 t hc1], after0_1]
      rw [show scale0 (blks0 V c) = k0_pay7 (acc0 (blks0 V c) t.val).1 (acc0 (blks0 V c) t.val).2 from by rw [h31]; rfl]
      rw [Phi0_pos V c _ h0, acc0_at_pos _ _ h0, blks0_val]
      dsimp only
      iintro ⟨⟨⟨HS0, HS1, HT⟩, Hg⟩, Ho, ⟨%d0, H0⟩, ⟨%d1, H1⟩⟩
      iapply (run0_last c Set.univ (grid0.coords t) _ _ _ _ _ _ _ _ hc0 hc1 (iblk0 V c 0 t) _ _ _)
      isplitl [H0]; · iexact H0
      isplitl [H1]; · iexists _; iexact H1
      isplitl [HS0]; · iexact HS0
      isplitl [HS1]; · iexact HS1
      iintro ⟨H0, H1, HS0, HS1⟩
      isplitl [HS0 HS1 HT Hg]
      · isplitl [HS0 HS1 HT]
        · isplitl [HS0]; · iexact HS0
          isplitl [HS1]; · iexact HS1
          iexact HT
        iexact Hg
      isplitl [Ho]; · iexact Ho
      isplitl [H0]; · iexact H0
      iexact H1
    · have hc1 : ¬cond0_1 (grid0.coords t) := fun h => h31 ((hcond0_1 t).mp h)
      rw [Dat.leavesExact_idle (dat0 V c) 1 t (idleAt0_1 t hc1) (noFlush0_1 t hc1)]
      rw [Phi0_pos V c _ h0, acc0_at_pos _ _ h0, blks0_val]
      dsimp only
      iintro ⟨⟨⟨HS0, HS1, HT⟩, Hg⟩, Ho, ⟨%d0, H0⟩, ⟨%d1, H1⟩⟩
      iapply (run0_mid c Set.univ (grid0.coords t) _ _ _ _ _ _ _ _ hc0 hc1 (iblk0 V c 0 t) _ _ _ _)
      isplitl [H0]; · iexact H0
      isplitl [H1]; · iexact H1
      isplitl [HS0]; · iexact HS0
      isplitl [HS1]; · iexact HS1
      iintro ⟨H0, H1, HS0, HS1⟩
      isplitl [HS0 HS1 HT Hg]
      · isplitl [HS0 HS1 HT]
        · isplitl [HS0]; · iexact HS0
          isplitl [HS1]; · iexact HS1
          iexact HT
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = Pipeline.ΦA spec0 c from rfl]
  try exact Idealize.SL.BI.Entails.refl _

/-- After the last point the invariant gives the entry one back: the accumulators' named contents are forgotten. -/
theorem hout0 (c : Dev nD) : (dat0 V c).Φ (Fin.last cfg0.N) ⊢ (Pipeline.ΦA spec0 c : sProp 𝕄) := by
  rw [show (dat0 V c).Φ (Fin.last cfg0.N) = Phi0 V c (31 + 1) from rfl, Phi0_succ, PhiA0_eq]
  iintro ⟨⟨HS0, HS1, HT⟩, Hg⟩
  isplitl [HS0 HS1 HT]
  · isplitl [HS0]; · iexists _; iexact HS0
    isplitl [HS1]; · iexists _; iexact HS1
    iexact HT
  iexact Hg

/-! ## The arrays after the region -/

/-- The input array is never written. -/
theorem arr0_in (c : Dev nD) : (dat0 V c).arrAt 0 cfg0.N = V c (Pipeline.arrRef spec0 0) :=
  ((dat0 V c).arrAt_in 0 rfl _).trans (A_eq0 V c 0)

/-- The last grid point. -/
abbrev t0_last : Fin cfg0.N := ⟨31, by rw [show cfg0.N = 32 from N_0]; decide⟩

/-- The one write-back, at the last point, writes the scale: the output window's block is the whole 1x1 array, read
    through zero offsets. -/
theorem flushed0_1 (c : Dev nD) (t : Fin cfg0.N) (hf : (cfg0.win 1).flush t = true) :
    (dat0 V c).flushed 1 t = ((cfg0.win 1).blk t).view.read (Elt F) (scale0 (blks0 V c)) := by
  have h1 : t.val = 31 := by have := (flush0_1 t).mp hf; have := lt_of_lt_of_eq t.isLt N_0; omega
  obtain rfl : t = t0_last := Fin.ext h1
  show (cfg0.win 1).cut (grid0.coords t0_last) ((dat0 V c).after 1 t0_last) = _
  rw [after0_1]
  have hz' : (fun a => win0_1.index t0_last a * main_v0.ty.shape.size a) = fun _ => 0 := funext fun a => by fin_cases a <;> decide
  exact (Memref.read_access_unit_zero (Elt F) main_v0 hz' (fun a => by rw [congrFun hz' a]; simp) (scale0 (blks0 V c))).symm

/-- VALUE: the one-element output array ends holding the scale of the 32 blocks: the last point's block covers it. -/
theorem arr0_out (c : Dev nD) : (dat0 V c).arrAt 1 cfg0.N = scale0 (blks0 V c) :=
  (dat0 V c).arrAt_eq_of_cover 1 (scale0 (blks0 V c)) (flushed0_1 V c) fun i =>
    ⟨t0_last, (flush0_1 t0_last).mpr rfl, by
      show i ∈ ((View.whole main_v0).slice (win0_1.rect t0_last)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index t0_last 0 * win0_1.size 0 ≤ (i 0 : Nat) ∧ (i 0 : Nat) < win0_1.index t0_last 0 * win0_1.size 0 + win0_1.xsize (grid0.coords t0_last) 0
        rw [show win0_1.index t0_last 0 * win0_1.size 0 = 0 from by decide +kernel, show win0_1.xsize (grid0.coords t0_last) 0 = 1 from by decide +kernel]; omega
      | ⟨1, _⟩ =>
        show win0_1.index t0_last 1 * win0_1.size 1 ≤ (i 1 : Nat) ∧ (i 1 : Nat) < win0_1.index t0_last 1 * win0_1.size 1 + win0_1.xsize (grid0.coords t0_last) 1
        rw [show win0_1.index t0_last 1 * win0_1.size 1 = 0 from by decide +kernel, show win0_1.xsize (grid0.coords t0_last) 1 = 1 from by decide +kernel]; omega⟩

/-- The input window's block index at point t: row block t, the one column block. -/
theorem index0_0 : ∀ t : Fin cfg0.N, win0_0.index t 0 = t.val ∧ win0_0.index t 1 = 0 :=
  (by decide +kernel : ∀ t : Fin grid0.N, win0_0.index t 0 = t.val ∧ win0_0.index t 1 = 0)

/-- VALUE: a block read is the array read at the shifted row. -/
theorem iblk0_apply (c : Dev nD) (t : Fin cfg0.N) (y : S128x4096.Idx) :
    iblk0 V c 0 t y = V c main_arg1 (ValueIdx.ix2 (n0 := 4096) (n1 := 4096)
      ⟨128 * t.val + (y 0).val, by have h0 := ValueIdx.idx2_lt0 y; have ht := lt_of_lt_of_eq t.isLt N_0; omega⟩
      ⟨(y 1).val, ValueIdx.idx2_lt1 y⟩) := by
  have hi := index0_0 t
  unfold iblk0
  rw [View.read_apply]
  show V c main_arg1 _ = V c main_arg1 _
  refine congrArg (V c main_arg1) ?_
  funext a
  apply Fin.ext
  match a with
  | ⟨0, _⟩ => show win0_0.index t 0 * 128 + 1 * (y 0).val = 128 * t.val + (y 0).val; rw [hi.1]; omega
  | ⟨1, _⟩ => show win0_0.index t 1 * 4096 + 1 * (y 1).val = (y 1).val; rw [hi.2]; omega

end Cert.KernelIdeal.H

end
-- ==== Proof.KI.Reg1.lean ====
/-
  Region 1, the ternarizing pass, as proof data over the buffer contents `V` the region is entered from.

  The grid has 32 points; point t holds row block t (128 rows) of the weight matrix in window 0, the 1x1 scale in
  window 1 (fetched once, at the first point, and kept), and writes row block t of the ternarized weight through
  window 2. The body is one pointwise payload of the two inputs, stored whole; it keeps nothing between points, so
  the invariant is the scoped rest and the generator register, untouched.
-/
import proofs.«171202_j46084999086226_2_alg».proof.Proof.Gen.KernelIdeal.Launch
import proofs.«171202_j46084999086226_2_alg».proof.Proof.Gen.KernelIdeal.Skeleton
import proofs.«171202_j46084999086226_2_alg».proof.Proof.Gen.KernelIdeal.Points
import proofs.«171202_j46084999086226_2_alg».proof.Proof.Pure
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: unfetched, the block's
    index has not moved since the fetch. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

abbrev r1_big : Rect S128x4096 := Rect.unit (s := S128x4096) ![0, 0] S128x4096.size inb_S128x4096_S128x4096_0_0
abbrev r1_one : Rect S1x1 := Rect.unit (s := S1x1) ![0, 0] S1x1.size inb_S1x1_S1x1_0_0

/-- Window 2's buffer after the body: its one store, the payload of the two loads. -/
def out1_2 (x0 : Vec F S128x4096 .f32) (x1 : Vec F S1x1 .f32) : Vec F S128x4096 .bf16 :=
  View.canon [⟨r1_big, k1_pay1 (View.ld x0 r1_big) (View.ld x1 r1_one)⟩]

theorem cover1_2 (p0 : Vec F S128x4096 .bf16) (y : S128x4096.Idx) :
    ∃ pc ∈ ([⟨r1_big, p0⟩] : List (View.Piece (Elt F) S128x4096 .bf16)), y ∈ pc.1.set :=
  View.cover_of_tiled [⟨r1_big, p0⟩] S128x4096.size (by rfl) y

/-! ## The body's triple -/

set_option maxHeartbeats 1000000 in
theorem sound_kernel1 (c : Dev nD) (E : Set ℕ) (i : grid1.Coords) (arg1 : Memref sig .tc .vmem S128x4096 .f32) (harg1 : arg1.IsWhole)
    (arg2 : Memref sig .tc .vmem S1x1 .f32) (harg2 : arg2.IsWhole) (arg3 : Memref sig .tc .vmem S128x4096 .bf16) (harg3 : arg3.IsWhole)
    (x0 : Vec F S128x4096 .f32) (x1 : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__ternarize_kernel i arg1 harg1 arg2 harg2 arg3 harg3) K := by
  simp only [cc1__ternarize_kernel_eq_skeleton]; unfold cc1__ternarize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The proof data of pipeline 1 on core `c`: the arrays as the region finds them; after the body at point `t` each
    input's buffer at its block and the output's at the payload of the two blocks; the invariant the scoped rest and
    the generator register; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = Pipeline.ΦA spec1 c from rfl]
  try exact Idealize.SL.BI.Entails.refl _
theorem hout1 (c : Dev nD) : (dat1 V c).Φ (Fin.last cfg1.N) ⊢ (Pipeline.ΦA spec1 c : sProp 𝕄) := by
  rw [show (dat1 V c).Φ (Fin.last cfg1.N) = Pipeline.ΦA spec1 c from rfl]
  try exact Idealize.SL.BI.Entails.refl _

end Cert.KernelIdeal.H

end
-- ==== Proof.KI.Reg2Run.lean ====
/-
  Stage 3 (the tiled matrix product): the kernel body's three runs.

  The body branches on the contraction coordinate k of the grid point. At k = 0 it first stores zeros into the
  accumulator; at every k it loads the two operand tiles and the accumulator, and stores the accumulator plus the
  tile product; at k = 3 it then loads the accumulator and the bias row and stores their sum into the output tile.
  Each run is stated with explicit contents: what every buffer holds before, and what it holds after.
-/
import proofs.«171202_j46084999086226_2_alg».proof.Proof.Pure
import proofs.«171202_j46084999086226_2_alg».proof.Proof.Gen.KernelIdeal.Launch
import proofs.«171202_j46084999086226_2_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ

/-! ## The two conditions of the body, in closed form over the grid -/

/-- The zeroing branch's condition (the contraction coordinate is 0), as the body computes it. -/
abbrev cond2_0 (i : grid2.Coords) : Prop :=
  (Scalar.cmpi .ne (Scalar.extui (Scalar.cmpi .eq (BitVec.ofNat 32 (i 2).val) 0#32)) 0#32) = 1#1
/-- It holds exactly at the points with k = 0. -/
theorem hcond2_0 : ∀ t : Fin cfg2.N, cond2_0 (grid2.coords t) ↔ t.val % 4 = 0 :=
  (by decide +kernel : ∀ t : Fin grid2.N, cond2_0 (grid2.coords t) ↔ t.val % 4 = 0)
/-- The final branch's condition (the contraction coordinate is 3). -/
abbrev cond2_1 (i : grid2.Coords) : Prop := k2_cond2 i = 1#1
/-- It holds exactly at the points with k = 3. -/
theorem hcond2_1 : ∀ t : Fin cfg2.N, cond2_1 (grid2.coords t) ↔ t.val % 4 = 3 :=
  (by decide +kernel : ∀ t : Fin grid2.N, cond2_1 (grid2.coords t) ↔ t.val % 4 = 3)
/-- Away from k = 3 the output window is idle: the body stores nothing into it. -/
theorem idleAt2_3 : ∀ t : Fin cfg2.N, ¬cond2_1 (grid2.coords t) → cfg2.idle 3 (grid2.coords t) = true := by decide +kernel
/-- At k = 3 it is live. -/
theorem liveAt2_3 : ∀ t : Fin cfg2.N, cond2_1 (grid2.coords t) → cfg2.idle 3 (grid2.coords t) = false := by decide +kernel

/-- The zero offsets of a whole-buffer access. -/
theorem hz2 : (![0, 0] : Fin 2 → Nat) = fun _ => 0 := funext fun a => by fin_cases a <;> rfl

/-! ## The body's three runs -/

set_option maxHeartbeats 1000000 in
/-- FIRST contraction block (k = 0). From the three input buffers at x, w, b, the output buffer at o and the
    accumulator at anything, the body zeroes the accumulator, reads the zeros back, adds the tile product and
    stores the sum: the accumulator ends at the product added to zero, everything else is as it was. -/
theorem run2_first (c : Dev nD) (E : Set ℕ) (i : grid2.Coords)
    (arg3 : Memref sig .tc .vmem S1024x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hc0 : cond2_0 i) (hc1 : ¬cond2_1 i)
    (x : Vec F S1024x1024 .f32) (w : Vec F S1024x1024 .bf16) (b : Vec F S1x1024 .f32) (o : Vec F S1024x1024 .f32)
    (K : PUnit → sProp 𝕄) :
    iprop(owns (c : Thread nD τ) arg3 fullShare x ∗ owns (c : Thread nD τ) arg4 fullShare w
        ∗ owns (c : Thread nD τ) arg5 fullShare b ∗ owns (c : Thread nD τ) arg6 fullShare o
        ∗ (∃ d, owns (c : Thread nD τ) arg7 fullShare d)
        ∗ (iprop(owns (c : Thread nD τ) arg3 fullShare x ∗ owns (c : Thread nD τ) arg4 fullShare w
            ∗ owns (c : Thread nD τ) arg5 fullShare b ∗ owns (c : Thread nD τ) arg6 fullShare o
            ∗ owns (c : Thread nD τ) arg7 fullShare (k2_pay2 x w (k2_pay1 (F := F)))) -∗ K ⟨⟩))
      ⊢ wp frame (wpE (defs₀ (F := F)) Variants.none c none) E
          (cc2__matmul_kernel i arg3 harg3 arg4 harg4 arg5 harg5 arg6 harg6 arg7 harg7) K := by
  simp only [cc2__matmul_kernel_eq_skeleton]; unfold cc2__matmul_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  subst hf3; subst hf4; subst hf5; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try sl_unfold_words
  rw [View.read_writes_eq_canon _ _ _ (fun y => ⟨_, List.mem_cons_self, View.mem_set_unit_zero hz2 inb_S1024x1024_S1024x1024_0_0 y⟩),
    View.canon_cons_unit_zero hz2]
  rw [View.readCov_unit_zero _ hz2]
  simp only [View.readAt_eq_ld, View.ld_unit_zero (S := S1024x1024) hz2]

set_option maxHeartbeats 1000000 in
/-- A MIDDLE contraction block (k = 1, 2). From the input buffers at x, w, b, the output buffer at o and the
    accumulator at a, the body adds the tile product to the accumulator; everything else is as it was. -/
theorem run2_mid (c : Dev nD) (E : Set ℕ) (i : grid2.Coords)
    (arg3 : Memref sig .tc .vmem S1024x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hc0 : ¬cond2_0 i) (hc1 : ¬cond2_1 i)
    (x : Vec F S1024x1024 .f32) (w : Vec F S1024x1024 .bf16) (b : Vec F S1x1024 .f32) (o : Vec F S1024x1024 .f32)
    (a : Vec F S1024x1024 .f32) (K : PUnit → sProp 𝕄) :
    iprop(owns (c : Thread nD τ) arg3 fullShare x ∗ owns (c : Thread nD τ) arg4 fullShare w
        ∗ owns (c : Thread nD τ) arg5 fullShare b ∗ owns (c : Thread nD τ) arg6 fullShare o
        ∗ owns (c : Thread nD τ) arg7 fullShare a
        ∗ (iprop(owns (c : Thread nD τ) arg3 fullShare x ∗ owns (c : Thread nD τ) arg4 fullShare w
            ∗ owns (c : Thread nD τ) arg5 fullShare b ∗ owns (c : Thread nD τ) arg6 fullShare o
            ∗ owns (c : Thread nD τ) arg7 fullShare (k2_pay2 x w a)) -∗ K ⟨⟩))
      ⊢ wp frame (wpE (defs₀ (F := F)) Variants.none c none) E
          (cc2__matmul_kernel i arg3 harg3 arg4 harg4 arg5 harg5 arg6 harg6 arg7 harg7) K := by
  simp only [cc2__matmul_kernel_eq_skeleton]; unfold cc2__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3; subst hf4; subst hf5; subst hf6; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try sl_unfold_words
  rw [View.read_writes_eq_canon _ _ _ (fun y => ⟨_, List.mem_cons_self, View.mem_set_unit_zero hz2 inb_S1024x1024_S1024x1024_0_0 y⟩),
    View.canon_cons_unit_zero hz2]
  simp only [View.readAt_eq_ld, View.ld_unit_zero (S := S1024x1024) hz2]

set_option maxHeartbeats 1000000 in
/-- THE LAST contraction block (k = 3). From the input buffers at x, w, b, the output buffer at anything and the
    accumulator at a, the body adds the tile product to the accumulator, reads the sum back, adds the bias row and
    stores the result into the output buffer; the inputs are as they were. -/
theorem run2_last (c : Dev nD) (E : Set ℕ) (i : grid2.Coords)
    (arg3 : Memref sig .tc .vmem S1024x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hc0 : ¬cond2_0 i) (hc1 : cond2_1 i)
    (x : Vec F S1024x1024 .f32) (w : Vec F S1024x1024 .bf16) (b : Vec F S1x1024 .f32)
    (a : Vec F S1024x1024 .f32) (K : PUnit → sProp 𝕄) :
    iprop(owns (c : Thread nD τ) arg3 fullShare x ∗ owns (c : Thread nD τ) arg4 fullShare w
        ∗ owns (c : Thread nD τ) arg5 fullShare b ∗ (∃ d, owns (c : Thread nD τ) arg6 fullShare d)
        ∗ owns (c : Thread nD τ) arg7 fullShare a
        ∗ (iprop(owns (c : Thread nD τ) arg3 fullShare x ∗ owns (c : Thread nD τ) arg4 fullShare w
            ∗ owns (c : Thread nD τ) arg5 fullShare b ∗ owns (c : Thread nD τ) arg6 fullShare (k2_pay3 (k2_pay2 x w a) b)
            ∗ owns (c : Thread nD τ) arg7 fullShare (k2_pay2 x w a)) -∗ K ⟨⟩))
      ⊢ wp frame (wpE (defs₀ (F := F)) Variants.none c none) E
          (cc2__matmul_kernel i arg3 harg3 arg4 harg4 arg5 harg5 arg6 harg6 arg7 harg7) K := by
  simp only [cc2__matmul_kernel_eq_skeleton]; unfold cc2__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3; subst hf4; subst hf5; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try sl_unfold_words
    rw [View.read_writes_eq_canon _ _ _ (fun y => ⟨_, List.mem_cons_self, View.mem_set_unit_zero hz2 inb_S1024x1024_S1024x1024_0_0 y⟩),
      View.canon_cons_unit_zero hz2]
    rw [View.readCov_unit_zero _ hz2]
    simp only [View.readAt_eq_ld, View.ld_unit_zero (S := S1024x1024) hz2, View.ld_unit_zero (S := S1x1024) hz2]
  iexists _; isplitr
  swap; · iexact H7
  ipureintro
  try sl_unfold_words
  rw [View.read_writes_eq_canon _ _ _ (fun y => ⟨_, List.mem_cons_self, View.mem_set_unit_zero hz2 inb_S1024x1024_S1024x1024_0_0 y⟩),
    View.canon_cons_unit_zero hz2]
  simp only [View.readAt_eq_ld, View.ld_unit_zero (S := S1024x1024) hz2]

end Cert.KernelIdeal.H
end
-- ==== Proof.KI.Reg2Frame.lean ====
/-
  Stage 3 (the tiled matrix product) as one region of the program: the proof data and the body obligation.

  Point t = (i*4 + j)*4 + k of the 16 x 4 x 4 grid. The inputs' staging buffers hold their blocks at every point
  (the bias tile is fetched at k = 0 and kept through k = 1, 2, 3). The accumulator after point t is, in closed
  form, the pure recursion of Pure.lean over the contraction blocks of output tile t / 4, at step t % 4: at k = 0
  the blocks' product added to zero, afterwards added to what the point before left. The output window is idle
  except at k = 3, where the body leaves the accumulator plus the bias row in it and the pipeline writes it back.
  Between points the invariant names the accumulator's contents; before the first point, and to the outside,
  the accumulator is at anything.
-/
import proofs.«171202_j46084999086226_2_alg».proof.Proof.KI.Reg2Run

set_option maxRecDepth 16384

noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is
    not fetched its block index has not moved since the point before. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Every remainder modulo 256 is a grid point. -/
theorem pt_lt2 (n : ℕ) : n % 256 < cfg2.N :=
  lt_of_lt_of_eq (Nat.mod_lt _ (by decide)) (show cfg2.N = 256 from N_2).symm

/-- The contraction blocks of output tile q (= i*4+j, q < 64) as sequences: block k is the point 4*q + k mod 256. -/
def xblks2 (c : Dev nD) (q : ℕ) : ℕ → Vec F S1024x1024 .f32 := fun k => iblk2 V c 0 ⟨(4 * q + k) % 256, pt_lt2 _⟩
def wblks2 (c : Dev nD) (q : ℕ) : ℕ → Vec F S1024x1024 .bf16 := fun k => iblk2 V c 1 ⟨(4 * q + k) % 256, pt_lt2 _⟩

/-- Point t is contraction block t % 4 of tile t / 4. -/
theorem pt_eq2 (t : Fin cfg2.N) : (⟨(4 * (t.val / 4) + t.val % 4) % 256, pt_lt2 _⟩ : Fin cfg2.N) = t :=
  Fin.ext (by
    show (4 * (t.val / 4) + t.val % 4) % 256 = t.val
    have h : t.val < 256 := lt_of_lt_of_eq t.isLt (show cfg2.N = 256 from N_2)
    omega)
theorem xblks2_at (c : Dev nD) (t : Fin cfg2.N) : xblks2 V c (t.val / 4) (t.val % 4) = iblk2 V c 0 t := by
  unfold xblks2; rw [pt_eq2 t]
theorem wblks2_at (c : Dev nD) (t : Fin cfg2.N) : wblks2 V c (t.val / 4) (t.val % 4) = iblk2 V c 1 t := by
  unfold wblks2; rw [pt_eq2 t]

/-! ## The accumulator after each point -/

/-- The accumulator after point n: the pure recursion over tile n / 4's contraction blocks, at step n % 4. -/
def accAt2 (c : Dev nD) (n : ℕ) : Vec F S1024x1024 .f32 :=
  acc2 (xblks2 V c (n / 4)) (wblks2 V c (n / 4)) (n % 4)

/-- At a first contraction block it is the blocks' product added to the zeros just stored. -/
theorem accAt2_first (c : Dev nD) (t : Fin cfg2.N) (h : t.val % 4 = 0) :
    accAt2 V c t.val = k2_pay2 (iblk2 V c 0 t) (iblk2 V c 1 t) (k2_pay1 (F := F)) := by
  have hx := xblks2_at V c t
  have hw := wblks2_at V c t
  rw [h] at hx hw
  unfold accAt2
  rw [h, acc2, hx, hw]

/-- At a later one it is the blocks' product added to what the point before left. -/
theorem accAt2_next (c : Dev nD) (t : Fin cfg2.N) (h : ¬t.val % 4 = 0) :
    accAt2 V c t.val = k2_pay2 (iblk2 V c 0 t) (iblk2 V c 1 t) (accAt2 V c (t.val - 1)) := by
  have hx := xblks2_at V c t
  have hw := wblks2_at V c t
  have hq : (t.val - 1) / 4 = t.val / 4 := by omega
  have hk : t.val % 4 = (t.val - 1) % 4 + 1 := by omega
  rw [hk] at hx hw
  unfold accAt2
  rw [hq, hk, acc2, hx, hw]

/-! ## The invariant between points -/

/-- The accumulator: the kernel's own whole scoped buffer. -/
abbrev scM2 : Memref sig .tc .vmem S1024x1024 .f32 := Memref.whole cc2_scratch0
/-- Each window's current staging memref at point t, as the pipeline passes it to the body, and its wholeness. -/
abbrev ms2_0 (t : Fin cfg2.N) : Memref sig .tc .vmem S1024x1024 .f32 := win2_0.stage (cfg2.slots t 0)
abbrev ms2_1 (t : Fin cfg2.N) : Memref sig .tc .vmem S1024x1024 .bf16 := win2_1.stage (cfg2.slots t 1)
abbrev ms2_2 (t : Fin cfg2.N) : Memref sig .tc .vmem S1x1024 .f32 := win2_2.stage (cfg2.slots t 2)
abbrev ms2_3 (t : Fin cfg2.N) : Memref sig .tc .vmem S1024x1024 .f32 := win2_3.stage (cfg2.slots t 3)

/-- The region's own resources with the accumulator at contents a: the other stages' scoped buffers at anything,
    the accumulator at a, the generator register at some state. -/
def Phi2At (c : Dev nD) (a : Vec F S1024x1024 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ owns (c : Thread nD τ) scM2 fullShare a) ∗ (∃ r, prngReg c r))

/-- What the launch hands the region is the same with the accumulator at anything. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ d, owns (c : Thread nD τ) scM2 fullShare d)) ∗ (∃ r, prngReg c r)) := by
  unfold Pipeline.ΦA; rw [scopedRest2_eq]; simp only [scM2, owns_whole]; try rfl

/-- The invariant before position n: before the first point what the launch hands over; afterwards the
    accumulator at what the point before left. -/
def PhiS2 (c : Dev nD) : ℕ → sProp 𝕄
  | 0 => Pipeline.ΦA spec2 c
  | n + 1 => Phi2At c (accAt2 V c n)

theorem PhiS2_succ (c : Dev nD) (n : ℕ) : PhiS2 V c (n + 1) = Phi2At c (accAt2 V c n) := rfl
theorem PhiS2_zero (c : Dev nD) (n : ℕ) (hz : n = 0) : PhiS2 V c n = Pipeline.ΦA spec2 c := by subst hz; rfl
theorem PhiS2_pos (c : Dev nD) (n : ℕ) (hz : n ≠ 0) : PhiS2 V c n = Phi2At c (accAt2 V c (n - 1)) := by
  cases n with
  | zero => exact absurd rfl hz
  | succ n => rfl

/-! ## The proof data -/

/-- The proof data of the region on core c: the arrays as the region finds them; after the body each input's
    buffer at its block and the output's at the accumulator plus the bias row (consulted at k = 3 only, where the
    window is live); the invariant above; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accAt2 V c t.val) (iblk2 V c 2 t)
  Φ t := PhiS2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (accAt2 V c t.val) (iblk2 V c 2 t) := by dsimp only [dat2]

theorem PhiS2_castSucc (c : Dev nD) (t : Fin cfg2.N) : (dat2 V c).Φ t.castSucc = PhiS2 V c t.val := by
  dsimp only [dat2]; simp only [Fin.coe_castSucc]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- The inputs are never idle. -/
theorem liveAt2_in (w : Fin cfg2.W) (hw : w.val < 3) (t : Fin cfg2.N) : cfg2.idle w (grid2.coords t) = false := by
  match w, hw with
  | ⟨0, _⟩, _ => rfl
  | ⟨1, _⟩, _ => rfl
  | ⟨2, _⟩, _ => rfl

/-! ## The body obligation -/

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the contraction coordinate selects the run; the
    invariant hands the body the accumulator at what the point before left (at anything at a first contraction
    block) and takes it back at this point's contents; away from k = 3 the output buffer is handed back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) from rfl, PhiS2_succ, PhiS2_castSucc]
  rw [show (dat2 V c).leavesExact 0 t = owns (c : Thread nD τ) (ms2_0 t) fullShare ((dat2 V c).after 0 t) from by
    unfold Dat.leavesExact; rw [liveAt2_in 0 (by decide) t], after2_0]
  rw [show (dat2 V c).leavesExact 1 t = owns (c : Thread nD τ) (ms2_1 t) fullShare ((dat2 V c).after 1 t) from by
    unfold Dat.leavesExact; rw [liveAt2_in 1 (by decide) t], after2_1]
  rw [show (dat2 V c).leavesExact 2 t = owns (c : Thread nD τ) (ms2_2 t) fullShare ((dat2 V c).after 2 t) from by
    unfold Dat.leavesExact; rw [liveAt2_in 2 (by decide) t], after2_2]
  have hN : t.val < 256 := lt_of_lt_of_eq t.isLt (show cfg2.N = 256 from N_2)
  by_cases h3 : t.val % 4 = 3
  · have h0 : ¬t.val % 4 = 0 := by omega
    have hc0 : ¬cond2_0 (grid2.coords t) := fun h => h0 ((hcond2_0 t).mp h)
    have hc1 : cond2_1 (grid2.coords t) := (hcond2_1 t).mpr h3
    rw [show (dat2 V c).leavesExact 3 t = owns (c : Thread nD τ) (ms2_3 t) fullShare ((dat2 V c).after 3 t) from by
      unfold Dat.leavesExact; rw [liveAt2_3 t hc1], after2_3]
    rw [accAt2_next V c t h0]
    rw [PhiS2_pos V c _ (by omega : t.val ≠ 0)]; unfold Phi2At
    iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
    iapply (run2_last c Set.univ (grid2.coords t) _ _ _ _ _ _ _ _ _ _ hc0 hc1
      (iblk2 V c 0 t) (iblk2 V c 1 t) (iblk2 V c 2 t) (accAt2 V c (t.val - 1)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HR0 HR1 HR2 HR3 HR4 HR5 HR6 HR7 HR8 HR9 HS Hg]
    · isplitl [HR0 HR1 HR2 HR3 HR4 HR5 HR6 HR7 HR8 HR9 HS]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        iexact HS
      iexact Hg
    isplitl [Ho]; · iexact Ho
    isplitl [H0]; · iexact H0
    isplitl [H1]; · iexact H1
    isplitl [H2]; · iexact H2
    iexact H3
  · have hc1 : ¬cond2_1 (grid2.coords t) := fun h => h3 ((hcond2_1 t).mp h)
    rw [Dat.leavesExact_idle (dat2 V c) 3 t (idleAt2_3 t hc1) (by
      cases hf : (cfg2.win 3).flush t with
      | false => rfl
      | true => exact absurd ((flush2_3 t).mp hf) h3)]
    by_cases h0 : t.val % 4 = 0
    · have hc0 : cond2_0 (grid2.coords t) := (hcond2_0 t).mpr h0
      rw [accAt2_first V c t h0]
      by_cases hz : t.val = 0
      · rw [PhiS2_zero V c _ hz, PhiA2_eq]; unfold Phi2At
        iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
        iapply (run2_first c Set.univ (grid2.coords t) _ _ _ _ _ _ _ _ _ _ hc0 hc1
          (iblk2 V c 0 t) (iblk2 V c 1 t) (iblk2 V c 2 t) ((dat2 V c).before 3 t d3) _)
        isplitl [H0]; · iexact H0
        isplitl [H1]; · iexact H1
        isplitl [H2]; · iexact H2
        isplitl [H3]; · iexact H3
        isplitl [HS]; · iexact HS
        iintro ⟨H0, H1, H2, H3, HS⟩
        isplitl [HR0 HR1 HR2 HR3 HR4 HR5 HR6 HR7 HR8 HR9 HS Hg]
        · isplitl [HR0 HR1 HR2 HR3 HR4 HR5 HR6 HR7 HR8 HR9 HS]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            iexact HS
          iexact Hg
        isplitl [Ho]; · iexact Ho
        isplitl [H0]; · iexact H0
        isplitl [H1]; · iexact H1
        isplitl [H2]; · iexact H2
        iexists _; iexact H3
      · rw [PhiS2_pos V c _ hz]; unfold Phi2At
        iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
        iapply (run2_first c Set.univ (grid2.coords t) _ _ _ _ _ _ _ _ _ _ hc0 hc1
          (iblk2 V c 0 t) (iblk2 V c 1 t) (iblk2 V c 2 t) ((dat2 V c).before 3 t d3) _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HR0 HR1 HR2 HR3 HR4 HR5 HR6 HR7 HR8 HR9 HS Hg]
        · isplitl [HR0 HR1 HR2 HR3 HR4 HR5 HR6 HR7 HR8 HR9 HS]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            iexact HS
          iexact Hg
        isplitl [Ho]; · iexact Ho
        isplitl [H0]; · iexact H0
        isplitl [H1]; · iexact H1
        isplitl [H2]; · iexact H2
        iexists _; iexact H3
    · have hc0 : ¬cond2_0 (grid2.coords t) := fun h => h0 ((hcond2_0 t).mp h)
      rw [accAt2_next V c t h0]
      rw [PhiS2_pos V c _ (by omega : t.val ≠ 0)]; unfold Phi2At
      iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
      iapply (run2_mid c Set.univ (grid2.coords t) _ _ _ _ _ _ _ _ _ _ hc0 hc1
        (iblk2 V c 0 t) (iblk2 V c 1 t) (iblk2 V c 2 t) ((dat2 V c).before 3 t d3) (accAt2 V c (t.val - 1)) _)
      isplitl [H0]; · iexact H0
      isplitl [H1]; · iexact H1
      isplitl [H2]; · iexact H2
      isplitl [H3]; · iexact H3
      isplitl [HS]; · iexact HS
      iintro ⟨H0, H1, H2, H3, HS⟩
      isplitl [HR0 HR1 HR2 HR3 HR4 HR5 HR6 HR7 HR8 HR9 HS Hg]
      · isplitl [HR0 HR1 HR2 HR3 HR4 HR5 HR6 HR7 HR8 HR9 HS]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          iexact HS
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 from rfl, PhiS2_zero V c 0 rfl]
  try exact Idealize.SL.BI.Entails.refl _

/-- After the last point the invariant gives it back: the accumulator's named contents are forgotten. -/
theorem hout2 (c : Dev nD) : (dat2 V c).Φ (Fin.last cfg2.N) ⊢ (Pipeline.ΦA spec2 c : sProp 𝕄) := by
  rw [show (dat2 V c).Φ (Fin.last cfg2.N) = PhiS2 V c cfg2.N from rfl,
    PhiS2_pos V c _ (by have : cfg2.N = 256 := N_2; omega), PhiA2_eq]
  unfold Phi2At
  iintro ⟨⟨HR0, HR1, HR2, HR3, HR4, HR5, HR6, HR7, HR8, HR9, HS⟩, Hg⟩
  isplitl [HR0 HR1 HR2 HR3 HR4 HR5 HR6 HR7 HR8 HR9 HS]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    iexists _; iexact HS
  iexact Hg

end Cert.KernelIdeal.H
end
-- ==== Proof.KI.Vals.lean ====
/-
  The buffer contents between the items of @main, as a fold from the launch memory.

  @main is: region 0, region 1, two reshapes, region 2, one reshape. Between two items every unscoped buffer of the
  TensorCore holds known contents: at launch the memory `m`; after a region its arrays at what the region's
  write-backs leave and every other buffer as before; after a stretch of host operations their results written.
  Each region's proof data is taken at the contents the region is entered from.
-/
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«171202_j46084999086226_2_alg».proof.Proof.KI.Reg0
import proofs.«171202_j46084999086226_2_alg».proof.Proof.KI.Reg1
import proofs.«171202_j46084999086226_2_alg».proof.Proof.KI.Reg2Frame
set_option maxRecDepth 16384
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ

variable (m : (ℓ : Loc nD τ sig) → Buf (Elt F) ℓ)

/-- Core `c`'s buffers at launch (region 0's entry), -/
abbrev W0 : Dev nD → Valuation τ sig (Elt F) := fun c b => m ((c : Dev nD), b)
/-- and the same read at the TensorCore's references. -/
abbrev V0 : (c : Dev nD) → (b : Ref sig .tc) → Buf (Elt F) ((c : Thread nD τ).loc b) := fun c b => W0 m c b

/-- At region 0's exit: its arrays at what the pipeline leaves (the inputs as entered, the output's write-backs folded),
    every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- At region 1's exit: its arrays at what the pipeline leaves (the inputs as entered, the output's write-backs folded),
    every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the two reshapes between regions 1 and 2. -/
abbrev W3 : Dev nD → Valuation τ sig (Elt F) := fun c => StableHlo.after hostOps2 (W2 m c)
abbrev V3 : (c : Dev nD) → (b : Ref sig .tc) → Buf (Elt F) ((c : Thread nD τ).loc b) := fun c b => W3 m c b

/-- At region 2's exit: its arrays at what the pipeline leaves (the inputs as entered, the output's write-backs folded),
    every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the last reshape: the contents @main returns with. -/
abbrev W5 : Dev nD → Valuation τ sig (Elt F) := fun c => StableHlo.after hostOps3 (W4 m c)

end Cert.KernelIdeal.H

end
-- ==== Proof.KI.Run.lean ====
/-
  @main as five segments and its run: every weakly fair execution terminates, nothing faults, and every unscoped
  buffer of the TensorCore ends at the contents the fold of Vals.lean names.

  The three kernel regions each take their windows' arrays out of the unscoped buffers, run their pipeline over the
  proof data of Reg0 / Reg1 / Reg2 (the body obligation at every grid point), and put the arrays back at what the
  write-backs leave; the two stretches of reshapes run over the buffers as host operations. Nothing is owed between
  cores, no kernel has a semaphore of its own, and the generator register rides along untouched.
-/
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«171202_j46084999086226_2_alg».proof.Proof.Gen.KernelIdeal.Regions
import proofs.«171202_j46084999086226_2_alg».proof.Proof.KI.Vals
set_option maxRecDepth 16384
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- Every pipeline's proof data, each at the contents its region is entered from. -/
def pdats : (p : Fin 3) → (c : Dev nD) → Dat τ (Elt F) Unit ℕ (Pipeline.UD sig nD τ) ℕ (Pipeline.pin (pcfgs (F := F)) adm p) c
  | ⟨0, _⟩ => fun c => dat0 (V0 m) c
  | ⟨1, _⟩ => fun c => dat1 (V1 m) c
  | ⟨2, _⟩ => fun c => dat2 (V3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core's debts, none. -/
abbrev R (c : Dev nD) : sProp 𝕄 := iprop((∃ r, prngReg c r) ∗ ∃ W, owes (c : Thread nD τ) (0 : CellTallies nD τ sig Unit) W)

/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- Region 0 as a segment. It is entered with every unscoped buffer at the contents `W0` beside the generator
    register and the core's (empty) debts; its windows' arrays are taken out of those buffers for the pipeline, the rest
    passes by; the register travels through the invariant; at the exit the arrays come back at what the write-backs left
    and rejoin the rest as the contents `W1`. The kernel has no semaphore of its own and the core owes nothing. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m c)
  hentry c := by
    -- the arrays out of the unscoped buffers; no table; the debts within any bound; the register; the rest
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    rw [Pipeline.ownSems0_none]
    iintro ⟨⟨Hbufs, Hreg, Hdebt⟩, -, -⟩
    ihave Hparts := hsplit $$ Hbufs
    icases Hparts with ⟨Harr, Hother⟩
    icases Hdebt with ⟨%W, Hdebt⟩
    imodintro
    isplitl [Harr]; · iexact Harr
    isplitr
    · unfold Pipeline.prefHeld; rw [show (Finset.univ : Finset (Fin 0)) = ∅ from rfl, BI.bigSep_empty]; iempintro
    isplitl [Hdebt]
    · unfold Pipeline.Dat.owesAt Pipeline.owesWithin
      iexists W; isplitr; · ipureintro; exact fun _ _ => Or.inl trivial
      iexact Hdebt
    isplitl [Hreg]; · iexact Hreg
    iexact Hother
  hin c := by
    refine BIBase.Entails.trans ?_ (hin0 (V0 m) c)
    unfold Pipeline.ΦA
    iintro ⟨Hreg, -, Hscoped⟩
    isplitl [Hscoped]; · iexact Hscoped
    iexact Hreg
  hout c := by
    rw [Pipeline.ownSems0_none]
    refine BIBase.Entails.trans (hout0 (V0 m) c) ?_
    unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Harr, Hdebt, Hreg, Hother⟩
    unfold Pipeline.Dat.owesAt Pipeline.owesWithin
    icases Hdebt with ⟨%W, -, Hdebt⟩
    imodintro
    isplitl [Harr Hother]
    · iapply hjoin; isplitl [Harr] <;> iassumption
    isplitl [Hreg]; · iexact Hreg
    iexists W; iexact Hdebt

set_option backward.isDefEq.respectTransparency.types false in
/-- Region 1 as a segment. It is entered with every unscoped buffer at the contents `W1` beside the generator
    register and the core's (empty) debts; its windows' arrays are taken out of those buffers for the pipeline, the rest
    passes by; the register travels through the invariant; at the exit the arrays come back at what the write-backs left
    and rejoin the rest as the contents `W2`. The kernel has no semaphore of its own and the core owes nothing. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V1 m c)
  hentry c := by
    -- the arrays out of the unscoped buffers; no table; the debts within any bound; the register; the rest
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    rw [Pipeline.ownSems0_none]
    iintro ⟨⟨Hbufs, Hreg, Hdebt⟩, -, -⟩
    ihave Hparts := hsplit $$ Hbufs
    icases Hparts with ⟨Harr, Hother⟩
    icases Hdebt with ⟨%W, Hdebt⟩
    imodintro
    isplitl [Harr]; · iexact Harr
    isplitr
    · unfold Pipeline.prefHeld; rw [show (Finset.univ : Finset (Fin 0)) = ∅ from rfl, BI.bigSep_empty]; iempintro
    isplitl [Hdebt]
    · unfold Pipeline.Dat.owesAt Pipeline.owesWithin
      iexists W; isplitr; · ipureintro; exact fun _ _ => Or.inl trivial
      iexact Hdebt
    isplitl [Hreg]; · iexact Hreg
    iexact Hother
  hin c := by
    refine BIBase.Entails.trans ?_ (hin1 (V1 m) c)
    unfold Pipeline.ΦA
    iintro ⟨Hreg, -, Hscoped⟩
    isplitl [Hscoped]; · iexact Hscoped
    iexact Hreg
  hout c := by
    rw [Pipeline.ownSems0_none]
    refine BIBase.Entails.trans (hout1 (V1 m) c) ?_
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Harr, Hdebt, Hreg, Hother⟩
    unfold Pipeline.Dat.owesAt Pipeline.owesWithin
    icases Hdebt with ⟨%W, -, Hdebt⟩
    imodintro
    isplitl [Harr Hother]
    · iapply hjoin; isplitl [Harr] <;> iassumption
    isplitl [Hreg]; · iexact Hreg
    iexists W; iexact Hdebt

set_option backward.isDefEq.respectTransparency.types false in
/-- Region 2 as a segment. It is entered with every unscoped buffer at the contents `W3` beside the generator
    register and the core's (empty) debts; its windows' arrays are taken out of those buffers for the pipeline, the rest
    passes by; the register travels through the invariant; at the exit the arrays come back at what the write-backs left
    and rejoin the rest as the contents `W4`. The kernel has no semaphore of its own and the core owes nothing. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V3 m c)
  hentry c := by
    -- the arrays out of the unscoped buffers; no table; the debts within any bound; the register; the rest
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    rw [Pipeline.ownSems0_none]
    iintro ⟨⟨Hbufs, Hreg, Hdebt⟩, -, -⟩
    ihave Hparts := hsplit $$ Hbufs
    icases Hparts with ⟨Harr, Hother⟩
    icases Hdebt with ⟨%W, Hdebt⟩
    imodintro
    isplitl [Harr]; · iexact Harr
    isplitr
    · unfold Pipeline.prefHeld; rw [show (Finset.univ : Finset (Fin 0)) = ∅ from rfl, BI.bigSep_empty]; iempintro
    isplitl [Hdebt]
    · unfold Pipeline.Dat.owesAt Pipeline.owesWithin
      iexists W; isplitr; · ipureintro; exact fun _ _ => Or.inl trivial
      iexact Hdebt
    isplitl [Hreg]; · iexact Hreg
    iexact Hother
  hin c := by
    refine BIBase.Entails.trans ?_ (hin2 (V3 m) c)
    unfold Pipeline.ΦA
    iintro ⟨Hreg, -, Hscoped⟩
    isplitl [Hscoped]; · iexact Hscoped
    iexact Hreg
  hout c := by
    rw [Pipeline.ownSems0_none]
    refine BIBase.Entails.trans (hout2 (V3 m) c) ?_
    unfold Pipeline.ΦA
    iintro ⟨Hscoped, Hreg⟩
    isplitl [Hreg]; · iexact Hreg
    isplitr; · iempintro
    iexact Hscoped
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Harr, Hdebt, Hreg, Hother⟩
    unfold Pipeline.Dat.owesAt Pipeline.owesWithin
    icases Hdebt with ⟨%W, -, Hdebt⟩
    imodintro
    isplitl [Harr Hother]
    · iapply hjoin; isplitl [Harr] <;> iassumption
    isplitl [Hreg]; · iexact Hreg
    iexists W; iexact Hdebt

/-- @main's five segments in order. -/
abbrev segs : List (Pipeline.Seg (pcfgs (F := F)) adm (pdats m) () defs₀ 𝒱₀ L lv) :=
  [ .region (reg0 m), .region (reg1 m), .host (hseg hostOps2 hostOps2_sub hostOps2_fresh (W2 m)),
    .region (reg2 m), .host (hseg hostOps3 hostOps3_sub hostOps3_fresh (W4 m)) ]

/-- @main is the run of the segments. -/
theorem main_run (c : Dev nD) : main (F := F) c = Pipeline.Seg.run (segs m) := (main_chain c).trans (by chain_rfl)

/-- The last thread state without the debts. -/
abbrev Tₙ (c : Dev nD) : sProp 𝕄 := iprop(StableHlo.held (c : Thread nD τ) (Pipeline.ucRefs τ sig) (W5 m c) ∗ ∃ r, prngReg c r)

set_option backward.isDefEq.respectTransparency.types false in
/-- THE RUN. From any memory `m` with every counter at zero: every weakly fair execution of @main terminates, nothing
    faulting, and every unscoped buffer of every TensorCore ends at `W5 m c`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hreg, Hdebt⟩
      isplitl [Hh Hreg]
      · isplitl [Hh] <;> iassumption
      iexact Hdebt⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.H

end
-- ==== Proof.KI.Reg2.lean ====
/-
  Stage 3 (the tiled matrix product) as one region: what the arrays hold afterwards.

  The three input arrays are as entered. The output array holds, at row R and column C, entry (R % 1024, C % 1024)
  of output tile q = (R / 1024) * 4 + C / 1024: the accumulator after the tile's four contraction blocks plus the
  bias row, written back at the tile's last point 4*q + 3; the 64 tiles cover the array. A block read is the
  array read at the block's offset: point t = (i*4 + j)*4 + k has i = t / 16, j = t / 4 % 4, k = t % 4.
-/
import proofs.«171202_j46084999086226_2_alg».proof.Proof.KI.Reg2Frame
import Idealize.ShloMosaic.Lib.ValueIdx

set_option maxRecDepth 16384

noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ
variable (V : (c : Dev nD) → (b : Ref sig .tc) → Buf (Elt F) ((c : Thread nD τ).loc b))

/-! ## The index maps, in closed form over the grid -/

/-- Each window's block index at point t. -/
theorem idx_facts2 : ∀ t : Fin cfg2.N,
    win2_0.index t (0 : Fin 2) = t.val / 16 ∧ win2_0.index t (1 : Fin 2) = t.val % 4
    ∧ win2_1.index t (0 : Fin 2) = t.val / 4 % 4 ∧ win2_1.index t (1 : Fin 2) = t.val % 4
    ∧ win2_2.index t (0 : Fin 2) = 0 ∧ win2_2.index t (1 : Fin 2) = t.val / 4 % 4
    ∧ win2_3.index t (0 : Fin 2) = t.val / 16 ∧ win2_3.index t (1 : Fin 2) = t.val / 4 % 4 :=
  (by decide +kernel : ∀ t : Fin grid2.N,
    win2_0.index t (0 : Fin 2) = t.val / 16 ∧ win2_0.index t (1 : Fin 2) = t.val % 4
    ∧ win2_1.index t (0 : Fin 2) = t.val / 4 % 4 ∧ win2_1.index t (1 : Fin 2) = t.val % 4
    ∧ win2_2.index t (0 : Fin 2) = 0 ∧ win2_2.index t (1 : Fin 2) = t.val / 4 % 4
    ∧ win2_3.index t (0 : Fin 2) = t.val / 16 ∧ win2_3.index t (1 : Fin 2) = t.val / 4 % 4)

theorem N2_lt (t : Fin cfg2.N) : t.val < 256 := lt_of_lt_of_eq t.isLt (show cfg2.N = 256 from N_2)

/-! ## A block read is the array read at the shifted index -/

theorem iblk2_0_apply (c : Dev nD) (t : Fin cfg2.N) (y : S1024x1024.Idx) :
    iblk2 V c 0 t y = V c main_v2 (ValueIdx.ix2
      ⟨1024 * (t.val / 16) + (y 0).val, by have := N2_lt t; have := ValueIdx.idx2_lt0 y; omega⟩
      ⟨1024 * (t.val % 4) + (y 1).val, by have := ValueIdx.idx2_lt1 y; omega⟩) := by
  obtain ⟨e0, e1, -⟩ := idx_facts2 t
  show V c main_v2 (((cfg2.win 0).blk t).view.emb y) = _
  refine congrArg (V c main_v2) ?_
  funext a; apply Fin.ext
  match a with
  | ⟨0, _⟩ =>
    show win2_0.index t (0 : Fin 2) * 1024 + 1 * (y 0).val = 1024 * (t.val / 16) + (y 0).val
    omega
  | ⟨1, _⟩ =>
    show win2_0.index t (1 : Fin 2) * 1024 + 1 * (y 1).val = 1024 * (t.val % 4) + (y 1).val
    omega

theorem iblk2_1_apply (c : Dev nD) (t : Fin cfg2.N) (y : S1024x1024.Idx) :
    iblk2 V c 1 t y = V c main_v1 (ValueIdx.ix2
      ⟨1024 * (t.val / 4 % 4) + (y 0).val, by have := ValueIdx.idx2_lt0 y; omega⟩
      ⟨1024 * (t.val % 4) + (y 1).val, by have := ValueIdx.idx2_lt1 y; omega⟩) := by
  obtain ⟨-, -, e0, e1, -⟩ := idx_facts2 t
  show V c main_v1 (((cfg2.win 1).blk t).view.emb y) = _
  refine congrArg (V c main_v1) ?_
  funext a; apply Fin.ext
  match a with
  | ⟨0, _⟩ =>
    show win2_1.index t (0 : Fin 2) * 1024 + 1 * (y 0).val = 1024 * (t.val / 4 % 4) + (y 0).val
    omega
  | ⟨1, _⟩ =>
    show win2_1.index t (1 : Fin 2) * 1024 + 1 * (y 1).val = 1024 * (t.val % 4) + (y 1).val
    omega

theorem iblk2_2_apply (c : Dev nD) (t : Fin cfg2.N) (y : S1x1024.Idx) :
    iblk2 V c 2 t y = V c main_v3 (ValueIdx.ix2 (0 : Fin 1)
      ⟨1024 * (t.val / 4 % 4) + (y 1).val, by have := ValueIdx.idx2_lt1 y; omega⟩) := by
  obtain ⟨-, -, -, -, e0, e1, -⟩ := idx_facts2 t
  have hy0 := ValueIdx.idx2_lt0 y
  show V c main_v3 (((cfg2.win 2).blk t).view.emb y) = _
  refine congrArg (V c main_v3) ?_
  funext a; apply Fin.ext
  match a with
  | ⟨0, _⟩ =>
    show win2_2.index t (0 : Fin 2) * 1 + 1 * (y 0).val = 0
    omega
  | ⟨1, _⟩ =>
    show win2_2.index t (1 : Fin 2) * 1024 + 1 * (y 1).val = 1024 * (t.val / 4 % 4) + (y 1).val
    omega

/-! ## The output array -/

/-- The output array after the region, index by index: the output tile's entry. -/
def G2out (c : Dev nD) : S16384x4096.Idx → Elt F .f32 := fun i =>
  out2 (xblks2 V c ((i 0).val / 1024 * 4 + (i 1).val / 1024)) (wblks2 V c ((i 0).val / 1024 * 4 + (i 1).val / 1024))
    (iblk2 V c 2 ⟨(4 * ((i 0).val / 1024 * 4 + (i 1).val / 1024) + 3) % 256, pt_lt2 _⟩)
    (ValueIdx.ix2 ⟨(i 0).val % 1024, Nat.mod_lt _ (by decide)⟩ ⟨(i 1).val % 1024, Nat.mod_lt _ (by decide)⟩)

/-- At a tile's last point t = 4*q + 3 the output buffer holds the tile: the accumulator there is the recursion's
    fourth step, and the bias tile is the point's. -/
theorem out2_at (c : Dev nD) (t : Fin cfg2.N) (h3 : t.val % 4 = 3) (q : ℕ) (hq : q = t.val / 4) :
    out2 (xblks2 V c q) (wblks2 V c q) (iblk2 V c 2 ⟨(4 * q + 3) % 256, pt_lt2 _⟩)
      = k2_pay3 (accAt2 V c t.val) (iblk2 V c 2 t) := by
  subst hq
  have ht : (⟨(4 * (t.val / 4) + 3) % 256, pt_lt2 _⟩ : Fin cfg2.N) = t :=
    Fin.ext (by show (4 * (t.val / 4) + 3) % 256 = t.val; have := N2_lt t; omega)
  rw [ht]; unfold out2 accAt2; rw [h3]

/-- What a last point writes back is its block of the array above. -/
theorem flushed2_3_eq (c : Dev nD) (t : Fin cfg2.N) (hf : (cfg2.win 3).flush t = true) :
    (dat2 V c).flushed 3 t = ((cfg2.win 3).blk t).view.read (Elt F) (G2out V c) := by
  have h3 : t.val % 4 = 3 := (flush2_3 t).mp hf
  have hN := N2_lt t
  obtain ⟨-, -, -, -, -, -, e0, e1⟩ := idx_facts2 t
  show (cfg2.win 3).cut (grid2.coords t) ((dat2 V c).after 3 t) = _
  rw [after2_3]
  funext j
  show k2_pay3 (accAt2 V c t.val) (iblk2 V c 2 t) j = G2out V c (((cfg2.win 3).blk t).view.emb j)
  have hj0 : (j 0).val < 1024 := (j 0).isLt
  have hj1 : (j 1).val < 1024 := (j 1).isLt
  have he0 : ((((cfg2.win 3).blk t).view.emb j) 0).val = 1024 * (t.val / 16) + (j 0).val := by
    show win2_3.index t (0 : Fin 2) * 1024 + 1 * (j 0).val = _; omega
  have he1 : ((((cfg2.win 3).blk t).view.emb j) 1).val = 1024 * (t.val / 4 % 4) + (j 1).val := by
    show win2_3.index t (1 : Fin 2) * 1024 + 1 * (j 1).val = _; omega
  generalize ((cfg2.win 3).blk t).view.emb j = i at he0 he1
  unfold G2out
  have hq : (i 0).val / 1024 * 4 + (i 1).val / 1024 = t.val / 4 := by omega
  rw [out2_at V c t h3 _ hq]
  refine congrArg _ ?_
  funext a
  match a with
  | ⟨0, _⟩ => exact Fin.ext (by show (j 0).val = (i 0).val % 1024; omega)
  | ⟨1, _⟩ => exact Fin.ext (by show (j 1).val = (i 1).val % 1024; omega)

/-- Every index of the output array is in the block of its tile's last point. -/
theorem cover2_3 (i : S16384x4096.Idx) :
    ∃ t : Fin cfg2.N, (cfg2.win 3).flush t = true ∧ i ∈ ((cfg2.win 3).blk t).view.set := by
  have hi0 : (i 0).val < 16384 := (i 0).isLt
  have hi1 : (i 1).val < 4096 := (i 1).isLt
  have hlt : 4 * ((i 0).val / 1024 * 4 + (i 1).val / 1024) + 3 < cfg2.N := by
    rw [show cfg2.N = 256 from N_2]; omega
  obtain ⟨-, -, -, -, -, -, e0, e1⟩ := idx_facts2 ⟨_, hlt⟩
  have e0' : win2_3.index ⟨_, hlt⟩ (0 : Fin 2) = (4 * ((i 0).val / 1024 * 4 + (i 1).val / 1024) + 3) / 16 := e0
  have e1' : win2_3.index ⟨_, hlt⟩ (1 : Fin 2) = (4 * ((i 0).val / 1024 * 4 + (i 1).val / 1024) + 3) / 4 % 4 := e1
  refine ⟨⟨_, hlt⟩, (flush2_3 _).mpr (by show (4 * ((i 0).val / 1024 * 4 + (i 1).val / 1024) + 3) % 4 = 3; omega), ?_⟩
  show i ∈ ((View.whole main_v4).slice (win2_3.rect ⟨_, hlt⟩)).set
  rw [View.set_slice_whole, Rect.mem_set_unit]
  intro a
  match a with
  | ⟨0, _⟩ =>
    show win2_3.index ⟨_, hlt⟩ (0 : Fin 2) * 1024 ≤ (i 0).val ∧ (i 0).val < win2_3.index ⟨_, hlt⟩ (0 : Fin 2) * 1024 + 1024
    rw [e0']; omega
  | ⟨1, _⟩ =>
    show win2_3.index ⟨_, hlt⟩ (1 : Fin 2) * 1024 ≤ (i 1).val ∧ (i 1).val < win2_3.index ⟨_, hlt⟩ (1 : Fin 2) * 1024 + 1024
    rw [e1']; omega

/-- So the output array ends holding it. -/
theorem final2_3 (c : Dev nD) : (dat2 V c).arrAt 3 cfg2.N = G2out V c :=
  (dat2 V c).arrAt_eq_of_cover 3 (G2out V c) (flushed2_3_eq V c) cover2_3

/-! ## The arrays after the region -/

theorem arr2_in (c : Dev nD) (w : Fin cfg2.W) (hw : w.val < 3) : (dat2 V c).arrAt w cfg2.N = V c (Pipeline.arrRef spec2 w) := by
  match w, hw with
  | ⟨0, _⟩, _ => exact ((dat2 V c).arrAt_in 0 rfl _).trans (A_eq2 V c 0)
  | ⟨1, _⟩, _ => exact ((dat2 V c).arrAt_in 1 rfl _).trans (A_eq2 V c 1)
  | ⟨2, _⟩, _ => exact ((dat2 V c).arrAt_in 2 rfl _).trans (A_eq2 V c 2)
  | ⟨3, _⟩, h => exact absurd h (Nat.lt_irrefl 3)

theorem arr2_out (c : Dev nD) (R : Fin 16384) (C : Fin 4096) :
    (dat2 V c).arrAt 3 cfg2.N (ValueIdx.ix2 R C)
      = out2 (xblks2 V c ((R.val / 1024) * 4 + C.val / 1024)) (wblks2 V c ((R.val / 1024) * 4 + C.val / 1024))
          (iblk2 V c 2 ⟨(4 * ((R.val / 1024) * 4 + C.val / 1024) + 3) % 256, pt_lt2 _⟩)
          (ValueIdx.ix2 ⟨R.val % 1024, Nat.mod_lt _ (by decide)⟩ ⟨C.val % 1024, Nat.mod_lt _ (by decide)⟩) := by
  rw [final2_3 V c]
  unfold G2out
  rfl

end Cert.KernelIdeal.H
end
-- ==== Proof.Spec.lean ====
/-
  The kernel's result as ONE function of the three argument arrays, and the reference's scale.

  The weight matrix w (4096 x 4096) is read in 32 blocks of 128 rows; its scale is stage 1's recursion over those
  blocks. The ternarized weight is, entry by entry, stage 2's pointwise payload of the row block holding the entry
  and the 1x1 scale. The activations x (8 x 2048 x 4096) are read as a 16384 x 4096 matrix; output row R and column C
  lie in tile q = (R / 1024) * 4 + C / 1024, whose value is stage 3's recursion over the four contraction blocks of
  the tile's 1024 rows of x and 1024 rows of the ternarized weight, plus the bias tile. `kernelOut` is that value
  read back in the shape 8 x 2048 x 4096. `refScale` is the scale as the reference computes it: the count taken
  as a 32-bit integer sum, compared and clamped as an integer, and only then converted.
-/
import proofs.«171202_j46084999086226_2_alg».proof.Proof.Pure
import proofs.«171202_j46084999086226_2_alg».proof.Proof.Gen.ReferenceIdeal
import Idealize.ShloMosaic.Lib.ValueIdx

noncomputable section

namespace Cert.KernelIdeal.H

open Idealize.ShloMosaic Idealize.ShloMosaic.ValueIdx Cert.KernelIdeal Cert.KernelIdeal.Gen

variable {F : FTy → Type} [FloatOps F]

/-- Row block `n` (mod 32) of the weight matrix: rows 128 n … 128 n + 127. -/
def wBlk (w : FVec F S4096x4096 .f32) (n : ℕ) : Vec F S128x4096 .f32 := fun y =>
  w (ix2 (⟨128 * (n % 32) + (y 0).val, by have := idx2_lt0 y; omega⟩ : Fin 4096) (⟨(y 1).val, idx2_lt1 y⟩ : Fin 4096))

/-- The scale as a 1x1 array: stage 1 over the 32 row blocks. -/
def scaleOf (w : FVec F S4096x4096 .f32) : Vec F S1x1 .f32 := scale0 (wBlk w)

/-- The ternarized weight, entry (r, d): stage 2's payload of row block r / 128 and the scale, at (r % 128, d). -/
def wtOf (w : FVec F S4096x4096 .f32) : FVec F S4096x4096 .bf16 := fun i =>
  k1_pay1 (wBlk w ((i 0).val / 128)) (scaleOf w)
    (ix2 (⟨(i 0).val % 128, Nat.mod_lt _ (by decide)⟩ : Fin 128) (⟨(i 1).val, idx2_lt1 i⟩ : Fin 4096))

/-- The activations as a 16384 x 4096 matrix: row R is (R / 2048, R % 2048). -/
def x2Of (x : FVec F S8x2048x4096 .f32) : FVec F S16384x4096 .f32 := fun i =>
  x (ix3 (⟨(i 0).val / 2048, by have := idx2_lt0 i; omega⟩ : Fin 8) (⟨(i 0).val % 2048, Nat.mod_lt _ (by decide)⟩ : Fin 2048)
      (⟨(i 1).val, idx2_lt1 i⟩ : Fin 4096))

/-- Contraction block `k` (mod 4) of the activations' rows of tile `q` (= i * 4 + j, i = q / 4 mod 16). -/
def tileX (x2 : FVec F S16384x4096 .f32) (q k : ℕ) : Vec F S1024x1024 .f32 := fun y =>
  x2 (ix2 (⟨1024 * (q / 4 % 16) + (y 0).val, by have := idx2_lt0 y; omega⟩ : Fin 16384)
      (⟨1024 * (k % 4) + (y 1).val, by have := idx2_lt1 y; omega⟩ : Fin 4096))

/-- Contraction block `k` (mod 4) of the ternarized weight's rows of tile `q` (j = q mod 4). -/
def tileW (wt : FVec F S4096x4096 .bf16) (q k : ℕ) : Vec F S1024x1024 .bf16 := fun y =>
  wt (ix2 (⟨1024 * (q % 4) + (y 0).val, by have := idx2_lt0 y; omega⟩ : Fin 4096)
      (⟨1024 * (k % 4) + (y 1).val, by have := idx2_lt1 y; omega⟩ : Fin 4096))

/-- The bias tile of tile `q` (j = q mod 4), as a 1 x 1024 row. -/
def tileB (b : FVec F S4096 .f32) (q : ℕ) : Vec F S1x1024 .f32 := fun y =>
  b (ix1 (⟨1024 * (q % 4) + (y 1).val, by have := idx2_lt1 y; omega⟩ : Fin 4096))

/-- The kernel's result, entry (p, s, o): with R = 2048 p + s and C = o, entry (R % 1024, C % 1024) of tile
    q = (R / 1024) * 4 + C / 1024. -/
def kernelOut (x : FVec F S8x2048x4096 .f32) (w : FVec F S4096x4096 .f32) (b : FVec F S4096 .f32) : FVec F S8x2048x4096 .f32 := fun i =>
  out2 (tileX (x2Of x) (((2048 * (i 0).val + (i 1).val) / 1024) * 4 + (i 2).val / 1024))
       (tileW (wtOf w) (((2048 * (i 0).val + (i 1).val) / 1024) * 4 + (i 2).val / 1024))
       (tileB b (((2048 * (i 0).val + (i 1).val) / 1024) * 4 + (i 2).val / 1024))
    (ix2 (⟨(2048 * (i 0).val + (i 1).val) % 1024, Nat.mod_lt _ (by decide)⟩ : Fin 1024) (⟨(i 2).val % 1024, Nat.mod_lt _ (by decide)⟩ : Fin 1024))

end Cert.KernelIdeal.H

namespace Cert.ReferenceIdeal.RefSpec

open Idealize.ShloMosaic Idealize.ShloMosaic.ValueIdx Cert.ReferenceIdeal Cert.ReferenceIdeal.Gen

variable {F : FTy → Type} [FloatOps F]

/-- The mask of the entries whose magnitude exceeds one half. -/
def refMask (w : FVec F S4096x4096 .f32) : IVec S4096x4096 1 :=
  cmpf .ogt (Host.absf w) (broadcastInDim S4096x4096 ![] bcast_S_S4096x4096 (constant (F := F) S_ .f32 0x3F000000#32))

/-- The count of masked entries, a 32-bit integer sum. -/
def refCount (w : FVec F S4096x4096 .f32) : IVec S_ 32 :=
  Host.reduce IntOp.addi (extui 32 (refMask w) natLt_1_32) (constantI S_ 32 0#32) reducesTo_S4096x4096_S_d0_1 h_S_

/-- The scale as the reference computes it (a rank-0 array): the mean magnitude of the masked entries when the
    integer count is positive, else one. -/
def refScale (w : FVec F S4096x4096 .f32) : FVec F S_ .f32 :=
  select (cmpi .sgt (refCount w) (constantI S_ 32 0#32))
    (Host.divf (Host.reduceAdd (select (refMask w) (Host.absf w) (broadcastInDim S4096x4096 ![] bcast_S_S4096x4096 (id (constant (F := F) S_ .f32 0x00000000#32)))) (constant (F := F) S_ .f32 0x00000000#32) reducesTo_S4096x4096_S_d0_1 h_S_)
      (sitofp .f32 (maxsi (refCount w) (constantI S_ 32 1#32))))
    (constant (F := F) S_ .f32 0x3F800000#32)

/-- The reference's result as one term of the three arguments (the composed term of its 30 host operations). -/
def refOut (x : FVec F S8x2048x4096 .f32) (w : FVec F S4096x4096 .f32) (b : FVec F S4096 .f32) : FVec F S8x2048x4096 .f32 :=
  addf (Host.dotGeneral dot_S8x2048x4096_S4096x4096_S8x2048x4096_2_1_01_0_n_n none x
      (mulf (mulf (Host.sign w) (uitofp .f32 (refMask w))) (broadcastInDim S4096x4096 ![] bcast_S_S4096x4096 (refScale w))))
    (broadcastInDim S8x2048x4096 ![0, 1, 2] bcast_S1x1x4096_S8x2048x4096_0_1_2 (broadcastInDim S1x1x4096 ![2] bcast_S4096_S1x1x4096_2 b))

end Cert.ReferenceIdeal.RefSpec

end
-- ==== Proof.KI.Val1.lean ====
/-
  Region 1's values: which entries of the arrays its blocks are, and what its output array holds after the grid.

  Window 0's block at point t is rows 128 t … 128 t + 127 of the weight array as the region finds it; window 1's
  block is the whole 1x1 array at every point; window 2 writes back at every point, its block at point t being rows
  128 t … 128 t + 127 of the output array, so the 32 blocks tile the array and entry (r, d) of the output ends at what
  point r / 128 wrote at (r % 128, d): the pointwise payload of that row block and the 1x1 array. The two input
  arrays are never written.
-/
import proofs.«171202_j46084999086226_2_alg».proof.Proof.KI.Reg1
import proofs.«171202_j46084999086226_2_alg».proof.Proof.Spec

set_option maxRecDepth 16384

noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
variable (V : (c : Dev nD) → (b : Ref sig .tc) → Buf (Elt F) ((c : Thread nD τ).loc b))

theorem hz1 : (![0, 0] : Fin 2 → Nat) = fun _ => 0 := funext fun a => by fin_cases a <;> rfl

/-- The three windows' block indices over the grid: windows 0 and 2 sit at row block t, column block 0; window 1 at (0, 0). -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Point t's block of window 0 is row block t of the weight array as the region finds it. -/
theorem iblk1_0_eq (c : Dev nD) (t : Fin cfg1.N) : iblk1 V c 0 t = wBlk (V c main_arg1) t.val := by
  obtain ⟨e0, e1, -, -, -, -⟩ := idx_facts1 t
  have ht : t.val < 32 := lt_of_lt_of_eq t.isLt N_1
  refine funext fun (j : S128x4096.Idx) => ?_
  unfold iblk1
  rw [View.read_apply]
  show V c main_arg1 _ = V c main_arg1 _
  congr 1
  funext a
  apply Fin.ext
  match a with
  | ⟨0, _⟩ =>
    show win1_0.index t (0 : Fin 2) * 128 + 1 * (j 0).val = 128 * (t.val % 32) + (j 0).val
    omega
  | ⟨1, _⟩ =>
    show win1_0.index t (1 : Fin 2) * 4096 + 1 * (j 1).val = (j 1).val
    omega

/-- Window 1's block is the whole 1x1 array. -/
theorem iblk1_1_eq (c : Dev nD) (t : Fin cfg1.N) : iblk1 V c 1 t = V c main_v0 := by
  obtain ⟨-, -, e0, e1, -, -⟩ := idx_facts1 t
  refine funext fun (j : S1x1.Idx) => ?_
  unfold iblk1
  rw [View.read_apply]
  show V c main_v0 _ = V c main_v0 j
  congr 1
  funext a
  apply Fin.ext
  match a with
  | ⟨0, _⟩ =>
    show win1_1.index t (0 : Fin 2) * 1 + 1 * (j 0).val = (j 0).val
    omega
  | ⟨1, _⟩ =>
    show win1_1.index t (1 : Fin 2) * 1 + 1 * (j 1).val = (j 1).val
    omega

/-- After the region the two input arrays are as entered: an input window's array is never written back. -/
theorem arr1_in (c : Dev nD) (w : Fin cfg1.W) (hw : w.val < 2) : (dat1 V c).arrAt w cfg1.N = V c (Pipeline.arrRef spec1 w) := by
  obtain ⟨n, hn⟩ := w
  match n, hn, hw with
  | 0, _, _ => exact ((dat1 V c).arrAt_in 0 rfl cfg1.N).trans (A_eq1 V c 0)
  | 1, _, _ => exact ((dat1 V c).arrAt_in 1 rfl cfg1.N).trans (A_eq1 V c 1)
  | n + 2, _, h => exact absurd h (Nat.not_lt.mpr (Nat.le_add_left 2 n))

/-- The payload depends on the row block's number and on the entry only through their values. -/
theorem pay1_congr (w : FVec F S4096x4096 .f32) (s : Vec F S1x1 .f32) (n n' : ℕ) (y y' : S128x4096.Idx) (hn : n = n') (hy : y = y') :
    k1_pay1 (wBlk w n) s y = k1_pay1 (wBlk w n') s y' := by
  subst hn hy; rfl

/-- What the output array holds after the region, as one function of the weight array and the 1x1 array: entry (r, d)
    is the payload of row block r / 128 at (r % 128, d). -/
def G1 (c : Dev nD) : FVec F S4096x4096 .bf16 := fun i =>
  k1_pay1 (wBlk (V c main_arg1) ((i 0).val / 128)) (V c main_v0)
    (ValueIdx.ix2 (⟨(i 0).val % 128, Nat.mod_lt _ (by decide)⟩ : Fin 128) (⟨(i 1).val, ValueIdx.idx2_lt1 i⟩ : Fin 4096))

/-- What point t writes back is block t of that function. -/
theorem flushed1_2_eq (c : Dev nD) (t : Fin cfg1.N) :
    (dat1 V c).flushed 2 t = ((cfg1.win 2).blk t).view.read (Elt F) (G1 V c) := by
  obtain ⟨-, -, -, -, e0, e1⟩ := idx_facts1 t
  show (cfg1.win 2).cut (grid1.coords t) ((dat1 V c).after 2 t) = _
  rw [after1_2]
  unfold out1_2
  rw [View.canon_unit_zero hz1]
  simp only [View.ld_unit_zero (S := S128x4096) hz1, View.ld_unit_zero (S := S1x1) hz1]
  rw [iblk1_0_eq, iblk1_1_eq]
  refine funext fun (j : S128x4096.Idx) => ?_
  show k1_pay1 (wBlk (V c main_arg1) t.val) (V c main_v0) j = G1 V c (((cfg1.win 2).blk t).view.emb j)
  unfold G1
  have hj0 : (j 0).val < 128 := ValueIdx.idx2_lt0 j
  refine pay1_congr _ _ _ _ _ _ ?_ ?_
  · show t.val = (win1_2.index t (0 : Fin 2) * 128 + 1 * (j 0).val) / 128
    omega
  · funext a
    apply Fin.ext
    match a with
    | ⟨0, _⟩ =>
      show (j 0).val = (win1_2.index t (0 : Fin 2) * 128 + 1 * (j 0).val) % 128
      omega
    | ⟨1, _⟩ =>
      show (j 1).val = win1_2.index t (1 : Fin 2) * 4096 + 1 * (j 1).val
      omega

/-- Every entry of the output array lies in the block of the point its row block names. -/
theorem cover1_out (i : S4096x4096.Idx) :
    ∃ t : Fin cfg1.N, (cfg1.win 2).flush t = true ∧ i ∈ ((cfg1.win 2).blk t).view.set := by
  have hi0 : (i 0).val < 4096 := ValueIdx.idx2_lt0 i
  have hi1 : (i 1).val < 4096 := ValueIdx.idx2_lt1 i
  have hN : (i 0).val / 128 < cfg1.N := by rw [show cfg1.N = 32 from N_1]; omega
  obtain ⟨-, -, -, -, e0, e1⟩ := idx_facts1 ⟨(i 0).val / 128, hN⟩
  have e0' : win1_2.index ⟨(i 0).val / 128, hN⟩ (0 : Fin 2) = (i 0).val / 128 := e0
  refine ⟨⟨(i 0).val / 128, hN⟩, flush1_2 _, ?_⟩
  show i ∈ ((View.whole main_v1).slice (win1_2.rect ⟨(i 0).val / 128, hN⟩)).set
  rw [View.set_slice_whole, Rect.mem_set_unit]
  intro a
  match a with
  | ⟨0, _⟩ =>
    show win1_2.index ⟨(i 0).val / 128, hN⟩ (0 : Fin 2) * 128 ≤ (i 0).val
      ∧ (i 0).val < win1_2.index ⟨(i 0).val / 128, hN⟩ (0 : Fin 2) * 128 + 128
    omega
  | ⟨1, _⟩ =>
    show win1_2.index ⟨(i 0).val / 128, hN⟩ (1 : Fin 2) * 4096 ≤ (i 1).val
      ∧ (i 1).val < win1_2.index ⟨(i 0).val / 128, hN⟩ (1 : Fin 2) * 4096 + 4096
    omega

/-- After the region the output array holds, at entry (r, d), the ternarizing payload of row block r / 128 of the
    weight array and the 1x1 array, at (r % 128, d). -/
theorem arr1_out (c : Dev nD) :
    (dat1 V c).arrAt 2 cfg1.N = fun (i : S4096x4096.Idx) =>
      k1_pay1 (wBlk (V c main_arg1) ((i 0).val / 128)) (V c main_v0)
        (ValueIdx.ix2 (⟨(i 0).val % 128, Nat.mod_lt _ (by decide)⟩ : Fin 128) (⟨(i 1).val, ValueIdx.idx2_lt1 i⟩ : Fin 4096)) :=
  (dat1 V c).arrAt_eq_of_cover 2 (G1 V c) (fun t _ => flushed1_2_eq V c t) (fun i => cover1_out i)

end Cert.KernelIdeal.H

end
-- ==== Proof.KI.Compose.lean ====
/-
  The kernel program's result as one function of its three arguments.

  Between @main's items every buffer's contents are known (the fold of the regions' exits and the reshapes). Read
  through the regions' value theorems they are: after stage 1 the 1x1 buffer holds the scale of the weight matrix;
  after stage 2 the bf16 buffer holds the ternarized weight; the two reshapes present the activations as a
  16384 x 4096 matrix and the bias as a 1 x 4096 row; after stage 3 the output matrix holds, at row R and column C,
  entry (R % 1024, C % 1024) of tile (R / 1024) * 4 + C / 1024, whose contraction blocks and bias tile are the
  tiles of those three arrays; and the last reshape reads row 2048 p + s at (p, s).
-/
import proofs.«171202_j46084999086226_2_alg».proof.Proof.KI.Vals
import proofs.«171202_j46084999086226_2_alg».proof.Proof.KI.Reg2
import proofs.«171202_j46084999086226_2_alg».proof.Proof.KI.Val1
import proofs.«171202_j46084999086226_2_alg».proof.Proof.Spec
import Idealize.ShloMosaic.Lib.StableHlo.Run
import Idealize.ShloMosaic.Lib.ValueLayout
set_option maxRecDepth 16384
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
variable {F : FTy → Type} [FloatOps F]

/-! ## Stage 1's exit -/

section Regions
variable (V : (c : Dev nD) → (b : Ref sig .tc) → Buf (Elt F) ((c : Thread nD τ).loc b))

/-- Stage 1's sequence of blocks is the sequence of row blocks of the weight array it is entered with. -/
theorem blks0_eq_wBlk (c : Dev nD) (n : ℕ) : blks0 V c n = wBlk (V c main_arg1) n :=
  funext fun y => iblk0_apply V c _ y

end Regions

variable (m : (ℓ : Loc nD τ sig) → Buf (Elt F) ℓ)

/-- Stage 1 leaves the weight array as launched, -/
theorem V1_arg1 (c : Dev nD) : V1 m c main_arg1 = V0 m c main_arg1 :=
  (W1_arr m c 0).trans (arr0_in (V0 m) c)

/-- and its 1x1 output at the scale of the weight array. -/
theorem V1_v0 (c : Dev nD) : V1 m c main_v0 = scaleOf (V0 m c main_arg1) :=
  (W1_arr m c 1).trans ((arr0_out (V0 m) c).trans (congrArg scale0 (funext fun n => blks0_eq_wBlk (V0 m) c n)))

theorem V1_arg0 (c : Dev nD) : V1 m c main_arg0 = V0 m c main_arg0 := W1_of_ne m c main_arg0 (by decide)
theorem V1_arg2 (c : Dev nD) : V1 m c main_arg2 = V0 m c main_arg2 := W1_of_ne m c main_arg2 (by decide)

/-! ## Stage 2's exit -/

/-- Stage 2 leaves the ternarized weight in its output array. -/
theorem V2_v1 (c : Dev nD) : V2 m c main_v1 = wtOf (V0 m c main_arg1) := by
  refine (W2_arr m c 2).trans ((arr1_out (V1 m) c).trans ?_)
  rw [V1_arg1, V1_v0]
  rfl

theorem V2_arg0 (c : Dev nD) : V2 m c main_arg0 = V0 m c main_arg0 :=
  (W2_of_ne m c main_arg0 (by decide)).trans (V1_arg0 m c)
theorem V2_arg2 (c : Dev nD) : V2 m c main_arg2 = V0 m c main_arg2 :=
  (W2_of_ne m c main_arg2 (by decide)).trans (V1_arg2 m c)

/-! ## The reshapes, over arrays of the literal types -/

/-- The activations read as a 16384 x 4096 matrix: row R is (R / 2048, R % 2048). -/
theorem x2Of_cast (x : FVec F S8x2048x4096 .f32) :
    shapeCast S16384x4096 x shapeCasts_S8x2048x4096_S16384x4096 = x2Of x := by
  funext i
  unfold x2Of
  refine shapeCast_apply _ _ i _ ?_
  rw [Shape.rowMajor_val_three, Shape.rowMajor_val_two]
  show ((i 0).val / 2048 * 2048 + (i 0).val % 2048) * 4096 + (i 1).val = (i 0).val * 4096 + (i 1).val
  omega

/-- A 16384 x 4096 matrix read as 8 x 2048 x 4096: entry (p, s, o) is row 2048 p + s, column o. -/
theorem cast_out (y : FVec F S16384x4096 .f32) (i : S8x2048x4096.Idx) :
    shapeCast S8x2048x4096 y shapeCasts_S16384x4096_S8x2048x4096 i
      = y (ix2 (⟨2048 * (i 0).val + (i 1).val, by
          have h0 : (i 0).val < 8 := (i 0).isLt
          have h1 : (i 1).val < 2048 := (i 1).isLt
          omega⟩ : Fin 16384) (⟨(i 2).val, (i 2).isLt⟩ : Fin 4096)) := by
  refine shapeCast_apply _ _ i _ ?_
  rw [Shape.rowMajor_val_three, Shape.rowMajor_val_two]
  show (2048 * (i 0).val + (i 1).val) * 4096 + (i 2).val = ((i 0).val * 2048 + (i 1).val) * 4096 + (i 2).val
  omega

/-! ## The two reshapes between stages 2 and 3 -/

/-- The first reshape presents the activations as a 16384 x 4096 matrix. -/
theorem V3_v2 (c : Dev nD) : V3 m c main_v2 = x2Of (V0 m c main_arg0) := by
  have e : V3 m c main_v2 = shapeCast S16384x4096 (V2 m c main_arg0) shapeCasts_S8x2048x4096_S16384x4096 := by
    show StableHlo.after hostOps2 (W2 m c) (Proc.devRef .tc main_v2) = _
    after_results
    rfl
  rw [e, V2_arg0]
  exact x2Of_cast _

/-- The second reshape presents the bias as a 1 x 4096 row. -/
theorem V3_v3 (c : Dev nD) (u : Fin 1) (j : Fin 4096) : V3 m c main_v3 (ix2 u j) = V0 m c main_arg2 (ix1 j) := by
  have e : V3 m c main_v3 = shapeCast S1x4096 (V2 m c main_arg2) shapeCasts_S4096_S1x4096 := by
    show StableHlo.after hostOps2 (W2 m c) (Proc.devRef .tc main_v3) = _
    after_results
    rfl
  rw [e, V2_arg2]
  exact shapeCast_a_1a_apply (a := 4096) _ _ u j

/-- The reshapes leave the ternarized weight where stage 2 put it. -/
theorem V3_v1 (c : Dev nD) : V3 m c main_v1 = wtOf (V0 m c main_arg1) := by
  have e : V3 m c main_v1 = V2 m c main_v1 := by
    show StableHlo.after hostOps2 (W2 m c) (Proc.devRef .tc main_v1) = _
    after_results
  rw [e, V2_v1]

/-! ## Stage 3's tiles -/

/-- The accumulator's two equations. -/
theorem acc2_zero (xb : ℕ → Vec F S1024x1024 .f32) (wb : ℕ → Vec F S1024x1024 .bf16) :
    acc2 xb wb 0 = k2_pay2 (xb 0) (wb 0) (k2_pay1 (F := F)) := rfl
theorem acc2_succ (xb : ℕ → Vec F S1024x1024 .f32) (wb : ℕ → Vec F S1024x1024 .bf16) (k : ℕ) :
    acc2 xb wb (k + 1) = k2_pay2 (xb (k + 1)) (wb (k + 1)) (acc2 xb wb k) := rfl

/-- The accumulator after step k reads only the blocks 0 … k. -/
theorem acc2_congr (xb xb' : ℕ → Vec F S1024x1024 .f32) (wb wb' : ℕ → Vec F S1024x1024 .bf16) :
    ∀ k : ℕ, (∀ j, j ≤ k → xb j = xb' j) → (∀ j, j ≤ k → wb j = wb' j) → acc2 xb wb k = acc2 xb' wb' k
  | 0, hx, hw => by
    rw [acc2_zero, acc2_zero, hx 0 le_rfl, hw 0 le_rfl]
  | k + 1, hx, hw => by
    rw [acc2_succ, acc2_succ, hx (k + 1) le_rfl, hw (k + 1) le_rfl,
      acc2_congr xb xb' wb wb' k (fun j hj => hx j (Nat.le_succ_of_le hj)) (fun j hj => hw j (Nat.le_succ_of_le hj))]

section Tiles
variable (V : (c : Dev nD) → (b : Ref sig .tc) → Buf (Elt F) ((c : Thread nD τ).loc b))

/-- Contraction block k of tile q, on the activations' side, is the tile of the matrix stage 3 is entered with:
    point 4 q + k has row block (4 q + k) / 16 = q / 4 and contraction block (4 q + k) % 4 = k. -/
theorem xblks2_eq_tileX (c : Dev nD) (q k : ℕ) (hq : q < 64) (hk : k < 4) :
    xblks2 V c q k = tileX (V c main_v2) q k := by
  funext y
  refine (iblk2_0_apply V c _ y).trans ?_
  unfold tileX
  refine congrArg (V c main_v2) ?_
  funext a
  match a with
  | ⟨0, _⟩ => exact Fin.ext (by show 1024 * ((4 * q + k) % 256 / 16) + (y 0).val = 1024 * (q / 4 % 16) + (y 0).val; omega)
  | ⟨1, _⟩ => exact Fin.ext (by show 1024 * ((4 * q + k) % 256 % 4) + (y 1).val = 1024 * (k % 4) + (y 1).val; omega)

/-- The same on the weight's side: the row block is (4 q + k) / 4 % 4 = q % 4. -/
theorem wblks2_eq_tileW (c : Dev nD) (q k : ℕ) (hq : q < 64) (hk : k < 4) :
    wblks2 V c q k = tileW (V c main_v1) q k := by
  funext y
  refine (iblk2_1_apply V c _ y).trans ?_
  unfold tileW
  refine congrArg (V c main_v1) ?_
  funext a
  match a with
  | ⟨0, _⟩ => exact Fin.ext (by show 1024 * ((4 * q + k) % 256 / 4 % 4) + (y 0).val = 1024 * (q % 4) + (y 0).val; omega)
  | ⟨1, _⟩ => exact Fin.ext (by show 1024 * ((4 * q + k) % 256 % 4) + (y 1).val = 1024 * (k % 4) + (y 1).val; omega)

/-- The bias block at tile q's last point is the bias tile q % 4 of the vector the 1 x 4096 row reads. -/
theorem bias2_eq_tileB (c : Dev nD) (q : ℕ) (hq : q < 64) (b : FVec F S4096 .f32)
    (hb : ∀ (u : Fin 1) (j : Fin 4096), V c main_v3 (ix2 u j) = b (ix1 j)) :
    iblk2 V c 2 ⟨(4 * q + 3) % 256, pt_lt2 _⟩ = tileB b q := by
  funext y
  refine (iblk2_2_apply V c _ y).trans ?_
  refine (hb _ _).trans ?_
  unfold tileB
  refine congrArg b ?_
  funext a
  match a with
  | ⟨0, _⟩ => exact Fin.ext (by show 1024 * ((4 * q + 3) % 256 / 4 % 4) + (y 1).val = 1024 * (q % 4) + (y 1).val; omega)

/-- So tile q's value is the pure recursion over the tiles of the three arrays. -/
theorem out2_tiles (c : Dev nD) (q : ℕ) (hq : q < 64) (b : FVec F S4096 .f32)
    (hb : ∀ (u : Fin 1) (j : Fin 4096), V c main_v3 (ix2 u j) = b (ix1 j)) :
    out2 (xblks2 V c q) (wblks2 V c q) (iblk2 V c 2 ⟨(4 * q + 3) % 256, pt_lt2 _⟩)
      = out2 (tileX (V c main_v2) q) (tileW (V c main_v1) q) (tileB b q) := by
  unfold out2
  rw [bias2_eq_tileB V c q hq b hb,
    acc2_congr (xblks2 V c q) (tileX (V c main_v2) q) (wblks2 V c q) (tileW (V c main_v1) q) 3
      (fun j hj => xblks2_eq_tileX V c q j hq (by omega)) (fun j hj => wblks2_eq_tileW V c q j hq (by omega))]

end Tiles

/-! ## Stage 3's exit and the last reshape -/

/-- Stage 3 leaves, at row R and column C of its output matrix, the tile entry of the three arguments' tiles. -/
theorem V4_v4 (c : Dev nD) (R : Fin 16384) (C : Fin 4096) :
    V4 m c main_v4 (ix2 R C)
      = out2 (tileX (x2Of (V0 m c main_arg0)) ((R.val / 1024) * 4 + C.val / 1024))
          (tileW (wtOf (V0 m c main_arg1)) ((R.val / 1024) * 4 + C.val / 1024))
          (tileB (V0 m c main_arg2) ((R.val / 1024) * 4 + C.val / 1024))
          (ix2 ⟨R.val % 1024, Nat.mod_lt _ (by decide)⟩ ⟨C.val % 1024, Nat.mod_lt _ (by decide)⟩) := by
  have hq : (R.val / 1024) * 4 + C.val / 1024 < 64 := by have := R.isLt; have := C.isLt; omega
  refine (congrFun (W4_arr m c 3) _).trans ((arr2_out (V3 m) c R C).trans ?_)
  rw [out2_tiles (V3 m) c _ hq (V0 m c main_arg2) (V3_v3 m c), V3_v2, V3_v1]

/-- The buffer @main returns is `kernelOut` of the three argument buffers. -/
theorem W5_out' (c : Dev nD) :
    W5 m c (Proc.devRef .tc main_v5) = kernelOut (V0 m c main_arg0) (V0 m c main_arg1) (V0 m c main_arg2) := by
  have e : W5 m c (Proc.devRef .tc main_v5)
      = shapeCast S8x2048x4096 (V4 m c main_v4) shapeCasts_S16384x4096_S8x2048x4096 := by
    show StableHlo.after hostOps3 (W4 m c) (Proc.devRef .tc main_v5) = _
    after_results
    rfl
  rw [e]
  funext i
  refine (cast_out _ i).trans ?_
  rw [V4_v4]
  rfl

theorem W5_out (c : Dev nD) :
    W5 m c (Proc.devRef .tc main_v5)
      = kernelOut (m ((c.tc : Thread nD τ).loc main_arg0)) (m ((c.tc : Thread nD τ).loc main_arg1)) (m ((c.tc : Thread nD τ).loc main_arg2)) :=
  W5_out' m c

end Cert.KernelIdeal.H

end
-- ==== Proof.KI.Frame.lean ====
/-
  The frame of @main: every argument array ends holding what it was launched with.

  The run of the five segments leaves every unscoped buffer of a TensorCore at the last contents of the fold through
  @main. An argument's buffer is written by no reshape and is no window of region 2; in regions 0 and 1 the activation
  and the bias are no window at all, and the weight matrix is an input window, whose array the pipeline never
  writes. So the fold, read at an argument, walks back item by item to the launch memory.
-/
import proofs.«171202_j46084999086226_2_alg».proof.Proof.KI.Run
set_option maxRecDepth 16384
noncomputable section
namespace Cert.KernelIdeal.H
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [FloatOps F]
local notation "𝕄" => MT nD τ sig Unit (Elt F) ℕ (Pipeline.UD sig nD τ) ℕ

variable (m : (ℓ : Loc nD τ sig) → Buf (Elt F) ℓ) (ρ : Dev nD → PrngReg)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched -/

/-- The activation: written by no reshape, a window of no region that writes it back (region 2 reads the
    reshaped array, not it). -/
theorem W5_main_arg0 (c : Dev nD) : W5 m c (Proc.devRef .tc main_arg0) = m ((c.tc : Thread nD τ).loc main_arg0) :=
  calc W5 m c (Proc.devRef .tc main_arg0)
    _ = W4 m c (Proc.devRef .tc main_arg0) := StableHlo.after_of_writes_sub hostOps3 _ hostOps3_writes (by decide)
    _ = W3 m c (Proc.devRef .tc main_arg0) := W4_of_ne m c main_arg0 (by decide)
    _ = W2 m c (Proc.devRef .tc main_arg0) := StableHlo.after_of_writes_sub hostOps2 _ hostOps2_writes (by decide)
    _ = W1 m c (Proc.devRef .tc main_arg0) := W2_of_ne m c main_arg0 (by decide)
    _ = W0 m c (Proc.devRef .tc main_arg0) := W1_of_ne m c main_arg0 (by decide)
    _ = m ((c.tc : Thread nD τ).loc main_arg0) := rfl

/-- The weight matrix: an input window of regions 0 and 1, never written back; elsewhere untouched. -/
theorem W5_main_arg1 (c : Dev nD) : W5 m c (Proc.devRef .tc main_arg1) = m ((c.tc : Thread nD τ).loc main_arg1) :=
  calc W5 m c (Proc.devRef .tc main_arg1)
    _ = W4 m c (Proc.devRef .tc main_arg1) := StableHlo.after_of_writes_sub hostOps3 _ hostOps3_writes (by decide)
    _ = W3 m c (Proc.devRef .tc main_arg1) := W4_of_ne m c main_arg1 (by decide)
    _ = W2 m c (Proc.devRef .tc main_arg1) := StableHlo.after_of_writes_sub hostOps2 _ hostOps2_writes (by decide)
    _ = W1 m c (Proc.devRef .tc main_arg1) := (W2_arr m c 0).trans (((dat1 (V1 m) c).arrAt_in 0 rfl _).trans (A_eq1 (V1 m) c 0))
    _ = W0 m c (Proc.devRef .tc main_arg1) := (W1_arr m c 0).trans (arr0_in (V0 m) c)
    _ = m ((c.tc : Thread nD τ).loc main_arg1) := rfl

/-- The bias: as the activation. -/
theorem W5_main_arg2 (c : Dev nD) : W5 m c (Proc.devRef .tc main_arg2) = m ((c.tc : Thread nD τ).loc main_arg2) :=
  calc W5 m c (Proc.devRef .tc main_arg2)
    _ = W4 m c (Proc.devRef .tc main_arg2) := StableHlo.after_of_writes_sub hostOps3 _ hostOps3_writes (by decide)
    _ = W3 m c (Proc.devRef .tc main_arg2) := W4_of_ne m c main_arg2 (by decide)
    _ = W2 m c (Proc.devRef .tc main_arg2) := StableHlo.after_of_writes_sub hostOps2 _ hostOps2_writes (by decide)
    _ = W1 m c (Proc.devRef .tc main_arg2) := W2_of_ne m c main_arg2 (by decide)
    _ = W0 m c (Proc.devRef .tc main_arg2) := W1_of_ne m c main_arg2 (by decide)
    _ = m ((c.tc : Thread nD τ).loc main_arg2) := rfl

/-! ## The frame -/

/-- THE FRAME. From any memory with every counter at zero, every weakly fair execution of @main on the TensorCores
    terminates, nothing faulting, and every final memory holds each argument array as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

end Cert.KernelIdeal.H

end
-- ==== Proof.PureK.lean ====
/-
  The three kernels' arithmetic as pure recursions over sequences of blocks.

  Stage 1 walks the weight matrix in 32 row blocks of 128 rows; it keeps two 1x1 accumulators, the count of
  entries whose magnitude exceeds one half and the sum of those magnitudes, both started at zero at the first
  block, and at the last block turns them into the scale: the mean magnitude of the counted entries, or one when
  nothing was counted. Stage 3 walks the contracted axis of one output tile in four blocks of 1024 columns; it
  keeps a 1024x1024 accumulator started at zero at the first block, adds one tile product per block, and at the
  last block adds the bias row. Both are recursions on the number of blocks seen, written here over an arbitrary
  sequence of blocks so that the memory side (which block a grid point holds) and the arithmetic side (what the
  recursion computes, index by index) can be proved apart.
-/
import proofs.«171202_j46084999086226_2_alg».proof.Proof.Gen.Kernel.Skeleton

noncomputable section

namespace Cert.Kernel.H

open Idealize.ShloMosaic Cert.Kernel Cert.Kernel.Gen

variable {F : FTy → Type} [BitOps F]

/-- Stage 1 after the blocks `xs 0 … xs n`: the pair (count accumulator, sum accumulator). The first block adds
    to the zeros the kernel stores at the first grid point; each later block adds to what the block before left. -/
def acc0 (xs : ℕ → Vec F S128x4096 .f32) : ℕ → Vec F S1x1 .f32 × Vec F S1x1 .f32
  | 0 => (k0_pay5 (xs 0) (k0_pay1 (F := F)), k0_pay6 (xs 0) (k0_pay2 (F := F)))
  | n + 1 => (k0_pay5 (xs (n + 1)) (acc0 xs n).1, k0_pay6 (xs (n + 1)) (acc0 xs n).2)

/-- Stage 1's result after all 32 blocks: the scale, from the final count and sum. -/
def scale0 (xs : ℕ → Vec F S128x4096 .f32) : Vec F S1x1 .f32 :=
  k0_pay7 (acc0 xs 31).1 (acc0 xs 31).2

/-- Stage 3's accumulator for one output tile after the contraction blocks `0 … k`: the first block adds its tile
    product to the zeros stored at the first block, each later one to what the block before left. -/
def acc2 (xb : ℕ → Vec F S1024x1024 .f32) (wb : ℕ → Vec F S1024x1024 .bf16) : ℕ → Vec F S1024x1024 .f32
  | 0 => k2_pay2 (xb 0) (wb 0) (k2_pay1 (F := F))
  | k + 1 => k2_pay2 (xb (k + 1)) (wb (k + 1)) (acc2 xb wb k)

/-- Stage 3's output tile: the accumulator after the four contraction blocks plus the bias row. -/
def out2 (xb : ℕ → Vec F S1024x1024 .f32) (wb : ℕ → Vec F S1024x1024 .bf16) (b : Vec F S1x1024 .f32) : Vec F S1024x1024 .f32 :=
  k2_pay3 (acc2 xb wb 3) b

end Cert.Kernel.H

end
-- ==== Proof.K.Reg0.lean ====
/-
  Region 0, the scale reduction, as proof data over the buffer contents `V` the region is entered from.

  The grid has 32 points; point t holds row block t (128 rows) of the weight matrix in window 0 and the 1x1 scale in
  window 1, which the body stores only at the last point and leaves untouched before. Two 1x1 accumulators (the count
  of entries whose magnitude exceeds one half, and the sum of those magnitudes) live in scratch buffers carried from
  point to point: zeroed at the first point, added to at every point, turned into the scale at the last. The
  invariant names both accumulators after each point through the pure recursion `acc0` over the 32 row blocks.
-/
import proofs.«171202_j46084999086226_2_alg».proof.Proof.Gen.Kernel.Launch
import proofs.«171202_j46084999086226_2_alg».proof.Proof.Gen.Kernel.Skeleton
import proofs.«171202_j46084999086226_2_alg».proof.Proof.Gen.Kernel.Points
import proofs.«171202_j46084999086226_2_alg».proof.Proof.PureK
import Idealize.ShloMosaic.Lib.Pipeline.FrameBody
import Idealize.ShloMosaic.Lib.Pipeline.Value
import Idealize.ShloMosaic.Lib.Ring
import Idealize.ShloMosaic.Lib.ValueIdx
import Idealize.ShloMosaic.Lib.Tactic

set_option maxRecDepth 16384

noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [BitOps F]
local notation "𝕄" => MT nD τ sig Unit (Elt F) ℕ (Pipeline.UD sig nD τ) ℕ
variable (V : (c : Dev nD) → (b : Ref sig .tc) → Buf (Elt F) ((c : Thread nD τ).loc b))

/-! ## The windows' blocks -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The 32 row blocks as a sequence (block n mod 32). -/
def blks0 (c : Dev nD) : ℕ → Vec F S128x4096 .f32 := fun n => iblk0 V c 0 ⟨n % 32, lt_of_lt_of_eq (Nat.mod_lt n (Nat.succ_pos 31)) N_0.symm⟩

/-- The sequence at a grid point's number is that point's block. -/
theorem blks0_val (c : Dev nD) (t : Fin cfg0.N) : blks0 V c t.val = iblk0 V c 0 t := by
  unfold blks0
  have h : t.val % 32 = t.val := Nat.mod_eq_of_lt (lt_of_lt_of_eq t.isLt N_0)
  congr 1
  exact Fin.ext h

/-- An input window's current buffer holds its block at every point, fetched there or not: unfetched, the block's
    index has not moved since the fetch. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-! ## The invariant: the two accumulators named after each point -/

/-- The two accumulators' scratch buffers, whole. -/
abbrev scM0_0 : Memref sig .tc .vmem S1x1 .f32 := Memref.whole cc0_scratch0
abbrev scM0_1 : Memref sig .tc .vmem S1x1 .f32 := Memref.whole cc0_scratch1

/-- The core's scoped buffers that region 0 neither stages through nor accumulates in, each at some contents. -/
def tail0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f) ∗ (∃ f : Buf (Elt F) ((c : Thread nD τ).loc cc2_scratch0), ((c : Thread nD τ).loc cc2_scratch0) ↦{fullShare} f))

/-- The entry invariant with the two accumulators as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ tail0 c) ∗ (∃ r, prngReg c r)) := by
  unfold Pipeline.ΦA tail0; rw [scopedRest0_eq]; simp only [scM0_0, scM0_1, owns_whole]; try rfl

/-- The region's invariant before point n: at entry every scoped buffer at anything; afterwards the count
    accumulator and the sum accumulator at what the recursion over the row blocks gives after point n - 1, the other
    scoped buffers at anything; the generator register at some state throughout. -/
def Phi0 (c : Dev nD) : ℕ → sProp 𝕄
  | 0 => Pipeline.ΦA spec0 c
  | n + 1 => iprop(iprop(owns (c : Thread nD τ) scM0_0 fullShare (acc0 (blks0 V c) n).1 ∗ owns (c : Thread nD τ) scM0_1 fullShare (acc0 (blks0 V c) n).2 ∗ tail0 c) ∗ (∃ r, prngReg c r))

theorem Phi0_succ (c : Dev nD) (n : ℕ) :
    Phi0 V c (n + 1) = iprop(iprop(owns (c : Thread nD τ) scM0_0 fullShare (acc0 (blks0 V c) n).1 ∗ owns (c : Thread nD τ) scM0_1 fullShare (acc0 (blks0 V c) n).2 ∗ tail0 c) ∗ (∃ r, prngReg c r)) := rfl

theorem Phi0_pos (c : Dev nD) (n : ℕ) (hn : n ≠ 0) :
    Phi0 V c n = iprop(iprop(owns (c : Thread nD τ) scM0_0 fullShare (acc0 (blks0 V c) (n - 1)).1 ∗ owns (c : Thread nD τ) scM0_1 fullShare (acc0 (blks0 V c) (n - 1)).2 ∗ tail0 c) ∗ (∃ r, prngReg c r)) := by
  cases n with
  | zero => exact absurd rfl hn
  | succ n => rfl

/-! ## The proof data -/

/-- The proof data of pipeline 0 on core `c`: the arrays as the region finds them; after the body at point `t` the
    input's buffer at its block and the output's at the scale of the 32 blocks (consulted at the last point only:
    before it the window is idle and not written back); the invariant `Phi0`; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => scale0 (blks0 V c)
  Φ t := Phi0 V c t.val
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = scale0 (blks0 V c) := by dsimp only [dat0]

theorem before0_0 (c : Dev nD) (t : Fin cfg0.N) (d) : (dat0 V c).before 0 t d = iblk0 V c 0 t :=
  before0_0_of V (dat0 V c) (A_eq0 V c 0) (after0_0 V c) t d

/-- The zero offsets of a rank-2 rectangle, as the constant function. -/
theorem hz0 : (![0, 0] : Fin 2 → Nat) = fun _ => 0 := funext fun a => by fin_cases a <;> rfl

/-! ## The body's two conditionals over the grid -/

/-- The condition of the body's first conditional (the accumulators are zeroed), from the grid coordinates. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)
/-- The condition of the body's second conditional (the scale is formed and stored), from the grid coordinates. -/
abbrev cond0_1 (i : grid0.Coords) : Prop := k0_cond2 i = 1#1
/-- It holds at the last point only. -/
theorem hcond0_1 : ∀ t : Fin cfg0.N, cond0_1 (grid0.coords t) ↔ t.val = 31 :=
  (by decide +kernel : ∀ t : Fin grid0.N, cond0_1 (grid0.coords t) ↔ t.val = 31)

/-- A list of stores whose last one is through the whole 1x1 rectangle covers the buffer. -/
theorem cover0_one (p : Vec F S1x1 .f32) (L : List (View.Piece (Elt F) S1x1 .f32)) (y : S1x1.Idx) :
    ∃ pc ∈ ((⟨Rect.unit (s := S1x1) ![0, 0] S1x1.size inb_S1x1_S1x1_0_0, p⟩ :: L : List (View.Piece (Elt F) S1x1 .f32))), y ∈ pc.1.set :=
  ⟨_, List.mem_cons_self, View.mem_set_unit_zero (S := S1x1) hz0 inb_S1x1_S1x1_0_0 y⟩

/-! ## The body on any whole memrefs, case by case

The input block `x` is loaded whole; the count accumulator is read and rewritten as `k0_pay5 x ·`, the sum accumulator
as `k0_pay6 x ·`. At the first point both are first stored at zero (`k0_pay1`, `k0_pay2`), and those zeros are what
the following loads read; at the last point the two fresh accumulators are read back and their scale `k0_pay7` is
stored into the output window's buffer, which every other point leaves as it found it. -/

set_option maxHeartbeats 1000000 in
/-- The first point: both accumulators handed at anything, left at the first step of the recursion. -/
theorem run0_first (c : Dev nD) (E : Set ℕ) (i : grid0.Coords) (arg1 : Memref sig .tc .vmem S128x4096 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole)
    (hc0 : cond0_0 i) (hc1 : ¬cond0_1 i)
    (x : Vec F S128x4096 .f32) (x1 : Vec F S1x1 .f32) (K : PUnit → sProp 𝕄) :
    iprop(owns (c : Thread nD τ) arg1 fullShare x ∗ owns (c : Thread nD τ) arg2 fullShare x1 ∗ (∃ d, owns (c : Thread nD τ) arg3 fullShare d) ∗ (∃ d, owns (c : Thread nD τ) arg4 fullShare d)
        ∗ (iprop(owns (c : Thread nD τ) arg1 fullShare x ∗ owns (c : Thread nD τ) arg2 fullShare x1 ∗ owns (c : Thread nD τ) arg3 fullShare (k0_pay5 x (k0_pay1 (F := F))) ∗ owns (c : Thread nD τ) arg4 fullShare (k0_pay6 x (k0_pay2 (F := F)))) -∗ K ⟨⟩))
      ⊢ wp frame (wpE (defs₀ (F := F)) Variants.none c none) E (cc0__reduce_kernel i arg1 harg1 arg2 harg2 arg3 harg3 arg4 harg4) K := by
  simp only [cc0__reduce_kernel_eq_skeleton]; unfold cc0__reduce_kernel_skel
  unfold owns
  iintro ⟨⟨%f1, %hf1, H1⟩, ⟨%f2, %hf2, H2⟩, ⟨%d3, %f3, -, H3⟩, ⟨%d4, %f4, -, H4⟩, Hk⟩
  subst hf1
  sl_exec (disch := first | exact hc0 | exact hc1)
  sl_step
  iapply Hk
  isplitl [H1]
  · iexists f1; isplitr; · ipureintro; rfl
    iexact H1
  isplitl [H2]
  · iexists f2; isplitr; · ipureintro; exact hf2
    iexact H2
  isplitl [H3]
  · iexists _; isplitr
    swap; · iexact H3
    ipureintro
    try sl_unfold_run_names
    rw [View.read_writes_eq_canon _ _ _ (cover0_one _ _), View.canon_cons_unit_zero hz0]
    simp only [View.readAt_eq_ld, View.ld_unit_zero (S := S128x4096) hz0, View.ld_unit_zero (S := S1x1) hz0, View.readCov_unit_zero (S := S1x1) _ hz0]
  · iexists _; isplitr
    swap; · iexact H4
    ipureintro
    try sl_unfold_run_names
    rw [View.read_writes_eq_canon _ _ _ (cover0_one _ _), View.canon_cons_unit_zero hz0]
    simp only [View.readAt_eq_ld, View.ld_unit_zero (S := S128x4096) hz0, View.ld_unit_zero (S := S1x1) hz0, View.readCov_unit_zero (S := S1x1) _ hz0]

set_option maxHeartbeats 1000000 in
/-- A middle point: both accumulators handed at `a3`, `a4`, left one step on. -/
theorem run0_mid (c : Dev nD) (E : Set ℕ) (i : grid0.Coords) (arg1 : Memref sig .tc .vmem S128x4096 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole)
    (hc0 : ¬cond0_0 i) (hc1 : ¬cond0_1 i)
    (x : Vec F S128x4096 .f32) (x1 a3 a4 : Vec F S1x1 .f32) (K : PUnit → sProp 𝕄) :
    iprop(owns (c : Thread nD τ) arg1 fullShare x ∗ owns (c : Thread nD τ) arg2 fullShare x1 ∗ owns (c : Thread nD τ) arg3 fullShare a3 ∗ owns (c : Thread nD τ) arg4 fullShare a4
        ∗ (iprop(owns (c : Thread nD τ) arg1 fullShare x ∗ owns (c : Thread nD τ) arg2 fullShare x1 ∗ owns (c : Thread nD τ) arg3 fullShare (k0_pay5 x a3) ∗ owns (c : Thread nD τ) arg4 fullShare (k0_pay6 x a4)) -∗ K ⟨⟩))
      ⊢ wp frame (wpE (defs₀ (F := F)) Variants.none c none) E (cc0__reduce_kernel i arg1 harg1 arg2 harg2 arg3 harg3 arg4 harg4) K := by
  simp only [cc0__reduce_kernel_eq_skeleton]; unfold cc0__reduce_kernel_skel
  unfold owns
  iintro ⟨⟨%f1, %hf1, H1⟩, ⟨%f2, %hf2, H2⟩, ⟨%f3, %hf3, H3⟩, ⟨%f4, %hf4, H4⟩, Hk⟩
  subst hf1; subst hf3; subst hf4
  sl_exec (disch := first | exact hc0 | exact hc1)
  sl_step
  iapply Hk
  isplitl [H1]
  · iexists f1; isplitr; · ipureintro; rfl
    iexact H1
  isplitl [H2]
  · iexists f2; isplitr; · ipureintro; exact hf2
    iexact H2
  isplitl [H3]
  · iexists _; isplitr
    swap; · iexact H3
    ipureintro
    try sl_unfold_run_names
    rw [View.read_writes_eq_canon _ _ _ (cover0_one _ _), View.canon_cons_unit_zero hz0]
    simp only [View.readAt_eq_ld, View.ld_unit_zero (S := S128x4096) hz0, View.ld_unit_zero (S := S1x1) hz0, View.readCov_unit_zero (S := S1x1) _ hz0]
  · iexists _; isplitr
    swap; · iexact H4
    ipureintro
    try sl_unfold_run_names
    rw [View.read_writes_eq_canon _ _ _ (cover0_one _ _), View.canon_cons_unit_zero hz0]
    simp only [View.readAt_eq_ld, View.ld_unit_zero (S := S128x4096) hz0, View.ld_unit_zero (S := S1x1) hz0, View.readCov_unit_zero (S := S1x1) _ hz0]

set_option maxHeartbeats 1000000 in
/-- The last point: as a middle point, and the output window's buffer left at the scale of the fresh accumulators. -/
theorem run0_last (c : Dev nD) (E : Set ℕ) (i : grid0.Coords) (arg1 : Memref sig .tc .vmem S128x4096 .f32) (harg1 : arg1.IsWhole) (arg2 : Memref sig .tc .vmem S1x1 .f32) (harg2 : arg2.IsWhole) (arg3 : Memref sig .tc .vmem S1x1 .f32) (harg3 : arg3.IsWhole) (arg4 : Memref sig .tc .vmem S1x1 .f32) (harg4 : arg4.IsWhole)
    (hc0 : ¬cond0_0 i) (hc1 : cond0_1 i)
    (x : Vec F S128x4096 .f32) (a3 a4 : Vec F S1x1 .f32) (K : PUnit → sProp 𝕄) :
    iprop(owns (c : Thread nD τ) arg1 fullShare x ∗ (∃ d, owns (c : Thread nD τ) arg2 fullShare d) ∗ owns (c : Thread nD τ) arg3 fullShare a3 ∗ owns (c : Thread nD τ) arg4 fullShare a4
        ∗ (iprop(owns (c : Thread nD τ) arg1 fullShare x ∗ owns (c : Thread nD τ) arg2 fullShare (k0_pay7 (k0_pay5 x a3) (k0_pay6 x a4)) ∗ owns (c : Thread nD τ) arg3 fullShare (k0_pay5 x a3) ∗ owns (c : Thread nD τ) arg4 fullShare (k0_pay6 x a4)) -∗ K ⟨⟩))
      ⊢ wp frame (wpE (defs₀ (F := F)) Variants.none c none) E (cc0__reduce_kernel i arg1 harg1 arg2 harg2 arg3 harg3 arg4 harg4) K := by
  simp only [cc0__reduce_kernel_eq_skeleton]; unfold cc0__reduce_kernel_skel
  unfold owns
  iintro ⟨⟨%f1, %hf1, H1⟩, ⟨%d2, %f2, -, H2⟩, ⟨%f3, %hf3, H3⟩, ⟨%f4, %hf4, H4⟩, Hk⟩
  subst hf1; subst hf3; subst hf4
  sl_exec (disch := first | exact hc0 | exact hc1)
  sl_step
  iapply Hk
  isplitl [H1]
  · iexists f1; isplitr; · ipureintro; rfl
    iexact H1
  isplitl [H2]
  · iexists _; isplitr
    swap; · iexact H2
    ipureintro
    try sl_unfold_run_names
    rw [View.read_writes_eq_canon _ _ _ (cover0_one _ _), View.canon_cons_unit_zero hz0]
    simp only [View.readAt_eq_ld, View.ld_unit_zero (S := S128x4096) hz0, View.ld_unit_zero (S := S1x1) hz0, View.readCov_unit_zero (S := S1x1) _ hz0]
  isplitl [H3]
  · iexists _; isplitr
    swap; · iexact H3
    ipureintro
    try sl_unfold_run_names
    rw [View.read_writes_eq_canon _ _ _ (cover0_one _ _), View.canon_cons_unit_zero hz0]
    simp only [View.readAt_eq_ld, View.ld_unit_zero (S := S128x4096) hz0, View.ld_unit_zero (S := S1x1) hz0, View.readCov_unit_zero (S := S1x1) _ hz0]
  · iexists _; isplitr
    swap; · iexact H4
    ipureintro
    try sl_unfold_run_names
    rw [View.read_writes_eq_canon _ _ _ (cover0_one _ _), View.canon_cons_unit_zero hz0]
    simp only [View.readAt_eq_ld, View.ld_unit_zero (S := S128x4096) hz0, View.ld_unit_zero (S := S1x1) hz0, View.readCov_unit_zero (S := S1x1) _ hz0]

/-! ## Where the windows are idle -/

/-- Window 0 is never idle (an input). -/
theorem liveAt0_0 : ∀ t : Fin cfg0.N, cfg0.idle 0 (grid0.coords t) = false := by decide +kernel
/-- Before the last point the body stores nothing into the output window, and the pipeline does not write it back. -/
theorem idleAt0_1 : ∀ t : Fin cfg0.N, ¬cond0_1 (grid0.coords t) → cfg0.idle 1 (grid0.coords t) = true := by decide +kernel
theorem noFlush0_1 : ∀ t : Fin cfg0.N, ¬cond0_1 (grid0.coords t) → (cfg0.win 1).flush t = false := by decide +kernel
/-- At the last point it stores into it. -/
theorem liveAt0_1 : ∀ t : Fin cfg0.N, cond0_1 (grid0.coords t) → cfg0.idle 1 (grid0.coords t) = false := by decide +kernel

/-! ## The accumulators' recursion, by the point -/

theorem acc0_at_zero (xs : ℕ → Vec F S128x4096 .f32) (n : ℕ) (hn : n = 0) :
    acc0 xs n = (k0_pay5 (xs n) (k0_pay1 (F := F)), k0_pay6 (xs n) (k0_pay2 (F := F))) := by
  subst hn; rfl
theorem acc0_at_pos (xs : ℕ → Vec F S128x4096 .f32) (n : ℕ) (hn : n ≠ 0) :
    acc0 xs n = (k0_pay5 (xs n) (acc0 xs (n - 1)).1, k0_pay6 (xs n) (acc0 xs (n - 1)).2) := by
  cases n with
  | zero => exact absurd rfl hn
  | succ n => rfl
theorem Phi0_zero (c : Dev nD) (n : ℕ) (hn : n = 0) : Phi0 V c n = Pipeline.ΦA spec0 c := by
  subst hn; rfl

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 2000000 in
/-- The body at any point. The input's buffer holds its block. At the first point the invariant hands the body both
    accumulators at anything and takes them back at the recursion's first step; at a later point it hands them at
    what the point before left and takes them back one step on; the output window is handed back untouched before
    the last point and at the scale of the final accumulators at the last. The core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) from rfl, Phi0_succ,
    show (dat0 V c).Φ t.castSucc = Phi0 V c t.val from rfl]
  rw [show (dat0 V c).leavesExact 0 t = owns (c : Thread nD τ) (st0_0 t) fullShare ((dat0 V c).after 0 t) from by
    unfold Dat.leavesExact; rw [liveAt0_0 t], after0_0]
  have hN : t.val < 32 := lt_of_lt_of_eq t.isLt N_0
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 1 t (idleAt0_1 t hc1) (noFlush0_1 t hc1)]
    rw [Phi0_zero V c _ h0, PhiA0_eq, acc0_at_zero _ _ h0, blks0_val]
    dsimp only
    iintro ⟨⟨⟨HS0, HS1, HT⟩, Hg⟩, Ho, ⟨%d0, H0⟩, ⟨%d1, H1⟩⟩
    iapply (run0_first c Set.univ (grid0.coords t) _ _ _ _ _ _ _ _ hc0 hc1 (iblk0 V c 0 t) _ _)
    isplitl [H0]; · iexact H0
    isplitl [H1]; · iexact H1
    isplitl [HS0]; · iexact HS0
    isplitl [HS1]; · iexact HS1
    iintro ⟨H0, H1, HS0, HS1⟩
    isplitl [HS0 HS1 HT Hg]
    · isplitl [HS0 HS1 HT]
      · isplitl [HS0]; · iexact HS0
        isplitl [HS1]; · iexact HS1
        iexact HT
      iexact Hg
    isplitl [Ho]; · iexact Ho
    isplitl [H0]; · iexact H0
    iexists _; iexact H1
  · have hc0 : ¬cond0_0 (grid0.coords t) := fun h => h0 ((hcond0_0 t).mp h)
    by_cases h31 : t.val = 31
    · have hc1 : cond0_1 (grid0.coords t) := (hcond0_1 t).mpr h31
      rw [show (dat0 V c).leavesExact 1 t = owns (c : Thread nD τ) (st0_1 t) fullShare ((dat0 V c).after 1 t) from by
        unfold Dat.leavesExact; rw [liveAt0_1 t hc1], after0_1]
      rw [show scale0 (blks0 V c) = k0_pay7 (acc0 (blks0 V c) t.val).1 (acc0 (blks0 V c) t.val).2 from by rw [h31]; rfl]
      rw [Phi0_pos V c _ h0, acc0_at_pos _ _ h0, blks0_val]
      dsimp only
      iintro ⟨⟨⟨HS0, HS1, HT⟩, Hg⟩, Ho, ⟨%d0, H0⟩, ⟨%d1, H1⟩⟩
      iapply (run0_last c Set.univ (grid0.coords t) _ _ _ _ _ _ _ _ hc0 hc1 (iblk0 V c 0 t) _ _ _)
      isplitl [H0]; · iexact H0
      isplitl [H1]; · iexists _; iexact H1
      isplitl [HS0]; · iexact HS0
      isplitl [HS1]; · iexact HS1
      iintro ⟨H0, H1, HS0, HS1⟩
      isplitl [HS0 HS1 HT Hg]
      · isplitl [HS0 HS1 HT]
        · isplitl [HS0]; · iexact HS0
          isplitl [HS1]; · iexact HS1
          iexact HT
        iexact Hg
      isplitl [Ho]; · iexact Ho
      isplitl [H0]; · iexact H0
      iexact H1
    · have hc1 : ¬cond0_1 (grid0.coords t) := fun h => h31 ((hcond0_1 t).mp h)
      rw [Dat.leavesExact_idle (dat0 V c) 1 t (idleAt0_1 t hc1) (noFlush0_1 t hc1)]
      rw [Phi0_pos V c _ h0, acc0_at_pos _ _ h0, blks0_val]
      dsimp only
      iintro ⟨⟨⟨HS0, HS1, HT⟩, Hg⟩, Ho, ⟨%d0, H0⟩, ⟨%d1, H1⟩⟩
      iapply (run0_mid c Set.univ (grid0.coords t) _ _ _ _ _ _ _ _ hc0 hc1 (iblk0 V c 0 t) _ _ _ _)
      isplitl [H0]; · iexact H0
      isplitl [H1]; · iexact H1
      isplitl [HS0]; · iexact HS0
      isplitl [HS1]; · iexact HS1
      iintro ⟨H0, H1, HS0, HS1⟩
      isplitl [HS0 HS1 HT Hg]
      · isplitl [HS0 HS1 HT]
        · isplitl [HS0]; · iexact HS0
          isplitl [HS1]; · iexact HS1
          iexact HT
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : (Pipeline.ΦA spec0 c : sProp 𝕄) ⊢ (dat0 V c).Φ 0 := by
  rw [show (dat0 V c).Φ 0 = Pipeline.ΦA spec0 c from rfl]
  try exact Idealize.SL.BI.Entails.refl _

/-- After the last point the invariant gives the entry one back: the accumulators' named contents are forgotten. -/
theorem hout0 (c : Dev nD) : (dat0 V c).Φ (Fin.last cfg0.N) ⊢ (Pipeline.ΦA spec0 c : sProp 𝕄) := by
  rw [show (dat0 V c).Φ (Fin.last cfg0.N) = Phi0 V c (31 + 1) from rfl, Phi0_succ, PhiA0_eq]
  iintro ⟨⟨HS0, HS1, HT⟩, Hg⟩
  isplitl [HS0 HS1 HT]
  · isplitl [HS0]; · iexists _; iexact HS0
    isplitl [HS1]; · iexists _; iexact HS1
    iexact HT
  iexact Hg

/-! ## The arrays after the region -/

/-- The input array is never written. -/
theorem arr0_in (c : Dev nD) : (dat0 V c).arrAt 0 cfg0.N = V c (Pipeline.arrRef spec0 0) :=
  ((dat0 V c).arrAt_in 0 rfl _).trans (A_eq0 V c 0)

/-- The last grid point. -/
abbrev t0_last : Fin cfg0.N := ⟨31, by rw [show cfg0.N = 32 from N_0]; decide⟩

/-- The one write-back, at the last point, writes the scale: the output window's block is the whole 1x1 array, read
    through zero offsets. -/
theorem flushed0_1 (c : Dev nD) (t : Fin cfg0.N) (hf : (cfg0.win 1).flush t = true) :
    (dat0 V c).flushed 1 t = ((cfg0.win 1).blk t).view.read (Elt F) (scale0 (blks0 V c)) := by
  have h1 : t.val = 31 := by have := (flush0_1 t).mp hf; have := lt_of_lt_of_eq t.isLt N_0; omega
  obtain rfl : t = t0_last := Fin.ext h1
  show (cfg0.win 1).cut (grid0.coords t0_last) ((dat0 V c).after 1 t0_last) = _
  rw [after0_1]
  have hz' : (fun a => win0_1.index t0_last a * main_v0.ty.shape.size a) = fun _ => 0 := funext fun a => by fin_cases a <;> decide
  exact (Memref.read_access_unit_zero (Elt F) main_v0 hz' (fun a => by rw [congrFun hz' a]; simp) (scale0 (blks0 V c))).symm

/-- VALUE: the one-element output array ends holding the scale of the 32 blocks: the last point's block covers it. -/
theorem arr0_out (c : Dev nD) : (dat0 V c).arrAt 1 cfg0.N = scale0 (blks0 V c) :=
  (dat0 V c).arrAt_eq_of_cover 1 (scale0 (blks0 V c)) (flushed0_1 V c) fun i =>
    ⟨t0_last, (flush0_1 t0_last).mpr rfl, by
      show i ∈ ((View.whole main_v0).slice (win0_1.rect t0_last)).set
      rw [View.set_slice_whole, Rect.mem_set_unit]
      intro a
      have h0 : (i 0 : Nat) < 1 := (i 0).isLt
      have h1 : (i 1 : Nat) < 1 := (i 1).isLt
      match a with
      | ⟨0, _⟩ =>
        show win0_1.index t0_last 0 * win0_1.size 0 ≤ (i 0 : Nat) ∧ (i 0 : Nat) < win0_1.index t0_last 0 * win0_1.size 0 + win0_1.xsize (grid0.coords t0_last) 0
        rw [show win0_1.index t0_last 0 * win0_1.size 0 = 0 from by decide +kernel, show win0_1.xsize (grid0.coords t0_last) 0 = 1 from by decide +kernel]; omega
      | ⟨1, _⟩ =>
        show win0_1.index t0_last 1 * win0_1.size 1 ≤ (i 1 : Nat) ∧ (i 1 : Nat) < win0_1.index t0_last 1 * win0_1.size 1 + win0_1.xsize (grid0.coords t0_last) 1
        rw [show win0_1.index t0_last 1 * win0_1.size 1 = 0 from by decide +kernel, show win0_1.xsize (grid0.coords t0_last) 1 = 1 from by decide +kernel]; omega⟩

/-- The input window's block index at point t: row block t, the one column block. -/
theorem index0_0 : ∀ t : Fin cfg0.N, win0_0.index t 0 = t.val ∧ win0_0.index t 1 = 0 :=
  (by decide +kernel : ∀ t : Fin grid0.N, win0_0.index t 0 = t.val ∧ win0_0.index t 1 = 0)

/-- VALUE: a block read is the array read at the shifted row. -/
theorem iblk0_apply (c : Dev nD) (t : Fin cfg0.N) (y : S128x4096.Idx) :
    iblk0 V c 0 t y = V c main_arg1 (ValueIdx.ix2 (n0 := 4096) (n1 := 4096)
      ⟨128 * t.val + (y 0).val, by have h0 := ValueIdx.idx2_lt0 y; have ht := lt_of_lt_of_eq t.isLt N_0; omega⟩
      ⟨(y 1).val, ValueIdx.idx2_lt1 y⟩) := by
  have hi := index0_0 t
  unfold iblk0
  rw [View.read_apply]
  show V c main_arg1 _ = V c main_arg1 _
  refine congrArg (V c main_arg1) ?_
  funext a
  apply Fin.ext
  match a with
  | ⟨0, _⟩ => show win0_0.index t 0 * 128 + 1 * (y 0).val = 128 * t.val + (y 0).val; rw [hi.1]; omega
  | ⟨1, _⟩ => show win0_0.index t 1 * 4096 + 1 * (y 1).val = (y 1).val; rw [hi.2]; omega

end Cert.Kernel.H

end
-- ==== Proof.K.Reg1.lean ====
/-
  Region 1, the ternarizing pass, as proof data over the buffer contents `V` the region is entered from.

  The grid has 32 points; point t holds row block t (128 rows) of the weight matrix in window 0, the 1x1 scale in
  window 1 (fetched once, at the first point, and kept), and writes row block t of the ternarized weight through
  window 2. The body is one pointwise payload of the two inputs, stored whole; it keeps nothing between points, so
  the invariant is the scoped rest and the generator register, untouched.
-/
import proofs.«171202_j46084999086226_2_alg».proof.Proof.Gen.Kernel.Launch
import proofs.«171202_j46084999086226_2_alg».proof.Proof.Gen.Kernel.Skeleton
import proofs.«171202_j46084999086226_2_alg».proof.Proof.Gen.Kernel.Points
import proofs.«171202_j46084999086226_2_alg».proof.Proof.PureK
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [BitOps F]
local notation "𝕄" => MT nD τ sig Unit (Elt F) ℕ (Pipeline.UD sig nD τ) ℕ
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current buffer holds its block at every point, fetched there or not: unfetched, the block's
    index has not moved since the fetch. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## What the body leaves in the output window's buffer -/

abbrev r1_big : Rect S128x4096 := Rect.unit (s := S128x4096) ![0, 0] S128x4096.size inb_S128x4096_S128x4096_0_0
abbrev r1_one : Rect S1x1 := Rect.unit (s := S1x1) ![0, 0] S1x1.size inb_S1x1_S1x1_0_0

/-- Window 2's buffer after the body: its one store, the payload of the two loads. -/
def out1_2 (x0 : Vec F S128x4096 .f32) (x1 : Vec F S1x1 .f32) : Vec F S128x4096 .bf16 :=
  View.canon [⟨r1_big, k1_pay1 (View.ld x0 r1_big) (View.ld x1 r1_one)⟩]

theorem cover1_2 (p0 : Vec F S128x4096 .bf16) (y : S128x4096.Idx) :
    ∃ pc ∈ ([⟨r1_big, p0⟩] : List (View.Piece (Elt F) S128x4096 .bf16)), y ∈ pc.1.set :=
  View.cover_of_tiled [⟨r1_big, p0⟩] S128x4096.size (by rfl) y

/-! ## The body's triple -/

set_option maxHeartbeats 1000000 in
theorem sound_kernel1 (c : Dev nD) (E : Set ℕ) (i : grid1.Coords) (arg1 : Memref sig .tc .vmem S128x4096 .f32) (harg1 : arg1.IsWhole)
    (arg2 : Memref sig .tc .vmem S1x1 .f32) (harg2 : arg2.IsWhole) (arg3 : Memref sig .tc .vmem S128x4096 .bf16) (harg3 : arg3.IsWhole)
    (x0 : Vec F S128x4096 .f32) (x1 : Vec F S1x1 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__ternarize_kernel i arg1 harg1 arg2 harg2 arg3 harg3) K := by
  simp only [cc1__ternarize_kernel_eq_skeleton]; unfold cc1__ternarize_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover1_2 _)

/-! ## The proof data -/

/-- The proof data of pipeline 1 on core `c`: the arrays as the region finds them; after the body at point `t` each
    input's buffer at its block and the output's at the payload of the two blocks; the invariant the scoped rest and
    the generator register; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = Pipeline.ΦA spec1 c from rfl]
  try exact Idealize.SL.BI.Entails.refl _
theorem hout1 (c : Dev nD) : (dat1 V c).Φ (Fin.last cfg1.N) ⊢ (Pipeline.ΦA spec1 c : sProp 𝕄) := by
  rw [show (dat1 V c).Φ (Fin.last cfg1.N) = Pipeline.ΦA spec1 c from rfl]
  try exact Idealize.SL.BI.Entails.refl _

end Cert.Kernel.H

end
-- ==== Proof.K.Reg2Run.lean ====
/-
  Stage 3 (the tiled matrix product): the kernel body's three runs.

  The body branches on the contraction coordinate k of the grid point. At k = 0 it first stores zeros into the
  accumulator; at every k it loads the two operand tiles and the accumulator, and stores the accumulator plus the
  tile product; at k = 3 it then loads the accumulator and the bias row and stores their sum into the output tile.
  Each run is stated with explicit contents: what every buffer holds before, and what it holds after.
-/
import proofs.«171202_j46084999086226_2_alg».proof.Proof.PureK
import proofs.«171202_j46084999086226_2_alg».proof.Proof.Gen.Kernel.Launch
import proofs.«171202_j46084999086226_2_alg».proof.Proof.Gen.Kernel.Points
import Idealize.ShloMosaic.Lib.Pipeline.FrameBody
import Idealize.ShloMosaic.Lib.Pipeline.Value
import Idealize.ShloMosaic.Lib.Tactic

set_option maxRecDepth 16384

noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [BitOps F]
local notation "𝕄" => MT nD τ sig Unit (Elt F) ℕ (Pipeline.UD sig nD τ) ℕ

/-! ## The two conditions of the body, in closed form over the grid -/

/-- The zeroing branch's condition (the contraction coordinate is 0), as the body computes it. -/
abbrev cond2_0 (i : grid2.Coords) : Prop :=
  (Scalar.cmpi .ne (Scalar.extui (Scalar.cmpi .eq (BitVec.ofNat 32 (i 2).val) 0#32)) 0#32) = 1#1
/-- It holds exactly at the points with k = 0. -/
theorem hcond2_0 : ∀ t : Fin cfg2.N, cond2_0 (grid2.coords t) ↔ t.val % 4 = 0 :=
  (by decide +kernel : ∀ t : Fin grid2.N, cond2_0 (grid2.coords t) ↔ t.val % 4 = 0)
/-- The final branch's condition (the contraction coordinate is 3). -/
abbrev cond2_1 (i : grid2.Coords) : Prop := k2_cond2 i = 1#1
/-- It holds exactly at the points with k = 3. -/
theorem hcond2_1 : ∀ t : Fin cfg2.N, cond2_1 (grid2.coords t) ↔ t.val % 4 = 3 :=
  (by decide +kernel : ∀ t : Fin grid2.N, cond2_1 (grid2.coords t) ↔ t.val % 4 = 3)
/-- Away from k = 3 the output window is idle: the body stores nothing into it. -/
theorem idleAt2_3 : ∀ t : Fin cfg2.N, ¬cond2_1 (grid2.coords t) → cfg2.idle 3 (grid2.coords t) = true := by decide +kernel
/-- At k = 3 it is live. -/
theorem liveAt2_3 : ∀ t : Fin cfg2.N, cond2_1 (grid2.coords t) → cfg2.idle 3 (grid2.coords t) = false := by decide +kernel

/-- The zero offsets of a whole-buffer access. -/
theorem hz2 : (![0, 0] : Fin 2 → Nat) = fun _ => 0 := funext fun a => by fin_cases a <;> rfl

/-! ## The body's three runs -/

set_option maxHeartbeats 1000000 in
/-- FIRST contraction block (k = 0). From the three input buffers at x, w, b, the output buffer at o and the
    accumulator at anything, the body zeroes the accumulator, reads the zeros back, adds the tile product and
    stores the sum: the accumulator ends at the product added to zero, everything else is as it was. -/
theorem run2_first (c : Dev nD) (E : Set ℕ) (i : grid2.Coords)
    (arg3 : Memref sig .tc .vmem S1024x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hc0 : cond2_0 i) (hc1 : ¬cond2_1 i)
    (x : Vec F S1024x1024 .f32) (w : Vec F S1024x1024 .bf16) (b : Vec F S1x1024 .f32) (o : Vec F S1024x1024 .f32)
    (K : PUnit → sProp 𝕄) :
    iprop(owns (c : Thread nD τ) arg3 fullShare x ∗ owns (c : Thread nD τ) arg4 fullShare w
        ∗ owns (c : Thread nD τ) arg5 fullShare b ∗ owns (c : Thread nD τ) arg6 fullShare o
        ∗ (∃ d, owns (c : Thread nD τ) arg7 fullShare d)
        ∗ (iprop(owns (c : Thread nD τ) arg3 fullShare x ∗ owns (c : Thread nD τ) arg4 fullShare w
            ∗ owns (c : Thread nD τ) arg5 fullShare b ∗ owns (c : Thread nD τ) arg6 fullShare o
            ∗ owns (c : Thread nD τ) arg7 fullShare (k2_pay2 x w (k2_pay1 (F := F)))) -∗ K ⟨⟩))
      ⊢ wp frame (wpE (defs₀ (F := F)) Variants.none c none) E
          (cc2__matmul_kernel i arg3 harg3 arg4 harg4 arg5 harg5 arg6 harg6 arg7 harg7) K := by
  simp only [cc2__matmul_kernel_eq_skeleton]; unfold cc2__matmul_kernel_skel
  unfold owns
  iintro ⟨⟨%f3, %hf3, H3⟩, ⟨%f4, %hf4, H4⟩, ⟨%f5, %hf5, H5⟩, ⟨%f6, %hf6, H6⟩, ⟨%d7, %f7, -, H7⟩, Hk⟩
  subst hf3; subst hf4; subst hf5; subst hf6
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try sl_unfold_words
  rw [View.read_writes_eq_canon _ _ _ (fun y => ⟨_, List.mem_cons_self, View.mem_set_unit_zero hz2 inb_S1024x1024_S1024x1024_0_0 y⟩),
    View.canon_cons_unit_zero hz2]
  rw [View.readCov_unit_zero _ hz2]
  simp only [View.readAt_eq_ld, View.ld_unit_zero (S := S1024x1024) hz2]

set_option maxHeartbeats 1000000 in
/-- A MIDDLE contraction block (k = 1, 2). From the input buffers at x, w, b, the output buffer at o and the
    accumulator at a, the body adds the tile product to the accumulator; everything else is as it was. -/
theorem run2_mid (c : Dev nD) (E : Set ℕ) (i : grid2.Coords)
    (arg3 : Memref sig .tc .vmem S1024x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hc0 : ¬cond2_0 i) (hc1 : ¬cond2_1 i)
    (x : Vec F S1024x1024 .f32) (w : Vec F S1024x1024 .bf16) (b : Vec F S1x1024 .f32) (o : Vec F S1024x1024 .f32)
    (a : Vec F S1024x1024 .f32) (K : PUnit → sProp 𝕄) :
    iprop(owns (c : Thread nD τ) arg3 fullShare x ∗ owns (c : Thread nD τ) arg4 fullShare w
        ∗ owns (c : Thread nD τ) arg5 fullShare b ∗ owns (c : Thread nD τ) arg6 fullShare o
        ∗ owns (c : Thread nD τ) arg7 fullShare a
        ∗ (iprop(owns (c : Thread nD τ) arg3 fullShare x ∗ owns (c : Thread nD τ) arg4 fullShare w
            ∗ owns (c : Thread nD τ) arg5 fullShare b ∗ owns (c : Thread nD τ) arg6 fullShare o
            ∗ owns (c : Thread nD τ) arg7 fullShare (k2_pay2 x w a)) -∗ K ⟨⟩))
      ⊢ wp frame (wpE (defs₀ (F := F)) Variants.none c none) E
          (cc2__matmul_kernel i arg3 harg3 arg4 harg4 arg5 harg5 arg6 harg6 arg7 harg7) K := by
  simp only [cc2__matmul_kernel_eq_skeleton]; unfold cc2__matmul_kernel_skel
  unfold owns
  iintro ⟨⟨%f3, %hf3, H3⟩, ⟨%f4, %hf4, H4⟩, ⟨%f5, %hf5, H5⟩, ⟨%f6, %hf6, H6⟩, ⟨%f7, %hf7, H7⟩, Hk⟩
  subst hf3; subst hf4; subst hf5; subst hf6; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  try sl_unfold_words
  rw [View.read_writes_eq_canon _ _ _ (fun y => ⟨_, List.mem_cons_self, View.mem_set_unit_zero hz2 inb_S1024x1024_S1024x1024_0_0 y⟩),
    View.canon_cons_unit_zero hz2]
  simp only [View.readAt_eq_ld, View.ld_unit_zero (S := S1024x1024) hz2]

set_option maxHeartbeats 1000000 in
/-- THE LAST contraction block (k = 3). From the input buffers at x, w, b, the output buffer at anything and the
    accumulator at a, the body adds the tile product to the accumulator, reads the sum back, adds the bias row and
    stores the result into the output buffer; the inputs are as they were. -/
theorem run2_last (c : Dev nD) (E : Set ℕ) (i : grid2.Coords)
    (arg3 : Memref sig .tc .vmem S1024x1024 .f32) (harg3 : arg3.IsWhole)
    (arg4 : Memref sig .tc .vmem S1024x1024 .bf16) (harg4 : arg4.IsWhole)
    (arg5 : Memref sig .tc .vmem S1x1024 .f32) (harg5 : arg5.IsWhole)
    (arg6 : Memref sig .tc .vmem S1024x1024 .f32) (harg6 : arg6.IsWhole)
    (arg7 : Memref sig .tc .vmem S1024x1024 .f32) (harg7 : arg7.IsWhole)
    (hc0 : ¬cond2_0 i) (hc1 : cond2_1 i)
    (x : Vec F S1024x1024 .f32) (w : Vec F S1024x1024 .bf16) (b : Vec F S1x1024 .f32)
    (a : Vec F S1024x1024 .f32) (K : PUnit → sProp 𝕄) :
    iprop(owns (c : Thread nD τ) arg3 fullShare x ∗ owns (c : Thread nD τ) arg4 fullShare w
        ∗ owns (c : Thread nD τ) arg5 fullShare b ∗ (∃ d, owns (c : Thread nD τ) arg6 fullShare d)
        ∗ owns (c : Thread nD τ) arg7 fullShare a
        ∗ (iprop(owns (c : Thread nD τ) arg3 fullShare x ∗ owns (c : Thread nD τ) arg4 fullShare w
            ∗ owns (c : Thread nD τ) arg5 fullShare b ∗ owns (c : Thread nD τ) arg6 fullShare (k2_pay3 (k2_pay2 x w a) b)
            ∗ owns (c : Thread nD τ) arg7 fullShare (k2_pay2 x w a)) -∗ K ⟨⟩))
      ⊢ wp frame (wpE (defs₀ (F := F)) Variants.none c none) E
          (cc2__matmul_kernel i arg3 harg3 arg4 harg4 arg5 harg5 arg6 harg6 arg7 harg7) K := by
  simp only [cc2__matmul_kernel_eq_skeleton]; unfold cc2__matmul_kernel_skel
  unfold owns
  iintro ⟨⟨%f3, %hf3, H3⟩, ⟨%f4, %hf4, H4⟩, ⟨%f5, %hf5, H5⟩, ⟨%d6, %f6, -, H6⟩, ⟨%f7, %hf7, H7⟩, Hk⟩
  subst hf3; subst hf4; subst hf5; subst hf7
  sl_exec (disch := first | exact hc0 | exact hc1)
  sl_step
  iapply Hk
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try sl_unfold_words
    rw [View.read_writes_eq_canon _ _ _ (fun y => ⟨_, List.mem_cons_self, View.mem_set_unit_zero hz2 inb_S1024x1024_S1024x1024_0_0 y⟩),
      View.canon_cons_unit_zero hz2]
    rw [View.readCov_unit_zero _ hz2]
    simp only [View.readAt_eq_ld, View.ld_unit_zero (S := S1024x1024) hz2, View.ld_unit_zero (S := S1x1024) hz2]
  iexists _; isplitr
  swap; · iexact H7
  ipureintro
  try sl_unfold_words
  rw [View.read_writes_eq_canon _ _ _ (fun y => ⟨_, List.mem_cons_self, View.mem_set_unit_zero hz2 inb_S1024x1024_S1024x1024_0_0 y⟩),
    View.canon_cons_unit_zero hz2]
  simp only [View.readAt_eq_ld, View.ld_unit_zero (S := S1024x1024) hz2]

end Cert.Kernel.H
end
-- ==== Proof.K.Reg2Frame.lean ====
/-
  Stage 3 (the tiled matrix product) as one region of the program: the proof data and the body obligation.

  Point t = (i*4 + j)*4 + k of the 16 x 4 x 4 grid. The inputs' staging buffers hold their blocks at every point
  (the bias tile is fetched at k = 0 and kept through k = 1, 2, 3). The accumulator after point t is, in closed
  form, the pure recursion of PureK.lean over the contraction blocks of output tile t / 4, at step t % 4: at k = 0
  the blocks' product added to zero, afterwards added to what the point before left. The output window is idle
  except at k = 3, where the body leaves the accumulator plus the bias row in it and the pipeline writes it back.
  Between points the invariant names the accumulator's contents; before the first point, and to the outside,
  the accumulator is at anything.
-/
import proofs.«171202_j46084999086226_2_alg».proof.Proof.K.Reg2Run

set_option maxRecDepth 16384

noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [BitOps F]
local notation "𝕄" => MT nD τ sig Unit (Elt F) ℕ (Pipeline.UD sig nD τ) ℕ
variable (V : (c : Dev nD) → (b : Ref sig .tc) → Buf (Elt F) ((c : Thread nD τ).loc b))

/-! ## The windows' blocks -/

/-- Window w's block at point t, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not: where it is
    not fetched its block index has not moved since the point before. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Every remainder modulo 256 is a grid point. -/
theorem pt_lt2 (n : ℕ) : n % 256 < cfg2.N :=
  lt_of_lt_of_eq (Nat.mod_lt _ (by decide)) (show cfg2.N = 256 from N_2).symm

/-- The contraction blocks of output tile q (= i*4+j, q < 64) as sequences: block k is the point 4*q + k mod 256. -/
def xblks2 (c : Dev nD) (q : ℕ) : ℕ → Vec F S1024x1024 .f32 := fun k => iblk2 V c 0 ⟨(4 * q + k) % 256, pt_lt2 _⟩
def wblks2 (c : Dev nD) (q : ℕ) : ℕ → Vec F S1024x1024 .bf16 := fun k => iblk2 V c 1 ⟨(4 * q + k) % 256, pt_lt2 _⟩

/-- Point t is contraction block t % 4 of tile t / 4. -/
theorem pt_eq2 (t : Fin cfg2.N) : (⟨(4 * (t.val / 4) + t.val % 4) % 256, pt_lt2 _⟩ : Fin cfg2.N) = t :=
  Fin.ext (by
    show (4 * (t.val / 4) + t.val % 4) % 256 = t.val
    have h : t.val < 256 := lt_of_lt_of_eq t.isLt (show cfg2.N = 256 from N_2)
    omega)
theorem xblks2_at (c : Dev nD) (t : Fin cfg2.N) : xblks2 V c (t.val / 4) (t.val % 4) = iblk2 V c 0 t := by
  unfold xblks2; rw [pt_eq2 t]
theorem wblks2_at (c : Dev nD) (t : Fin cfg2.N) : wblks2 V c (t.val / 4) (t.val % 4) = iblk2 V c 1 t := by
  unfold wblks2; rw [pt_eq2 t]

/-! ## The accumulator after each point -/

/-- The accumulator after point n: the pure recursion over tile n / 4's contraction blocks, at step n % 4. -/
def accAt2 (c : Dev nD) (n : ℕ) : Vec F S1024x1024 .f32 :=
  acc2 (xblks2 V c (n / 4)) (wblks2 V c (n / 4)) (n % 4)

/-- At a first contraction block it is the blocks' product added to the zeros just stored. -/
theorem accAt2_first (c : Dev nD) (t : Fin cfg2.N) (h : t.val % 4 = 0) :
    accAt2 V c t.val = k2_pay2 (iblk2 V c 0 t) (iblk2 V c 1 t) (k2_pay1 (F := F)) := by
  have hx := xblks2_at V c t
  have hw := wblks2_at V c t
  rw [h] at hx hw
  unfold accAt2
  rw [h, acc2, hx, hw]

/-- At a later one it is the blocks' product added to what the point before left. -/
theorem accAt2_next (c : Dev nD) (t : Fin cfg2.N) (h : ¬t.val % 4 = 0) :
    accAt2 V c t.val = k2_pay2 (iblk2 V c 0 t) (iblk2 V c 1 t) (accAt2 V c (t.val - 1)) := by
  have hx := xblks2_at V c t
  have hw := wblks2_at V c t
  have hq : (t.val - 1) / 4 = t.val / 4 := by omega
  have hk : t.val % 4 = (t.val - 1) % 4 + 1 := by omega
  rw [hk] at hx hw
  unfold accAt2
  rw [hq, hk, acc2, hx, hw]

/-! ## The invariant between points -/

/-- The accumulator: the kernel's own whole scoped buffer. -/
abbrev scM2 : Memref sig .tc .vmem S1024x1024 .f32 := Memref.whole cc2_scratch0
/-- Each window's current staging memref at point t, as the pipeline passes it to the body, and its wholeness. -/
abbrev ms2_0 (t : Fin cfg2.N) : Memref sig .tc .vmem S1024x1024 .f32 := win2_0.stage (cfg2.slots t 0)
abbrev ms2_1 (t : Fin cfg2.N) : Memref sig .tc .vmem S1024x1024 .bf16 := win2_1.stage (cfg2.slots t 1)
abbrev ms2_2 (t : Fin cfg2.N) : Memref sig .tc .vmem S1x1024 .f32 := win2_2.stage (cfg2.slots t 2)
abbrev ms2_3 (t : Fin cfg2.N) : Memref sig .tc .vmem S1024x1024 .f32 := win2_3.stage (cfg2.slots t 3)

/-- The region's own resources with the accumulator at contents a: the other stages' scoped buffers at anything,
    the accumulator at a, the generator register at some state. -/
def Phi2At (c : Dev nD) (a : Vec F S1024x1024 .f32) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ owns (c : Thread nD τ) scM2 fullShare a) ∗ (∃ r, prngReg c r))

/-- What the launch hands the region is the same with the accumulator at anything. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ d, owns (c : Thread nD τ) scM2 fullShare d)) ∗ (∃ r, prngReg c r)) := by
  unfold Pipeline.ΦA; rw [scopedRest2_eq]; simp only [scM2, owns_whole]; try rfl

/-- The invariant before position n: before the first point what the launch hands over; afterwards the
    accumulator at what the point before left. -/
def PhiS2 (c : Dev nD) : ℕ → sProp 𝕄
  | 0 => Pipeline.ΦA spec2 c
  | n + 1 => Phi2At c (accAt2 V c n)

theorem PhiS2_succ (c : Dev nD) (n : ℕ) : PhiS2 V c (n + 1) = Phi2At c (accAt2 V c n) := rfl
theorem PhiS2_zero (c : Dev nD) (n : ℕ) (hz : n = 0) : PhiS2 V c n = Pipeline.ΦA spec2 c := by subst hz; rfl
theorem PhiS2_pos (c : Dev nD) (n : ℕ) (hz : n ≠ 0) : PhiS2 V c n = Phi2At c (accAt2 V c (n - 1)) := by
  cases n with
  | zero => exact absurd rfl hz
  | succ n => rfl

/-! ## The proof data -/

/-- The proof data of the region on core c: the arrays as the region finds them; after the body each input's
    buffer at its block and the output's at the accumulator plus the bias row (consulted at k = 3 only, where the
    window is live); the invariant above; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => k2_pay3 (accAt2 V c t.val) (iblk2 V c 2 t)
  Φ t := PhiS2 V c t.val
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) :
    (dat2 V c).after 3 t = k2_pay3 (accAt2 V c t.val) (iblk2 V c 2 t) := by dsimp only [dat2]

theorem PhiS2_castSucc (c : Dev nD) (t : Fin cfg2.N) : (dat2 V c).Φ t.castSucc = PhiS2 V c t.val := by
  dsimp only [dat2]; simp only [Fin.coe_castSucc]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- The inputs are never idle. -/
theorem liveAt2_in (w : Fin cfg2.W) (hw : w.val < 3) (t : Fin cfg2.N) : cfg2.idle w (grid2.coords t) = false := by
  match w, hw with
  | ⟨0, _⟩, _ => rfl
  | ⟨1, _⟩, _ => rfl
  | ⟨2, _⟩, _ => rfl

/-! ## The body obligation -/

/-- What the body is called with at point t, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t)

set_option maxHeartbeats 4800000 in
/-- The body at any point. The inputs' buffers hold their blocks; the contraction coordinate selects the run; the
    invariant hands the body the accumulator at what the point before left (at anything at a first contraction
    block) and takes it back at this point's contents; away from k = 3 the output buffer is handed back untouched. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).owesAt () t.succ = (dat2 V c).owesAt () t.castSucc from rfl]
  rw [show (dat2 V c).Φ t.succ = PhiS2 V c (t.val + 1) from rfl, PhiS2_succ, PhiS2_castSucc]
  rw [show (dat2 V c).leavesExact 0 t = owns (c : Thread nD τ) (ms2_0 t) fullShare ((dat2 V c).after 0 t) from by
    unfold Dat.leavesExact; rw [liveAt2_in 0 (by decide) t], after2_0]
  rw [show (dat2 V c).leavesExact 1 t = owns (c : Thread nD τ) (ms2_1 t) fullShare ((dat2 V c).after 1 t) from by
    unfold Dat.leavesExact; rw [liveAt2_in 1 (by decide) t], after2_1]
  rw [show (dat2 V c).leavesExact 2 t = owns (c : Thread nD τ) (ms2_2 t) fullShare ((dat2 V c).after 2 t) from by
    unfold Dat.leavesExact; rw [liveAt2_in 2 (by decide) t], after2_2]
  have hN : t.val < 256 := lt_of_lt_of_eq t.isLt (show cfg2.N = 256 from N_2)
  by_cases h3 : t.val % 4 = 3
  · have h0 : ¬t.val % 4 = 0 := by omega
    have hc0 : ¬cond2_0 (grid2.coords t) := fun h => h0 ((hcond2_0 t).mp h)
    have hc1 : cond2_1 (grid2.coords t) := (hcond2_1 t).mpr h3
    rw [show (dat2 V c).leavesExact 3 t = owns (c : Thread nD τ) (ms2_3 t) fullShare ((dat2 V c).after 3 t) from by
      unfold Dat.leavesExact; rw [liveAt2_3 t hc1], after2_3]
    rw [accAt2_next V c t h0]
    rw [PhiS2_pos V c _ (by omega : t.val ≠ 0)]; unfold Phi2At
    iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
    iapply (run2_last c Set.univ (grid2.coords t) _ _ _ _ _ _ _ _ _ _ hc0 hc1
      (iblk2 V c 0 t) (iblk2 V c 1 t) (iblk2 V c 2 t) (accAt2 V c (t.val - 1)) _)
    isplitl [H0]; · iexact H0
    isplitl [H1]; · iexact H1
    isplitl [H2]; · iexact H2
    isplitl [H3]; · iexists _; iexact H3
    isplitl [HS]; · iexact HS
    iintro ⟨H0, H1, H2, H3, HS⟩
    isplitl [HR0 HR1 HR2 HR3 HR4 HR5 HR6 HR7 HR8 HR9 HS Hg]
    · isplitl [HR0 HR1 HR2 HR3 HR4 HR5 HR6 HR7 HR8 HR9 HS]
      · isplitl [HR0]; · iexact HR0
        isplitl [HR1]; · iexact HR1
        isplitl [HR2]; · iexact HR2
        isplitl [HR3]; · iexact HR3
        isplitl [HR4]; · iexact HR4
        isplitl [HR5]; · iexact HR5
        isplitl [HR6]; · iexact HR6
        isplitl [HR7]; · iexact HR7
        isplitl [HR8]; · iexact HR8
        isplitl [HR9]; · iexact HR9
        iexact HS
      iexact Hg
    isplitl [Ho]; · iexact Ho
    isplitl [H0]; · iexact H0
    isplitl [H1]; · iexact H1
    isplitl [H2]; · iexact H2
    iexact H3
  · have hc1 : ¬cond2_1 (grid2.coords t) := fun h => h3 ((hcond2_1 t).mp h)
    rw [Dat.leavesExact_idle (dat2 V c) 3 t (idleAt2_3 t hc1) (by
      cases hf : (cfg2.win 3).flush t with
      | false => rfl
      | true => exact absurd ((flush2_3 t).mp hf) h3)]
    by_cases h0 : t.val % 4 = 0
    · have hc0 : cond2_0 (grid2.coords t) := (hcond2_0 t).mpr h0
      rw [accAt2_first V c t h0]
      by_cases hz : t.val = 0
      · rw [PhiS2_zero V c _ hz, PhiA2_eq]; unfold Phi2At
        iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
        iapply (run2_first c Set.univ (grid2.coords t) _ _ _ _ _ _ _ _ _ _ hc0 hc1
          (iblk2 V c 0 t) (iblk2 V c 1 t) (iblk2 V c 2 t) ((dat2 V c).before 3 t d3) _)
        isplitl [H0]; · iexact H0
        isplitl [H1]; · iexact H1
        isplitl [H2]; · iexact H2
        isplitl [H3]; · iexact H3
        isplitl [HS]; · iexact HS
        iintro ⟨H0, H1, H2, H3, HS⟩
        isplitl [HR0 HR1 HR2 HR3 HR4 HR5 HR6 HR7 HR8 HR9 HS Hg]
        · isplitl [HR0 HR1 HR2 HR3 HR4 HR5 HR6 HR7 HR8 HR9 HS]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            iexact HS
          iexact Hg
        isplitl [Ho]; · iexact Ho
        isplitl [H0]; · iexact H0
        isplitl [H1]; · iexact H1
        isplitl [H2]; · iexact H2
        iexists _; iexact H3
      · rw [PhiS2_pos V c _ hz]; unfold Phi2At
        iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
        iapply (run2_first c Set.univ (grid2.coords t) _ _ _ _ _ _ _ _ _ _ hc0 hc1
          (iblk2 V c 0 t) (iblk2 V c 1 t) (iblk2 V c 2 t) ((dat2 V c).before 3 t d3) _)
        isplitl [H0]; · iexact H0
        isplitl [H1]; · iexact H1
        isplitl [H2]; · iexact H2
        isplitl [H3]; · iexact H3
        isplitl [HS]; · iexists _; iexact HS
        iintro ⟨H0, H1, H2, H3, HS⟩
        isplitl [HR0 HR1 HR2 HR3 HR4 HR5 HR6 HR7 HR8 HR9 HS Hg]
        · isplitl [HR0 HR1 HR2 HR3 HR4 HR5 HR6 HR7 HR8 HR9 HS]
          · isplitl [HR0]; · iexact HR0
            isplitl [HR1]; · iexact HR1
            isplitl [HR2]; · iexact HR2
            isplitl [HR3]; · iexact HR3
            isplitl [HR4]; · iexact HR4
            isplitl [HR5]; · iexact HR5
            isplitl [HR6]; · iexact HR6
            isplitl [HR7]; · iexact HR7
            isplitl [HR8]; · iexact HR8
            isplitl [HR9]; · iexact HR9
            iexact HS
          iexact Hg
        isplitl [Ho]; · iexact Ho
        isplitl [H0]; · iexact H0
        isplitl [H1]; · iexact H1
        isplitl [H2]; · iexact H2
        iexists _; iexact H3
    · have hc0 : ¬cond2_0 (grid2.coords t) := fun h => h0 ((hcond2_0 t).mp h)
      rw [accAt2_next V c t h0]
      rw [PhiS2_pos V c _ (by omega : t.val ≠ 0)]; unfold Phi2At
      iintro ⟨⟨⟨HR0, HR1, HR2, HR3, HR4, HR5, HR6, HR7, HR8, HR9, HS⟩, Hg⟩, Ho, ⟨%d0, H0⟩, ⟨%d1, H1⟩, ⟨%d2, H2⟩, ⟨%d3, H3⟩⟩
      iapply (run2_mid c Set.univ (grid2.coords t) _ _ _ _ _ _ _ _ _ _ hc0 hc1
        (iblk2 V c 0 t) (iblk2 V c 1 t) (iblk2 V c 2 t) ((dat2 V c).before 3 t d3) (accAt2 V c (t.val - 1)) _)
      isplitl [H0]; · iexact H0
      isplitl [H1]; · iexact H1
      isplitl [H2]; · iexact H2
      isplitl [H3]; · iexact H3
      isplitl [HS]; · iexact HS
      iintro ⟨H0, H1, H2, H3, HS⟩
      isplitl [HR0 HR1 HR2 HR3 HR4 HR5 HR6 HR7 HR8 HR9 HS Hg]
      · isplitl [HR0 HR1 HR2 HR3 HR4 HR5 HR6 HR7 HR8 HR9 HS]
        · isplitl [HR0]; · iexact HR0
          isplitl [HR1]; · iexact HR1
          isplitl [HR2]; · iexact HR2
          isplitl [HR3]; · iexact HR3
          isplitl [HR4]; · iexact HR4
          isplitl [HR5]; · iexact HR5
          isplitl [HR6]; · iexact HR6
          isplitl [HR7]; · iexact HR7
          isplitl [HR8]; · iexact HR8
          isplitl [HR9]; · iexact HR9
          iexact HS
        iexact Hg
      isplitl [Ho]; · iexact Ho
      isplitl [H0]; · iexact H0
      isplitl [H1]; · iexact H1
      isplitl [H2]; · iexact H2
      iexists _; iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point. -/
theorem hin2 (c : Dev nD) : (Pipeline.ΦA spec2 c : sProp 𝕄) ⊢ (dat2 V c).Φ 0 := by
  rw [show (dat2 V c).Φ 0 = PhiS2 V c 0 from rfl, PhiS2_zero V c 0 rfl]
  try exact Idealize.SL.BI.Entails.refl _

/-- After the last point the invariant gives it back: the accumulator's named contents are forgotten. -/
theorem hout2 (c : Dev nD) : (dat2 V c).Φ (Fin.last cfg2.N) ⊢ (Pipeline.ΦA spec2 c : sProp 𝕄) := by
  rw [show (dat2 V c).Φ (Fin.last cfg2.N) = PhiS2 V c cfg2.N from rfl,
    PhiS2_pos V c _ (by have : cfg2.N = 256 := N_2; omega), PhiA2_eq]
  unfold Phi2At
  iintro ⟨⟨HR0, HR1, HR2, HR3, HR4, HR5, HR6, HR7, HR8, HR9, HS⟩, Hg⟩
  isplitl [HR0 HR1 HR2 HR3 HR4 HR5 HR6 HR7 HR8 HR9 HS]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    isplitl [HR8]; · iexact HR8
    isplitl [HR9]; · iexact HR9
    iexists _; iexact HS
  iexact Hg

end Cert.Kernel.H
end
-- ==== Proof.K.Vals.lean ====
/-
  The buffer contents between the items of @main, as a fold from the launch memory.

  @main is: region 0, region 1, two reshapes, region 2, one reshape. Between two items every unscoped buffer of the
  TensorCore holds known contents: at launch the memory `m`; after a region its arrays at what the region's
  write-backs leave and every other buffer as before; after a stretch of host operations their results written.
  Each region's proof data is taken at the contents the region is entered from.
-/
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«171202_j46084999086226_2_alg».proof.Proof.K.Reg0
import proofs.«171202_j46084999086226_2_alg».proof.Proof.K.Reg1
import proofs.«171202_j46084999086226_2_alg».proof.Proof.K.Reg2Frame
set_option maxRecDepth 16384
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [BitOps F]
local notation "𝕄" => MT nD τ sig Unit (Elt F) ℕ (Pipeline.UD sig nD τ) ℕ

variable (m : (ℓ : Loc nD τ sig) → Buf (Elt F) ℓ)

/-- Core `c`'s buffers at launch (region 0's entry), -/
abbrev W0 : Dev nD → Valuation τ sig (Elt F) := fun c b => m ((c : Dev nD), b)
/-- and the same read at the TensorCore's references. -/
abbrev V0 : (c : Dev nD) → (b : Ref sig .tc) → Buf (Elt F) ((c : Thread nD τ).loc b) := fun c b => W0 m c b

/-- At region 0's exit: its arrays at what the pipeline leaves (the inputs as entered, the output's write-backs folded),
    every other buffer as entered. -/
def W1 (c : Dev nD) : Valuation τ sig (Elt F) :=
  Pipeline.withArrays spec0 c (W0 m c) fun w => (dat0 (V0 m) c).arrAt w cfg0.N
theorem W1_arr (c : Dev nD) (w : Fin cfg0.W) :
    W1 m c (Proc.devRef .tc (Pipeline.arrRef spec0 w)) = (dat0 (V0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev V1 : (c : Dev nD) → (b : Ref sig .tc) → Buf (Elt F) ((c : Thread nD τ).loc b) := fun c b => W1 m c b
theorem hF0 (c : Dev nD) (w : Fin cfg0.W) : (dat0 (V0 m) c).arrAt w cfg0.N = V1 m c (Pipeline.arrRef spec0 w) :=
  (W1_arr m c w).symm
theorem hrest0 (c : Dev nD) : ∀ b, b ∉ Finset.univ.image (Pipeline.arrRef spec0) → V1 m c b = V0 m c b :=
  fun b hb => W1_of_ne m c b fun w e => hb (Finset.mem_image.mpr ⟨w, Finset.mem_univ _, e⟩)

/-- At region 1's exit: its arrays at what the pipeline leaves (the inputs as entered, the output's write-backs folded),
    every other buffer as entered. -/
def W2 (c : Dev nD) : Valuation τ sig (Elt F) :=
  Pipeline.withArrays spec1 c (W1 m c) fun w => (dat1 (V1 m) c).arrAt w cfg1.N
theorem W2_arr (c : Dev nD) (w : Fin cfg1.W) :
    W2 m c (Proc.devRef .tc (Pipeline.arrRef spec1 w)) = (dat1 (V1 m) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m c (Proc.devRef .tc b) = W1 m c (Proc.devRef .tc b) := by
  unfold W2; exact Pipeline.withArrays_of_ne spec1 c _ _ b hb
abbrev V2 : (c : Dev nD) → (b : Ref sig .tc) → Buf (Elt F) ((c : Thread nD τ).loc b) := fun c b => W2 m c b
theorem hF1 (c : Dev nD) (w : Fin cfg1.W) : (dat1 (V1 m) c).arrAt w cfg1.N = V2 m c (Pipeline.arrRef spec1 w) :=
  (W2_arr m c w).symm
theorem hrest1 (c : Dev nD) : ∀ b, b ∉ Finset.univ.image (Pipeline.arrRef spec1) → V2 m c b = V1 m c b :=
  fun b hb => W2_of_ne m c b fun w e => hb (Finset.mem_image.mpr ⟨w, Finset.mem_univ _, e⟩)

/-- After the two reshapes between regions 1 and 2. -/
abbrev W3 : Dev nD → Valuation τ sig (Elt F) := fun c => StableHlo.after hostOps2 (W2 m c)
abbrev V3 : (c : Dev nD) → (b : Ref sig .tc) → Buf (Elt F) ((c : Thread nD τ).loc b) := fun c b => W3 m c b

/-- At region 2's exit: its arrays at what the pipeline leaves (the inputs as entered, the output's write-backs folded),
    every other buffer as entered. -/
def W4 (c : Dev nD) : Valuation τ sig (Elt F) :=
  Pipeline.withArrays spec2 c (W3 m c) fun w => (dat2 (V3 m) c).arrAt w cfg2.N
theorem W4_arr (c : Dev nD) (w : Fin cfg2.W) :
    W4 m c (Proc.devRef .tc (Pipeline.arrRef spec2 w)) = (dat2 (V3 m) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m c (Proc.devRef .tc b) = W3 m c (Proc.devRef .tc b) := by
  unfold W4; exact Pipeline.withArrays_of_ne spec2 c _ _ b hb
abbrev V4 : (c : Dev nD) → (b : Ref sig .tc) → Buf (Elt F) ((c : Thread nD τ).loc b) := fun c b => W4 m c b
theorem hF2 (c : Dev nD) (w : Fin cfg2.W) : (dat2 (V3 m) c).arrAt w cfg2.N = V4 m c (Pipeline.arrRef spec2 w) :=
  (W4_arr m c w).symm
theorem hrest2 (c : Dev nD) : ∀ b, b ∉ Finset.univ.image (Pipeline.arrRef spec2) → V4 m c b = V3 m c b :=
  fun b hb => W4_of_ne m c b fun w e => hb (Finset.mem_image.mpr ⟨w, Finset.mem_univ _, e⟩)

/-- After the last reshape: the contents @main returns with. -/
abbrev W5 : Dev nD → Valuation τ sig (Elt F) := fun c => StableHlo.after hostOps3 (W4 m c)

end Cert.Kernel.H

end
-- ==== Proof.K.Run.lean ====
/-
  @main as five segments and its run: every weakly fair execution terminates, nothing faults, and every unscoped
  buffer of the TensorCore ends at the contents the fold of Vals.lean names.

  The three kernel regions each take their windows' arrays out of the unscoped buffers, run their pipeline over the
  proof data of Reg0 / Reg1 / Reg2 (the body obligation at every grid point), and put the arrays back at what the
  write-backs leave; the two stretches of reshapes run over the buffers as host operations. Nothing is owed between
  cores, no kernel has a semaphore of its own, and the generator register rides along untouched.
-/
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic
import proofs.«171202_j46084999086226_2_alg».proof.Proof.Gen.Kernel.Regions
import proofs.«171202_j46084999086226_2_alg».proof.Proof.K.Vals
set_option maxRecDepth 16384
noncomputable section
namespace Cert.Kernel.H
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
variable {F : FTy → Type} [BitOps F]
local notation "𝕄" => MT nD τ sig Unit (Elt F) ℕ (Pipeline.UD sig nD τ) ℕ

variable (m : (ℓ : Loc nD τ sig) → Buf (Elt F) ℓ) (ρ : Dev nD → PrngReg)

/-- Every pipeline's proof data, each at the contents its region is entered from. -/
def pdats : (p : Fin 3) → (c : Dev nD) → Dat τ (Elt F) Unit ℕ (Pipeline.UD sig nD τ) ℕ (Pipeline.pin (pcfgs (F := F)) adm p) c
  | ⟨0, _⟩ => fun c => dat0 (V0 m) c
  | ⟨1, _⟩ => fun c => dat1 (V1 m) c
  | ⟨2, _⟩ => fun c => dat2 (V3 m) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state, and the core's debts, none. -/
abbrev R (c : Dev nD) : sProp 𝕄 := iprop((∃ r, prngReg c r) ∗ ∃ W, owes (c : Thread nD τ) (0 : CellTallies nD τ sig Unit) W)

/-- A stretch of host operations as a segment over the unscoped buffers from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := Pipeline.UD sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

set_option backward.isDefEq.respectTransparency.types false in
/-- Region 0 as a segment. It is entered with every unscoped buffer at the contents `W0` beside the generator
    register and the core's (empty) debts; its windows' arrays are taken out of those buffers for the pipeline, the rest
    passes by; the register travels through the invariant; at the exit the arrays come back at what the write-backs left
    and rejoin the rest as the contents `W1`. The kernel has no semaphore of its own and the core owes nothing. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (V0 m c)
  hentry c := by
    -- the arrays out of the unscoped buffers; no table; the debts within any bound; the register; the rest
    have hsplit := Pipeline.arrays_of_unscopedBufs (p := 0) (pcfgs (F := F)) adm (pdats m) launch0.win launch0.arr_whole c
      ((pdats m 0 c).share_full fun _ => rfl) (V0 m c) fun _ => rfl
    rw [Pipeline.unscopedBufs_held] at hsplit
    rw [Pipeline.ownSems0_none]
    iintro ⟨⟨Hbufs, Hreg, Hdebt⟩, -, -⟩
    ihave Hparts := hsplit $$ Hbufs
    icases Hparts with ⟨Harr, Hother⟩
    icases Hdebt with ⟨%W, Hdebt⟩
    imodintro
    isplitl [Harr]; · iexact Harr
    isplitr
    · unfold Pipeline.prefHeld; rw [show (Finset.univ : Finset (Fin 0)) = ∅ from rfl, BI.bigSep_empty]; iempintro
    isplitl [Hdebt]
    · unfold Pipeline.Dat.owesAt Pipeline.owesWithin
      iexists W; isplitr; · ipureintro; exact fun _ _ => Or.inl trivial
      iexact Hdebt
    isplitl [Hreg]; · iexact Hreg
    iexact Hother
  hin c := by
    refine BIBase.Entails.trans ?_ (hin0 (V0 m) c)
    unfold Pipeline.ΦA
    iintro ⟨Hreg, -, Hscoped⟩
    isplitl [Hscoped]; · iexact Hscoped
    iexact Hreg
  hout c := by
    rw [Pipeline.ownSems0_none]
    refine BIBase.Entails.trans (hout0 (V0 m) c) ?_
    unfold Pipeline.ΦA
    iintro ⟨Hscoped, Hreg⟩
    isplitl [Hreg]; · iexact Hreg
    isplitr; · iempintro
    iexact Hscoped
  hexit c := by
    have hjoin := Pipeline.unscopedBufs_of_arrays (p := 0) (pcfgs (F := F)) adm (Ix := Unit) (Name := ℕ) (U := Pipeline.UD sig nD τ) (Lvl := ℕ)
      launch0.win launch0.arr_whole c (pdats m) ((pdats m 0 c).share_full fun _ => rfl)
      (V0 m c) (V1 m c) ((pdats m 0 c).arrAt · cfg0.N) (hF0 m c) (hrest0 m c)
    rw [Pipeline.unscopedBufs_held] at hjoin
    iintro ⟨Harr, Hdebt, Hreg, Hother⟩
    unfold Pipeline.Dat.owesAt Pipeline.owesWithin
    icases Hdebt with ⟨%W, -, Hdebt⟩
    imodintro
    isplitl [Harr Hother]
    · iapply hjoin; isplitl [Harr] <;> iassumption
    isplitl [Hreg]; · iexact Hreg
    iexists W; iexact Hdebt

set_option backward.isDefEq.respectTransparency.types false in
/-- Region 1 as a segment. It is entered with every unscoped buffer at the contents `W1` beside the generator
    register and the core's (empty) debts; its windows' arrays are taken out of those buffers for the pipeline, the rest
    passes by; the register travels through the invariant; at the exit the arrays come back at what the write-backs left
    and rejoin the rest as the contents `W2`. The kernel has no semaphore of its own and the core owes nothing. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m) c).loose
  hwaits := Pipeline.hwaits_of_owed_zero _ _ _ _ L lv 1 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (V1 m c)
  hentry c := by
    -- the arrays out of the unscoped buffers; no table; the debts within any bound; the register; the rest
    have hsplit := Pipeline.arrays_of_unscopedBufs (p := 1) (pcfgs (F := F)) adm (pdats m) launch1.win launch1.arr_whole c
      ((pdats m 1 c).share_full fun _ => rfl) (V1 m c) fun _ => rfl
    rw [Pipeline.unscopedBufs_held] at hsplit
    rw [Pipeline.ownSems0_none]
    iintro ⟨⟨Hbufs, Hreg, Hdebt⟩, -, -⟩
    ihave Hparts := hsplit $$ Hbufs
    icases Hparts with ⟨Harr, Hother⟩
    icases Hdebt with ⟨%W, Hdebt⟩
    imodintro
    isplitl [Harr]; · iexact Harr
    isplitr
    · unfold Pipeline.prefHeld; rw [show (Finset.univ : Finset (Fin 0)) = ∅ from rfl, BI.bigSep_empty]; iempintro
    isplitl [Hdebt]
    · unfold Pipeline.Dat.owesAt Pipeline.owesWithin
      iexists W; isplitr; · ipureintro; exact fun _ _ => Or.inl trivial
      iexact Hdebt
    isplitl [Hreg]; · iexact Hreg
    iexact Hother
  hin c := by
    refine BIBase.Entails.trans ?_ (hin1 (V1 m) c)
    unfold Pipeline.ΦA
    iintro ⟨Hreg, -, Hscoped⟩
    isplitl [Hscoped]; · iexact Hscoped
    iexact Hreg
  hout c := by
    rw [Pipeline.ownSems0_none]
    refine BIBase.Entails.trans (hout1 (V1 m) c) ?_
    unfold Pipeline.ΦA
    iintro ⟨Hscoped, Hreg⟩
    isplitl [Hreg]; · iexact Hreg
    isplitr; · iempintro
    iexact Hscoped
  hexit c := by
    have hjoin := Pipeline.unscopedBufs_of_arrays (p := 1) (pcfgs (F := F)) adm (Ix := Unit) (Name := ℕ) (U := Pipeline.UD sig nD τ) (Lvl := ℕ)
      launch1.win launch1.arr_whole c (pdats m) ((pdats m 1 c).share_full fun _ => rfl)
      (V1 m c) (V2 m c) ((pdats m 1 c).arrAt · cfg1.N) (hF1 m c) (hrest1 m c)
    rw [Pipeline.unscopedBufs_held] at hjoin
    iintro ⟨Harr, Hdebt, Hreg, Hother⟩
    unfold Pipeline.Dat.owesAt Pipeline.owesWithin
    icases Hdebt with ⟨%W, -, Hdebt⟩
    imodintro
    isplitl [Harr Hother]
    · iapply hjoin; isplitl [Harr] <;> iassumption
    isplitl [Hreg]; · iexact Hreg
    iexists W; iexact Hdebt

set_option backward.isDefEq.respectTransparency.types false in
/-- Region 2 as a segment. It is entered with every unscoped buffer at the contents `W3` beside the generator
    register and the core's (empty) debts; its windows' arrays are taken out of those buffers for the pipeline, the rest
    passes by; the register travels through the invariant; at the exit the arrays come back at what the write-backs left
    and rejoin the rest as the contents `W4`. The kernel has no semaphore of its own and the core owes nothing. -/
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V3 m) c).loose
  hwaits := Pipeline.hwaits_of_owed_zero _ _ _ _ L lv 2 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (V3 m c)
  hentry c := by
    -- the arrays out of the unscoped buffers; no table; the debts within any bound; the register; the rest
    have hsplit := Pipeline.arrays_of_unscopedBufs (p := 2) (pcfgs (F := F)) adm (pdats m) launch2.win launch2.arr_whole c
      ((pdats m 2 c).share_full fun _ => rfl) (V3 m c) fun _ => rfl
    rw [Pipeline.unscopedBufs_held] at hsplit
    rw [Pipeline.ownSems0_none]
    iintro ⟨⟨Hbufs, Hreg, Hdebt⟩, -, -⟩
    ihave Hparts := hsplit $$ Hbufs
    icases Hparts with ⟨Harr, Hother⟩
    icases Hdebt with ⟨%W, Hdebt⟩
    imodintro
    isplitl [Harr]; · iexact Harr
    isplitr
    · unfold Pipeline.prefHeld; rw [show (Finset.univ : Finset (Fin 0)) = ∅ from rfl, BI.bigSep_empty]; iempintro
    isplitl [Hdebt]
    · unfold Pipeline.Dat.owesAt Pipeline.owesWithin
      iexists W; isplitr; · ipureintro; exact fun _ _ => Or.inl trivial
      iexact Hdebt
    isplitl [Hreg]; · iexact Hreg
    iexact Hother
  hin c := by
    refine BIBase.Entails.trans ?_ (hin2 (V3 m) c)
    unfold Pipeline.ΦA
    iintro ⟨Hreg, -, Hscoped⟩
    isplitl [Hscoped]; · iexact Hscoped
    iexact Hreg
  hout c := by
    rw [Pipeline.ownSems0_none]
    refine BIBase.Entails.trans (hout2 (V3 m) c) ?_
    unfold Pipeline.ΦA
    iintro ⟨Hscoped, Hreg⟩
    isplitl [Hreg]; · iexact Hreg
    isplitr; · iempintro
    iexact Hscoped
  hexit c := by
    have hjoin := Pipeline.unscopedBufs_of_arrays (p := 2) (pcfgs (F := F)) adm (Ix := Unit) (Name := ℕ) (U := Pipeline.UD sig nD τ) (Lvl := ℕ)
      launch2.win launch2.arr_whole c (pdats m) ((pdats m 2 c).share_full fun _ => rfl)
      (V3 m c) (V4 m c) ((pdats m 2 c).arrAt · cfg2.N) (hF2 m c) (hrest2 m c)
    rw [Pipeline.unscopedBufs_held] at hjoin
    iintro ⟨Harr, Hdebt, Hreg, Hother⟩
    unfold Pipeline.Dat.owesAt Pipeline.owesWithin
    icases Hdebt with ⟨%W, -, Hdebt⟩
    imodintro
    isplitl [Harr Hother]
    · iapply hjoin; isplitl [Harr] <;> iassumption
    isplitl [Hreg]; · iexact Hreg
    iexists W; iexact Hdebt

/-- @main's five segments in order. -/
abbrev segs : List (Pipeline.Seg (pcfgs (F := F)) adm (pdats m) () defs₀ 𝒱₀ L lv) :=
  [ .region (reg0 m), .region (reg1 m), .host (hseg hostOps2 hostOps2_sub hostOps2_fresh (W2 m)),
    .region (reg2 m), .host (hseg hostOps3 hostOps3_sub hostOps3_fresh (W4 m)) ]

/-- @main is the run of the segments. -/
theorem main_run (c : Dev nD) : main (F := F) c = Pipeline.Seg.run (segs m) := (main_chain c).trans (by chain_rfl)

/-- The last thread state without the debts. -/
abbrev Tₙ (c : Dev nD) : sProp 𝕄 := iprop(StableHlo.held (c : Thread nD τ) (Pipeline.ucRefs τ sig) (W5 m c) ∗ ∃ r, prngReg c r)

set_option backward.isDefEq.respectTransparency.types false in
/-- THE RUN. From any memory `m` with every counter at zero: every weakly fair execution of @main terminates, nothing
    faulting, and every unscoped buffer of every TensorCore ends at `W5 m c`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj embL defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := (initOf (Pipeline.cells cfgs cellOf_inj) (Pipeline.launchToks cfgs cellOf_inj), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => by
      show iprop(StableHlo.held (c : Thread nD τ) (Pipeline.ucRefs τ sig) (W5 m c) ∗ R c)
        ⊢ iprop(Tₙ m c ∗ ∃ W, owes (c : Thread nD τ) (0 : CellTallies nD τ sig Unit) W)
      iintro ⟨Hh, Hreg, Hdebt⟩
      isplitl [Hh Hreg]
      · isplitl [Hh] <;> iassumption
      iexact Hdebt⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

/-! ## The frame: every argument array ends holding what it was launched with

An argument's buffer is written by no reshape and is no window of region 2; in regions 0 and 1 the activation and the
bias are no window at all, and the weight matrix is an input window, whose array the pipeline never writes. So the
fold, read at an argument, walks back item by item to the launch memory. -/

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## The arguments end as launched -/

/-- The activation: written by no reshape, a window of no region that writes it back (region 2 reads the
    reshaped array, not it). -/
theorem W5_main_arg0 (c : Dev nD) : W5 m c (Proc.devRef .tc main_arg0) = m ((c.tc : Thread nD τ).loc main_arg0) :=
  calc W5 m c (Proc.devRef .tc main_arg0)
    _ = W4 m c (Proc.devRef .tc main_arg0) := StableHlo.after_of_writes_sub hostOps3 _ hostOps3_writes (by decide)
    _ = W3 m c (Proc.devRef .tc main_arg0) := W4_of_ne m c main_arg0 (by decide)
    _ = W2 m c (Proc.devRef .tc main_arg0) := StableHlo.after_of_writes_sub hostOps2 _ hostOps2_writes (by decide)
    _ = W1 m c (Proc.devRef .tc main_arg0) := W2_of_ne m c main_arg0 (by decide)
    _ = W0 m c (Proc.devRef .tc main_arg0) := W1_of_ne m c main_arg0 (by decide)
    _ = m ((c.tc : Thread nD τ).loc main_arg0) := rfl

/-- The weight matrix: an input window of regions 0 and 1, never written back; elsewhere untouched. -/
theorem W5_main_arg1 (c : Dev nD) : W5 m c (Proc.devRef .tc main_arg1) = m ((c.tc : Thread nD τ).loc main_arg1) :=
  calc W5 m c (Proc.devRef .tc main_arg1)
    _ = W4 m c (Proc.devRef .tc main_arg1) := StableHlo.after_of_writes_sub hostOps3 _ hostOps3_writes (by decide)
    _ = W3 m c (Proc.devRef .tc main_arg1) := W4_of_ne m c main_arg1 (by decide)
    _ = W2 m c (Proc.devRef .tc main_arg1) := StableHlo.after_of_writes_sub hostOps2 _ hostOps2_writes (by decide)
    _ = W1 m c (Proc.devRef .tc main_arg1) := (W2_arr m c 0).trans (((dat1 (V1 m) c).arrAt_in 0 rfl _).trans (A_eq1 (V1 m) c 0))
    _ = W0 m c (Proc.devRef .tc main_arg1) := (W1_arr m c 0).trans (arr0_in (V0 m) c)
    _ = m ((c.tc : Thread nD τ).loc main_arg1) := rfl

/-- The bias: as the activation. -/
theorem W5_main_arg2 (c : Dev nD) : W5 m c (Proc.devRef .tc main_arg2) = m ((c.tc : Thread nD τ).loc main_arg2) :=
  calc W5 m c (Proc.devRef .tc main_arg2)
    _ = W4 m c (Proc.devRef .tc main_arg2) := StableHlo.after_of_writes_sub hostOps3 _ hostOps3_writes (by decide)
    _ = W3 m c (Proc.devRef .tc main_arg2) := W4_of_ne m c main_arg2 (by decide)
    _ = W2 m c (Proc.devRef .tc main_arg2) := StableHlo.after_of_writes_sub hostOps2 _ hostOps2_writes (by decide)
    _ = W1 m c (Proc.devRef .tc main_arg2) := W2_of_ne m c main_arg2 (by decide)
    _ = W0 m c (Proc.devRef .tc main_arg2) := W1_of_ne m c main_arg2 (by decide)
    _ = m ((c.tc : Thread nD τ).loc main_arg2) := rfl

/-! ## The frame -/

/-- THE FRAME. From any memory with every counter at zero, every weakly fair execution of @main on the TensorCores
    terminates, nothing faulting, and every final memory holds each argument array as launched. -/
theorem frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c _ (mem_uc main_arg0 (by decide))).trans (W5_main_arg0 m c),
     (h c _ (mem_uc main_arg1 (by decide))).trans (W5_main_arg1 m c),
     (h c _ (mem_uc main_arg2 (by decide))).trans (W5_main_arg2 m c)⟩) (run_all m ρ)

end Cert.Kernel.H

end
-- ==== Proof.RefRunH.lean ====
/-
  The reference program's run, read back: @main is a straight line of 30 host operations; run from any memory it
  terminates with the result buffer at the operations' composed term of the three arguments — which is `refOut` of
  them — and the arguments unchanged. The two outlined `where` bodies are spelt through typed references, whose
  transports are the identity at literal references: those four operations are first restated through the plain
  builders, after which the fold of the line at the result buffer is `refOut` term for term.
-/
import proofs.«171202_j46084999086226_2_alg».proof.Proof.Gen.ReferenceIdeal
import proofs.«171202_j46084999086226_2_alg».proof.Proof.Spec
import Idealize.ShloMosaic.Lib.StableHlo.Run

noncomputable section

namespace Cert.ReferenceIdeal.RefSpecH

open Cert.ReferenceIdeal Cert.ReferenceIdeal.Gen Idealize.ShloMosaic Idealize.ShloMosaic.TcCoe Idealize.SL.Sem Idealize.ShloMosaic.StableHlo
open Cert.ReferenceIdeal.RefSpec

variable {F : FTy → Type} [FloatOps F]

/-- @main's 30 operations, in order (a called function's operations stand in its call's place, spelt `TRef.…`). -/
abbrev ops : List (HloOp τ sig (Elt F)) :=
  [ unary main_arg1 main_v0 (Host.absf : (⟨S4096x4096, .f32⟩ : BufTy).Contents (Elt F) → (⟨S4096x4096, .f32⟩ : BufTy).Contents (Elt F)),
    nullary main_cst (constant S_ .f32 0x3F000000#32),
    unary main_cst main_v1 (broadcastInDim S4096x4096 ![] bcast_S_S4096x4096 : (⟨S_, .f32⟩ : BufTy).Contents (Elt F) → (⟨S4096x4096, .f32⟩ : BufTy).Contents (Elt F)),
    binary main_v0 main_v1 main_v2 (cmpf .ogt : (⟨S4096x4096, .f32⟩ : BufTy).Contents (Elt F) → (⟨S4096x4096, .f32⟩ : BufTy).Contents (Elt F) → (⟨S4096x4096, .i1⟩ : BufTy).Contents (Elt F)),
    unary main_v2 main_v3 ((extui 32 · natLt_1_32) : (⟨S4096x4096, .i1⟩ : BufTy).Contents (Elt F) → (⟨S4096x4096, .i32⟩ : BufTy).Contents (Elt F)),
    nullary main_c (constantI S_ 32 0#32),
    binary main_v3 main_c main_v4 ((fun x v => Host.reduce IntOp.addi x v reducesTo_S4096x4096_S_d0_1 h_S_) : (⟨S4096x4096, .i32⟩ : BufTy).Contents (Elt F) → (⟨S_, .i32⟩ : BufTy).Contents (Elt F) → (⟨S_, .i32⟩ : BufTy).Contents (Elt F)),
    nullary main_cst_0 (constant S_ .f32 0x00000000#32),
    TRef.unary (TRef.of (T := ⟨S_, .f32⟩) main_cst_0) (TRef.of (T := ⟨S_, .f32⟩) main_call0_v0) id,
    TRef.unary (TRef.of (T := ⟨S_, .f32⟩) main_call0_v0) (TRef.of (T := ⟨S4096x4096, .f32⟩) main_call0_v1) (broadcastInDim S4096x4096 ![] bcast_S_S4096x4096),
    TRef.ternary (TRef.of (T := ⟨S4096x4096, .i1⟩) main_v2) (TRef.of (T := ⟨S4096x4096, .f32⟩) main_v0) (TRef.of (T := ⟨S4096x4096, .f32⟩) main_call0_v1) (TRef.of (T := ⟨S4096x4096, .f32⟩) main_v5) select,
    nullary main_cst_1 (constant S_ .f32 0x00000000#32),
    binary main_v5 main_cst_1 main_v6 ((fun x v => Host.reduceAdd x v reducesTo_S4096x4096_S_d0_1 h_S_) : (⟨S4096x4096, .f32⟩ : BufTy).Contents (Elt F) → (⟨S_, .f32⟩ : BufTy).Contents (Elt F) → (⟨S_, .f32⟩ : BufTy).Contents (Elt F)),
    nullary main_c_2 (constantI S_ 32 0#32),
    binary main_v4 main_c_2 main_v7 (cmpi .sgt : (⟨S_, .i32⟩ : BufTy).Contents (Elt F) → (⟨S_, .i32⟩ : BufTy).Contents (Elt F) → (⟨S_, .i1⟩ : BufTy).Contents (Elt F)),
    nullary main_c_3 (constantI S_ 32 1#32),
    binary main_v4 main_c_3 main_v8 (maxsi : (⟨S_, .i32⟩ : BufTy).Contents (Elt F) → (⟨S_, .i32⟩ : BufTy).Contents (Elt F) → (⟨S_, .i32⟩ : BufTy).Contents (Elt F)),
    unary main_v8 main_v9 (sitofp .f32 : (⟨S_, .i32⟩ : BufTy).Contents (Elt F) → (⟨S_, .f32⟩ : BufTy).Contents (Elt F)),
    binary main_v6 main_v9 main_v10 (Host.divf : (⟨S_, .f32⟩ : BufTy).Contents (Elt F) → (⟨S_, .f32⟩ : BufTy).Contents (Elt F) → (⟨S_, .f32⟩ : BufTy).Contents (Elt F)),
    nullary main_cst_4 (constant S_ .f32 0x3F800000#32),
    TRef.ternary (TRef.of (T := ⟨S_, .i1⟩) main_v7) (TRef.of (T := ⟨S_, .f32⟩) main_v10) (TRef.of (T := ⟨S_, .f32⟩) main_cst_4) (TRef.of (T := ⟨S_, .f32⟩) main_v11) select,
    unary main_arg1 main_v12 (Host.sign : (⟨S4096x4096, .f32⟩ : BufTy).Contents (Elt F) → (⟨S4096x4096, .f32⟩ : BufTy).Contents (Elt F)),
    unary main_v2 main_v13 (uitofp .f32 : (⟨S4096x4096, .i1⟩ : BufTy).Contents (Elt F) → (⟨S4096x4096, .f32⟩ : BufTy).Contents (Elt F)),
    binary main_v12 main_v13 main_v14 (mulf : (⟨S4096x4096, .f32⟩ : BufTy).Contents (Elt F) → (⟨S4096x4096, .f32⟩ : BufTy).Contents (Elt F) → (⟨S4096x4096, .f32⟩ : BufTy).Contents (Elt F)),
    unary main_v11 main_v15 (broadcastInDim S4096x4096 ![] bcast_S_S4096x4096 : (⟨S_, .f32⟩ : BufTy).Contents (Elt F) → (⟨S4096x4096, .f32⟩ : BufTy).Contents (Elt F)),
    binary main_v14 main_v15 main_v16 (mulf : (⟨S4096x4096, .f32⟩ : BufTy).Contents (Elt F) → (⟨S4096x4096, .f32⟩ : BufTy).Contents (Elt F) → (⟨S4096x4096, .f32⟩ : BufTy).Contents (Elt F)),
    binary main_arg0 main_v16 main_v17 ((fun l r => Host.dotGeneral dot_S8x2048x4096_S4096x4096_S8x2048x4096_2_1_01_0_n_n none l r) : (⟨S8x2048x4096, .f32⟩ : BufTy).Contents (Elt F) → (⟨S4096x4096, .f32⟩ : BufTy).Contents (Elt F) → (⟨S8x2048x4096, .f32⟩ : BufTy).Contents (Elt F)),
    unary main_arg2 main_v18 (broadcastInDim S1x1x4096 ![2] bcast_S4096_S1x1x4096_2 : (⟨S4096, .f32⟩ : BufTy).Contents (Elt F) → (⟨S1x1x4096, .f32⟩ : BufTy).Contents (Elt F)),
    unary main_v18 main_v19 (broadcastInDim S8x2048x4096 ![0, 1, 2] bcast_S1x1x4096_S8x2048x4096_0_1_2 : (⟨S1x1x4096, .f32⟩ : BufTy).Contents (Elt F) → (⟨S8x2048x4096, .f32⟩ : BufTy).Contents (Elt F)),
    binary main_v17 main_v19 main_v20 (addf : (⟨S8x2048x4096, .f32⟩ : BufTy).Contents (Elt F) → (⟨S8x2048x4096, .f32⟩ : BufTy).Contents (Elt F) → (⟨S8x2048x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., nullary_bufs_sub .., unary_bufs_sub .., binary_bufs_sub .., unary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., unary_bufs_sub .., binary_bufs_sub .., nullary_bufs_sub .., ternary_bufs_sub .., unary_bufs_sub .., unary_bufs_sub .., binary_bufs_sub .., unary_bufs_sub .., binary_bufs_sub .., binary_bufs_sub .., unary_bufs_sub .., unary_bufs_sub .., binary_bufs_sub ..⟩

/-- The outlined calls' operations are the plain builders' at the same buffers: the typed references' transports are
    the identity at literal references. -/
theorem op9_eq : (TRef.unary (TRef.of (T := ⟨S_, .f32⟩) main_cst_0) (TRef.of (T := ⟨S_, .f32⟩) main_call0_v0) id : HloOp τ sig (Elt F))
    = unary main_cst_0 main_call0_v0 (id : (⟨S_, .f32⟩ : BufTy).Contents (Elt F) → (⟨S_, .f32⟩ : BufTy).Contents (Elt F)) := rfl
theorem op10_eq : (TRef.unary (TRef.of (T := ⟨S_, .f32⟩) main_call0_v0) (TRef.of (T := ⟨S4096x4096, .f32⟩) main_call0_v1) (broadcastInDim S4096x4096 ![] bcast_S_S4096x4096) : HloOp τ sig (Elt F))
    = unary main_call0_v0 main_call0_v1 (broadcastInDim S4096x4096 ![] bcast_S_S4096x4096 : (⟨S_, .f32⟩ : BufTy).Contents (Elt F) → (⟨S4096x4096, .f32⟩ : BufTy).Contents (Elt F)) := rfl
theorem op11_eq : (TRef.ternary (TRef.of (T := ⟨S4096x4096, .i1⟩) main_v2) (TRef.of (T := ⟨S4096x4096, .f32⟩) main_v0) (TRef.of (T := ⟨S4096x4096, .f32⟩) main_call0_v1) (TRef.of (T := ⟨S4096x4096, .f32⟩) main_v5) select : HloOp τ sig (Elt F))
    = ternary main_v2 main_v0 main_call0_v1 main_v5 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)) := rfl
theorem op21_eq : (TRef.ternary (TRef.of (T := ⟨S_, .i1⟩) main_v7) (TRef.of (T := ⟨S_, .f32⟩) main_v10) (TRef.of (T := ⟨S_, .f32⟩) main_cst_4) (TRef.of (T := ⟨S_, .f32⟩) main_v11) select : HloOp τ sig (Elt F))
    = ternary main_v7 main_v10 main_cst_4 main_v11 (select : (⟨S_, .i1⟩ : BufTy).Contents (Elt F) → (⟨S_, .f32⟩ : BufTy).Contents (Elt F) → (⟨S_, .f32⟩ : BufTy).Contents (Elt F) → (⟨S_, .f32⟩ : BufTy).Contents (Elt F)) := rfl

set_option maxHeartbeats 400000 in
/-- The fold of the line at the result buffer is `refOut` of the arguments' contents. -/
theorem v20_eq (V : Valuation τ sig (Elt F)) :
    after ops V (Proc.devRef .tc main_v20)
      = refOut (V (Proc.devRef .tc main_arg0)) (V (Proc.devRef .tc main_arg1)) (V (Proc.devRef .tc main_arg2)) := by
  unfold ops
  rw [op9_eq, op10_eq, op11_eq, op21_eq]
  after_results
  unfold refOut refScale refCount refMask
  with_reducible rfl

set_option maxHeartbeats 400000 in
theorem arg0_eq (V : Valuation τ sig (Elt F)) : after ops V (Proc.devRef .tc main_arg0) = V (Proc.devRef .tc main_arg0) := by
  after_results
set_option maxHeartbeats 400000 in
theorem arg1_eq (V : Valuation τ sig (Elt F)) : after ops V (Proc.devRef .tc main_arg1) = V (Proc.devRef .tc main_arg1) := by
  after_results
set_option maxHeartbeats 400000 in
theorem arg2_eq (V : Valuation τ sig (Elt F)) : after ops V (Proc.devRef .tc main_arg2) = V (Proc.devRef .tc main_arg2) := by
  after_results

/-- On every device, for any float values, from any memory with zero counters: every weakly fair execution of
    @main terminates with the result buffer at `refOut` of the arguments and the arguments unchanged. -/
theorem run_refOut (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v20) = Cert.ReferenceIdeal.RefSpec.refOut (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v20).trans (v20_eq (launchContents m c)),
      (h c main_arg0).trans (arg0_eq (launchContents m c)),
      (h c main_arg1).trans (arg1_eq (launchContents m c)),
      (h c main_arg2).trans (arg2_eq (launchContents m c))⟩)
    (run_seq scopedRefs_eq scopedSems_eq defs main (fun _ => ops) main_eq (fun _ => ops_sub) m ρ)

end Cert.ReferenceIdeal.RefSpecH

end
-- ==== Proof.LibSumChunks.lean ====
/-
  Two facts about finite sums in a commutative additive monoid — no cancellation, no order, no finiteness of the
  values is used, so they hold of the extended reals with both infinities:

  * `sum_chunks`: a sum over `a * b` consecutive indices is the sum over its `a` consecutive chunks of `b` indices of
    each chunk's own sum (index `j + b * c` is entry `j` of chunk `c`);
  * `fold_eq_sum`: a left-to-right accumulation `z, z + g 0, (z + g 0) + g 1, …` stands, after `n` steps, at `z` plus
    the sum of the first `n` terms.

  Together: an accumulator started at `z` and advanced chunk by chunk by the chunk's sum ends at `z` plus the sum
  over all indices.
-/
import Mathlib.Algebra.BigOperators.Fin
import Mathlib.Logic.Equiv.Fin.Basic

open scoped BigOperators

namespace Cert.Lib.SumChunks

/-- Entry `j` of chunk `c` (of `a` chunks of `b`) is a position below `a * b`. -/
theorem chunk_lt {a b : ℕ} (c : Fin a) (j : Fin b) : j.val + b * c.val < a * b := by
  have hc : c.val + 1 ≤ a := c.isLt
  calc j.val + b * c.val < b + b * c.val := Nat.add_lt_add_right j.isLt _
    _ = b * (c.val + 1) := by rw [Nat.mul_succ, Nat.add_comm]
    _ ≤ b * a := Nat.mul_le_mul_left _ hc
    _ = a * b := Nat.mul_comm _ _

/-- A sum over `n = a * b` consecutive indices, chunk by chunk: the `a` chunks' sums, summed. -/
theorem sum_chunks {M : Type*} [AddCommMonoid M] {n : ℕ} (a b : ℕ) (h : a * b = n) (f : Fin n → M) :
    ∑ k : Fin n, f k = ∑ c : Fin a, ∑ j : Fin b, f ⟨j.val + b * c.val, h ▸ chunk_lt c j⟩ := by
  subst h
  rw [← Equiv.sum_comp finProdFinEquiv f, Fintype.sum_prod_type]
  rfl

/-- A left-to-right accumulation from `z` by the terms `g 0, g 1, …` stands after `n ≤ N` steps at `z` plus the sum
    of the first `n` terms (the step equation is only asked of the first `N` steps). -/
theorem fold_eq_sum {M : Type*} [AddCommMonoid M] (z : M) (g : ℕ → M) (s : ℕ → M) (N : ℕ) (h0 : s 0 = z)
    (hs : ∀ k, k < N → s (k + 1) = s k + g k) : ∀ n, n ≤ N → s n = z + ∑ k ∈ Finset.range n, g k
  | 0, _ => by rw [h0, Finset.sum_range_zero, add_zero]
  | n + 1, hn => by
    rw [hs n (Nat.lt_of_succ_le hn), fold_eq_sum z g s N h0 hs n (Nat.le_of_succ_le hn), Finset.sum_range_succ, add_assoc]

/-- The two together: an accumulator started at `z` and advanced, chunk after chunk, by the sum of the chunk's `b`
    entries stands after all `a` chunks at `z` plus the sum over all `a * b` indices. -/
theorem fold_chunks_eq_sum {M : Type*} [AddCommMonoid M] {n : ℕ} (a b : ℕ) (h : a * b = n) (f : Fin n → M) (z : M)
    (s : ℕ → M) (h0 : s 0 = z)
    (hs : ∀ c : Fin a, s (c.val + 1) = s c.val + ∑ j : Fin b, f ⟨j.val + b * c.val, h ▸ chunk_lt c j⟩) :
    s a = z + ∑ k : Fin n, f k := by
  let g : ℕ → M := fun c => if hc : c < a then ∑ j : Fin b, f ⟨j.val + b * c, h ▸ chunk_lt ⟨c, hc⟩ j⟩ else 0
  have hg : ∀ c : Fin a, g c.val = ∑ j : Fin b, f ⟨j.val + b * c.val, h ▸ chunk_lt c j⟩ := fun c => dif_pos c.isLt
  rw [fold_eq_sum z g s a h0 (fun k hk => by rw [hs ⟨k, hk⟩, ← hg ⟨k, hk⟩]) a le_rfl, sum_chunks a b h f,
    Finset.sum_range]
  exact congrArg (z + ·) (Finset.sum_congr rfl fun c _ => hg c)

end Cert.Lib.SumChunks
-- ==== Proof.LibMatmulRows.lean ====
/-
  A matrix product that contracts the two operands' LAST axes, read at one entry.

  For dimension numbers that contract the left operand's second axis with the right operand's second axis — the
  left operand [a, n], the right operand [b, n], the result [a, b], no batch axes: `x @ W.T` without the transpose
  ever being formed — the entry (p, q) of the product is the sum over k of left (p, k) times right (q, k): row p of
  the left operand against row q of the right one. The dimension numbers enter only through four facts about where
  the two operand indices sit (the left one reads the result's row and the contraction position, the right one the
  result's column and the contraction position); a caller proves those four facts for its own record, each by
  unfolding the record's two membership tests.

  `contr_sum_rows`     the contraction's sum re-indexed by the one contracted coordinate;
  `matmul_zero_rows`   a `tpu.matmul` into the zero accumulator at the ideal instance;
  `dotGeneral_rows`    the host's `dot_general` at the ideal instance.
-/
import Idealize.ShloMosaic.PureOps.Ideal.Laws
import Idealize.ShloMosaic.Lib.ValueIdx

noncomputable section

open scoped BigOperators

namespace Idealize.ShloMosaic.MatmulRows

open Idealize.ShloMosaic Idealize.ShloMosaic.ValueIdx

variable {a n b : ℕ}

/-- The sum over the contraction positions of a one-axis contraction of the operands' last axes is the sum over the
    contracted coordinate `k : Fin n`, the left operand read at `(p, k)` and the right one at `(q, k)`. -/
theorem contr_sum_rows (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (l : (⟨2, ![a, n]⟩ : Shape).Idx → EReal) (r : (⟨2, ![b, n]⟩ : Shape).Idx → EReal) (p : Fin a) (q : Fin b) :
    ∑ c : D.contr.Idx, l (D.lhsIdx (ix2 p q) c) * r (D.rhsIdx (ix2 p q) c) = ∑ k : Fin n, l (ix2 p k) * r (ix2 q k) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 q k := funext fun ax => Fin.ext (by
    match ax with
    | ⟨0, _⟩ => exact hr0 _ _
    | ⟨1, _⟩ => exact (hr1 _ _).trans hk)
  rw [el, er]

/-- A `tpu.matmul` of an [a, n] by a [b, n] operand into the zero accumulator, at the ideal instance, read at
    `(p, q)`: the sum over `k` of left `(p, k)` times right `(q, k)`. -/
theorem matmul_zero_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    matmul D prec l r (constant ⟨2, ![a, b]⟩ .f32 0x00000000#32) (ix2 p q) = ∑ k : Fin n, l (ix2 p k) * r (ix2 q k) :=
  (Ideal.matmul_constant_zero_apply D prec l r (ix2 p q)).trans (contr_sum_rows D hr hs hl0 hl1 hr0 hr1 l r p q)

/-- The host's `dot_general` of an [a, n] by a [b, n] operand, at the ideal instance, read at `(p, q)`: the same sum. -/
theorem dotGeneral_rows {φ₁ φ₂ : FTy} (D : DotDims ⟨2, ![a, n]⟩ ⟨2, ![b, n]⟩ ⟨2, ![a, b]⟩) (hr : D.contr.rank = 1)
    (hs : D.contr.size ⟨0, by omega⟩ = n)
    (hl0 : ∀ i c, (D.lhsIdx i c (0 : Fin 2)).val = (i (0 : Fin 2)).val)
    (hl1 : ∀ i c, (D.lhsIdx i c (1 : Fin 2)).val = (c ⟨0, by omega⟩).val)
    (hr0 : ∀ i c, (D.rhsIdx i c (0 : Fin 2)).val = (i (1 : Fin 2)).val)
    (hr1 : ∀ i c, (D.rhsIdx i c (1 : Fin 2)).val = (c ⟨0, by omega⟩).val)
    (prec : Option ContractPrecision) (l : FVec Ideal ⟨2, ![a, n]⟩ φ₁) (r : FVec Ideal ⟨2, ![b, n]⟩ φ₂)
    (p : Fin a) (q : Fin b) :
    Host.dotGeneral D prec l r (ix2 p q) = ∑ k : Fin n, l (ix2 p k) * r (ix2 q k) :=
  (Ideal.dotGeneral_apply D prec .single l r (ix2 p q)).trans (contr_sum_rows D hr hs hl0 hl1 hr0 hr1 l r p q)

end Idealize.ShloMosaic.MatmulRows

end
-- ==== Proof.BridgeMat.lean ====
/-
  Stage 3's recursion read at one entry, over arbitrary block sequences.

  One step of the accumulator adds to the running value, at entry (p, q), the product of row p of the activation
  block with row q of the weight block (the contraction runs over both operands' second axis, and a change of float
  format is the identity on the extended reals). The accumulator starts at zero, so after the four blocks of 1024
  columns it holds, at (p, q), the sum over all 4096 columns d of x-block (d / 1024) at (p, d % 1024) times
  w-block (d / 1024) at (q, d % 1024): a sum over 4 * 1024 consecutive indices is the sum of its four chunk sums.
  The output adds the bias row, the same at every row p.
-/
import proofs.«171202_j46084999086226_2_alg».proof.Proof.Pure
import proofs.«171202_j46084999086226_2_alg».proof.Proof.LibSumChunks
import proofs.«171202_j46084999086226_2_alg».proof.Proof.LibMatmulRows
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.H

open Idealize.ShloMosaic Idealize.ShloMosaic.ValueIdx Cert.KernelIdeal Cert.KernelIdeal.Gen

/-- The zero accumulator reads zero everywhere. -/
theorem k2_pay1_apply (i : S1024x1024.Idx) : k2_pay1 (F := Ideal) i = 0 := by
  unfold k2_pay1
  rw [shapeCast_self]
  exact Ideal.ofBits_zero_f32

/-- The contraction's record reads the left operand at (row of the result, contraction position) and the right
    operand at (column of the result, contraction position). -/
theorem dot2_l0 (i : S1024x1024.Idx) (c : dot_S1024x1024_S1024x1024_S1024x1024_1_1_0_0_n_n.contr.Idx) :
    (dot_S1024x1024_S1024x1024_S1024x1024_1_1_0_0_n_n.lhsIdx i c (0 : Fin 2)).val = (i (0 : Fin 2)).val := by
  unfold DotDims.lhsIdx
  rw [dif_neg (show ¬(0 : Fin S1024x1024.rank) ∈ dot_S1024x1024_S1024x1024_S1024x1024_1_1_0_0_n_n.lhsBatch by decide),
    dif_pos (show (0 : Fin S1024x1024.rank) ∈ dot_S1024x1024_S1024x1024_S1024x1024_1_1_0_0_n_n.lhsNonContracting by decide)]
  rfl
theorem dot2_l1 (i : S1024x1024.Idx) (c : dot_S1024x1024_S1024x1024_S1024x1024_1_1_0_0_n_n.contr.Idx) :
    (dot_S1024x1024_S1024x1024_S1024x1024_1_1_0_0_n_n.lhsIdx i c (1 : Fin 2)).val = (c ⟨0, by decide⟩).val :=
  dot_S1024x1024_S1024x1024_S1024x1024_1_1_0_0_n_n.lhsIdx_val_of_single rfl i c
theorem dot2_r0 (i : S1024x1024.Idx) (c : dot_S1024x1024_S1024x1024_S1024x1024_1_1_0_0_n_n.contr.Idx) :
    (dot_S1024x1024_S1024x1024_S1024x1024_1_1_0_0_n_n.rhsIdx i c (0 : Fin 2)).val = (i (1 : Fin 2)).val := by
  unfold DotDims.rhsIdx
  rw [dif_neg (show ¬(0 : Fin S1024x1024.rank) ∈ dot_S1024x1024_S1024x1024_S1024x1024_1_1_0_0_n_n.rhsBatch by decide),
    dif_pos (show (0 : Fin S1024x1024.rank) ∈ dot_S1024x1024_S1024x1024_S1024x1024_1_1_0_0_n_n.rhsNonContracting by decide)]
  rfl
theorem dot2_r1 (i : S1024x1024.Idx) (c : dot_S1024x1024_S1024x1024_S1024x1024_1_1_0_0_n_n.contr.Idx) :
    (dot_S1024x1024_S1024x1024_S1024x1024_1_1_0_0_n_n.rhsIdx i c (1 : Fin 2)).val = (c ⟨0, by decide⟩).val :=
  dot_S1024x1024_S1024x1024_S1024x1024_1_1_0_0_n_n.rhsIdx_val_of_single rfl i c

/-- One step of the accumulator at entry (p, q): the running value plus row p of the activation block against row q
    of the weight block. -/
theorem k2_pay2_apply (x : Vec Ideal S1024x1024 .f32) (w : Vec Ideal S1024x1024 .bf16) (acc : Vec Ideal S1024x1024 .f32)
    (p q : Fin 1024) :
    k2_pay2 (F := Ideal) x w acc (ix2 p q) = acc (ix2 p q) + ∑ d : Fin 1024, x (ix2 p d) * w (ix2 q d) := by
  unfold k2_pay2
  rw [shapeCast_self, shapeCast_self, shapeCast_self]
  refine (addf_apply _ _ _).trans ?_
  refine congrArg (acc (ix2 p q) + ·) ?_
  exact MatmulRows.matmul_zero_rows (a := 1024) (n := 1024) (b := 1024) dot_S1024x1024_S1024x1024_S1024x1024_1_1_0_0_n_n rfl rfl
    dot2_l0 dot2_l1 dot2_r0 dot2_r1 none (truncf .bf16 x bitsLt_bf16_f32) w p q

/-- The first block adds its product to zero. -/
theorem acc2_zero_apply (xb : ℕ → Vec Ideal S1024x1024 .f32) (wb : ℕ → Vec Ideal S1024x1024 .bf16) (p q : Fin 1024) :
    acc2 (F := Ideal) xb wb 0 (ix2 p q) = 0 + ∑ d : Fin 1024, xb 0 (ix2 p d) * wb 0 (ix2 q d) := by
  show k2_pay2 (F := Ideal) (xb 0) (wb 0) (k2_pay1 (F := Ideal)) (ix2 p q) = _
  rw [k2_pay2_apply, k2_pay1_apply]

/-- Each later block adds its product to what the block before left. -/
theorem acc2_succ_apply (xb : ℕ → Vec Ideal S1024x1024 .f32) (wb : ℕ → Vec Ideal S1024x1024 .bf16) (k : ℕ) (p q : Fin 1024) :
    acc2 (F := Ideal) xb wb (k + 1) (ix2 p q)
      = acc2 (F := Ideal) xb wb k (ix2 p q) + ∑ d : Fin 1024, xb (k + 1) (ix2 p d) * wb (k + 1) (ix2 q d) := by
  show k2_pay2 (F := Ideal) (xb (k + 1)) (wb (k + 1)) (acc2 (F := Ideal) xb wb k) (ix2 p q) = _
  rw [k2_pay2_apply]

/-- Column `j + 1024 c` of the contracted axis is entry `j` of block `c`. -/
theorem chunk_term (xb : ℕ → Vec Ideal S1024x1024 .f32) (wb : ℕ → Vec Ideal S1024x1024 .bf16) (p q : Fin 1024) (c : ℕ)
    (j : Fin 1024) (h : (j.val + 1024 * c) % 1024 < 1024) :
    xb ((j.val + 1024 * c) / 1024) (ix2 p ⟨(j.val + 1024 * c) % 1024, h⟩)
        * wb ((j.val + 1024 * c) / 1024) (ix2 q ⟨(j.val + 1024 * c) % 1024, h⟩)
      = xb c (ix2 p j) * wb c (ix2 q j) := by
  have e1 : (j.val + 1024 * c) / 1024 = c := by have := j.isLt; omega
  have e2 : (⟨(j.val + 1024 * c) % 1024, h⟩ : Fin 1024) = j := Fin.ext (by
    show (j.val + 1024 * c) % 1024 = j.val
    have := j.isLt; omega)
  rw [e1, e2]

/-- After the four blocks the accumulator holds, at (p, q), the sum over all 4096 columns. -/
theorem acc2_three_apply (xb : ℕ → Vec Ideal S1024x1024 .f32) (wb : ℕ → Vec Ideal S1024x1024 .bf16) (p q : Fin 1024) :
    acc2 (F := Ideal) xb wb 3 (ix2 p q)
      = ∑ d : Fin 4096, xb (d.val / 1024) (ix2 p ⟨d.val % 1024, Nat.mod_lt _ (by decide)⟩)
          * wb (d.val / 1024) (ix2 q ⟨d.val % 1024, Nat.mod_lt _ (by decide)⟩) := by
  have key := Cert.Lib.SumChunks.fold_chunks_eq_sum (M := EReal) 4 1024 (by decide : 4 * 1024 = 4096)
    (fun d : Fin 4096 => xb (d.val / 1024) (ix2 p ⟨d.val % 1024, Nat.mod_lt _ (by decide)⟩)
          * wb (d.val / 1024) (ix2 q ⟨d.val % 1024, Nat.mod_lt _ (by decide)⟩)) 0
    (fun c => match c with | 0 => 0 | c + 1 => acc2 (F := Ideal) xb wb c (ix2 p q)) rfl (fun c => by
      have hterm : ∀ j : Fin 1024,
          xb ((j.val + 1024 * c.val) / 1024) (ix2 p ⟨(j.val + 1024 * c.val) % 1024, Nat.mod_lt _ (by decide)⟩)
            * wb ((j.val + 1024 * c.val) / 1024) (ix2 q ⟨(j.val + 1024 * c.val) % 1024, Nat.mod_lt _ (by decide)⟩)
          = xb c.val (ix2 p j) * wb c.val (ix2 q j) := fun j => chunk_term xb wb p q c.val j _
      show _ = _ + ∑ j : Fin 1024, _
      rw [Finset.sum_congr rfl fun j _ => hterm j]
      match c with
      | ⟨0, _⟩ => exact acc2_zero_apply xb wb p q
      | ⟨c' + 1, _⟩ => exact acc2_succ_apply xb wb c' p q)
  rw [zero_add] at key
  exact key

/-- The output tile at (p, q): the whole contraction plus the bias row at q. -/
theorem out2_apply (xb : ℕ → Vec Ideal S1024x1024 .f32) (wb : ℕ → Vec Ideal S1024x1024 .bf16) (b : Vec Ideal S1x1024 .f32)
    (p q : Fin 1024) :
    out2 (F := Ideal) xb wb b (ix2 p q)
      = (∑ d : Fin 4096, xb (d.val / 1024) (ix2 p ⟨d.val % 1024, Nat.mod_lt _ (by decide)⟩)
          * wb (d.val / 1024) (ix2 q ⟨d.val % 1024, Nat.mod_lt _ (by decide)⟩)) + b (ix2 (0 : Fin 1) q) := by
  unfold out2 k2_pay3
  rw [shapeCast_self]
  refine (addf_apply _ _ _).trans ?_
  rw [acc2_three_apply, broadcastTo_1b_ab_apply]

end Cert.KernelIdeal.H

end
-- ==== Proof.BridgeTern.lean ====
/-
  Stage 2's pointwise payload read at one entry, and the ternarized weight of the whole matrix.

  At an entry a of the weight block the payload is sign(a) * mask(a) * scale, where the sign is spelled as a select
  on |a| > 0 between (a < 0 ? -1 : 1) and a itself — the sign function of the extended reals, zero at zero, minus
  and plus one at the two infinities —, the mask is the one-bit comparison |a| > 1/2 widened to 32 bits and converted
  as a signed integer — the same 0 or 1 as the bit converted as an unsigned integer —, and the scale is the one entry
  of the 1x1 array. The final change of float format is the identity. The entry (r, d) of the matrix lies in row
  block r / 128 at row r % 128, so the ternarized weight at (r, d) is that product at the matrix's own entry.
-/
import proofs.«171202_j46084999086226_2_alg».proof.Proof.Spec
import Idealize.ShloMosaic.Lib.ValueIdx
import Idealize.ShloMosaic.Lib.Pipeline.Value
import Idealize.ShloMosaic.PureOps.Ideal.Laws

noncomputable section

namespace Cert.KernelIdeal.H

open Idealize.ShloMosaic Idealize.ShloMosaic.ValueIdx Cert.KernelIdeal Cert.KernelIdeal.Gen

/-- A one-bit word widened to 32 bits and read as a signed integer is the bit read as an unsigned integer: 0 or 1. -/
theorem mask_conv (c : BitVec 1) :
    FloatOps.sitofp (F := Ideal) .f32 (c.setWidth 32) = FloatOps.uitofp (F := Ideal) .f32 c := by
  rcases BitVec.eq_zero_or_eq_one c with h | h
  · subst h
    show (((BitVec.setWidth 32 0#1).toInt : ℝ) : EReal) = (((0#1 : BitVec 1).toNat : ℝ) : EReal)
    have h1 : (BitVec.setWidth 32 0#1).toInt = 0 := by decide
    have h2 : (0#1 : BitVec 1).toNat = 0 := by decide
    rw [h1, h2]; simp
  · subst h
    show (((BitVec.setWidth 32 1#1).toInt : ℝ) : EReal) = (((1#1 : BitVec 1).toNat : ℝ) : EReal)
    have h1 : (BitVec.setWidth 32 1#1).toInt = 1 := by decide
    have h2 : (1#1 : BitVec 1).toNat = 1 := by decide
    rw [h1, h2]; simp

/-- The payload at an entry, operation by operation. -/
theorem k1_pay1_elem (x : Vec Ideal S128x4096 .f32) (s : Vec Ideal S1x1 .f32) (i : S128x4096.Idx) :
    k1_pay1 (F := Ideal) x s i
      = (Scalar.select (FloatOps.cmpf (F := Ideal) (φ := .f32) .ogt (FloatOps.absf (x i)) (Scalar.ofBits .f32 0x00000000#32))
            (Scalar.select (FloatOps.cmpf (F := Ideal) (φ := .f32) .olt (x i) (Scalar.ofBits .f32 0x00000000#32))
              (Scalar.ofBits (F := Ideal) .f32 0xBF800000#32) (Scalar.ofBits (F := Ideal) .f32 0x3F800000#32)) (x i)
          * FloatOps.sitofp (F := Ideal) .f32
              ((FloatOps.cmpf (F := Ideal) (φ := .f32) .ogt (FloatOps.absf (x i)) (Scalar.ofBits .f32 0x3F000000#32)).setWidth 32))
        * extractAt ![0, 0] s inpos_S1x1_p0_0 := rfl

/-- The payload at an entry: sign times mask times scale. -/
theorem k1_pay1_apply (x : Vec Ideal S128x4096 .f32) (s : Vec Ideal S1x1 .f32) (i : S128x4096.Idx) :
    k1_pay1 (F := Ideal) x s i
      = Ideal.sign (x i)
          * FloatOps.uitofp (F := Ideal) .f32
              (FloatOps.cmpf (F := Ideal) (φ := .f32) .ogt (FloatOps.absf (x i)) (Ideal.ofBits .f32 0x3F000000#32))
        * s (ix2 0 0) := by
  rw [k1_pay1_elem, Ideal.jnp_sign_eq_sign_f32, mask_conv]
  have hext : extractAt ![0, 0] s inpos_S1x1_p0_0 = s (ix2 0 0) :=
    congrArg s (funext fun a => match a with | ⟨0, _⟩ => rfl | ⟨1, _⟩ => rfl)
  rw [hext]
  rfl

/-- Entry (r % 128, d) of row block r / 128 is the matrix's entry (r, d). -/
theorem wBlk_row (w : FVec Ideal S4096x4096 .f32) (i : S4096x4096.Idx) :
    wBlk (F := Ideal) w ((i 0).val / 128)
        (ix2 (⟨(i 0).val % 128, Nat.mod_lt _ (by decide)⟩ : Fin 128) (⟨(i 1).val, idx2_lt1 i⟩ : Fin 4096))
      = w i := by
  show w (ix2 (⟨128 * ((i 0).val / 128 % 32) + (i 0).val % 128, _⟩ : Fin 4096) (⟨(i 1).val, _⟩ : Fin 4096)) = w i
  refine congrArg w (funext fun a => ?_)
  match a with
  | ⟨0, _⟩ =>
    exact Fin.ext (by
      show 128 * ((i 0).val / 128 % 32) + (i 0).val % 128 = (i 0).val
      have := idx2_lt0 i
      omega)
  | ⟨1, _⟩ => rfl

/-- The ternarized weight at an entry is the reference's: sign times mask times scale, once the two scales agree. -/
theorem wtOf_apply (w : FVec Ideal S4096x4096 .f32)
    (hs : scaleOf (F := Ideal) w (ValueIdx.ix2 0 0) = Cert.ReferenceIdeal.RefSpec.refScale (F := Ideal) w ValueIdx.ix0)
    (i : Cert.ReferenceIdeal.S4096x4096.Idx) :
    wtOf (F := Ideal) w i
      = (mulf (mulf (Host.sign (F := Ideal) w) (uitofp .f32 (Cert.ReferenceIdeal.RefSpec.refMask w)))
          (broadcastInDim Cert.ReferenceIdeal.S4096x4096 ![] Cert.ReferenceIdeal.Gen.bcast_S_S4096x4096
            (Cert.ReferenceIdeal.RefSpec.refScale (F := Ideal) w))) i := by
  have hb : broadcastInDim Cert.ReferenceIdeal.S4096x4096 ![] Cert.ReferenceIdeal.Gen.bcast_S_S4096x4096
      (Cert.ReferenceIdeal.RefSpec.refScale (F := Ideal) w) i = Cert.ReferenceIdeal.RefSpec.refScale (F := Ideal) w ValueIdx.ix0 :=
    broadcastInDim_apply _ Cert.ReferenceIdeal.Gen.bcast_S_S4096x4096 (Cert.ReferenceIdeal.RefSpec.refScale (F := Ideal) w) i
      ValueIdx.ix0 (fun a => a.elim0)
  rw [mulf_apply, mulf_apply, hb, ← hs]
  show k1_pay1 (F := Ideal) (wBlk w ((i 0).val / 128)) (scaleOf w)
      (ix2 (⟨(i 0).val % 128, Nat.mod_lt _ (by decide)⟩ : Fin 128) (⟨(i 1).val, idx2_lt1 i⟩ : Fin 4096)) = _
  rw [k1_pay1_apply, wBlk_row]
  rfl

end Cert.KernelIdeal.H

end
-- ==== Proof.Bridge.lean ====
/-
  The whole: the kernel's result is the reference's, entry by entry, once the two scales agree.

  At the output entry (p, s, o) put R = 2048 p + s. The kernel reads entry (R % 1024, o % 1024) of the tile
  q = (R / 1024) * 4 + o / 1024, whose value is the sum over the 4096 columns d of the activation row
  1024 (q / 4 % 16) + R % 1024 = R — that is x (p, s, d) — times the ternarized weight at row
  1024 (q % 4) + o % 1024 = o and column d, plus the bias at o. The reference's entry is the same sum of the same
  products (its weight operand is the ternarized weight, entry by entry) plus the same bias.
-/
import proofs.«171202_j46084999086226_2_alg».proof.Proof.BridgeMat
import proofs.«171202_j46084999086226_2_alg».proof.Proof.BridgeTern
import proofs.«171202_j46084999086226_2_alg».proof.Proof.RefReadP

noncomputable section

open scoped BigOperators

namespace Cert.KernelIdeal.H

open Idealize.ShloMosaic Idealize.ShloMosaic.ValueIdx Cert.KernelIdeal Cert.KernelIdeal.Gen

/-- An entry of the activations' tile block, by its coordinates as numbers. -/
theorem tileX_x2Of_apply (x : FVec Ideal S8x2048x4096 .f32) (q k a c : ℕ) (ha : a < 1024) (hc : c < 1024) :
    tileX (F := Ideal) (x2Of x) q k (ix2 (⟨a, ha⟩ : Fin 1024) (⟨c, hc⟩ : Fin 1024))
      = x (ix3 (⟨(1024 * (q / 4 % 16) + a) / 2048, by omega⟩ : Fin 8)
            (⟨(1024 * (q / 4 % 16) + a) % 2048, Nat.mod_lt _ (by decide)⟩ : Fin 2048)
            (⟨1024 * (k % 4) + c, by omega⟩ : Fin 4096)) := rfl

/-- An entry of the ternarized weight's tile block, by its coordinates as numbers. -/
theorem tileW_apply (wt : FVec Ideal S4096x4096 .bf16) (q k a c : ℕ) (ha : a < 1024) (hc : c < 1024) :
    tileW (F := Ideal) wt q k (ix2 (⟨a, ha⟩ : Fin 1024) (⟨c, hc⟩ : Fin 1024))
      = wt (ix2 (⟨1024 * (q % 4) + a, by omega⟩ : Fin 4096) (⟨1024 * (k % 4) + c, by omega⟩ : Fin 4096)) := rfl

/-- An entry of the bias tile, by its coordinate as a number. -/
theorem tileB_apply (b : FVec Ideal S4096 .f32) (q c : ℕ) (hc : c < 1024) :
    tileB (F := Ideal) b q (ix2 (0 : Fin 1) (⟨c, hc⟩ : Fin 1024)) = b (ix1 (⟨1024 * (q % 4) + c, by omega⟩ : Fin 4096)) := rfl

/-- A rank-3 read depends only on the three coordinates' values. -/
theorem read_ix3_congr {α : Type} {n0 n1 n2 : ℕ} (x : (⟨3, ![n0, n1, n2]⟩ : Shape).Idx → α) (A B C : ℕ) (hA : A < n0) (hB : B < n1)
    (hC : C < n2) (a : Fin n0) (b : Fin n1) (c : Fin n2) (h0 : A = a.val) (h1 : B = b.val) (h2 : C = c.val) :
    x (ix3 (⟨A, hA⟩ : Fin n0) (⟨B, hB⟩ : Fin n1) (⟨C, hC⟩ : Fin n2)) = x (ix3 a b c) := by
  subst h0 h1 h2; rfl

/-- A rank-2 read depends only on the two coordinates' values. -/
theorem read_ix2_congr {α : Type} {n0 n1 : ℕ} (x : (⟨2, ![n0, n1]⟩ : Shape).Idx → α) (A B : ℕ) (hA : A < n0) (hB : B < n1)
    (a : Fin n0) (b : Fin n1) (h0 : A = a.val) (h1 : B = b.val) :
    x (ix2 (⟨A, hA⟩ : Fin n0) (⟨B, hB⟩ : Fin n1)) = x (ix2 a b) := by
  subst h0 h1; rfl

/-- A rank-1 read depends only on the coordinate's value. -/
theorem read_ix1_congr {α : Type} {n0 : ℕ} (x : (⟨1, ![n0]⟩ : Shape).Idx → α) (A : ℕ) (hA : A < n0) (a : Fin n0) (h0 : A = a.val) :
    x (ix1 (⟨A, hA⟩ : Fin n0)) = x (ix1 a) := by
  subst h0; rfl

/-- The reference's left operand index of the contraction: (p, s, d). -/
theorem lidx_eq (i : Cert.ReferenceIdeal.S8x2048x4096.Idx) (d : Fin 4096) :
    Cert.ReferenceIdeal.ReadP.lidx_main_v17 i d = ix3 (i 0) (i 1) d := by
  funext a; match a with | ⟨0, _⟩ => rfl | ⟨1, _⟩ => rfl | ⟨2, _⟩ => rfl

/-- The reference's right operand index of the contraction: (o, d). -/
theorem ridx_eq (i : Cert.ReferenceIdeal.S8x2048x4096.Idx) (d : Fin 4096) :
    Cert.ReferenceIdeal.ReadP.ridx_main_v17 i d = ix2 (i 2) d := by
  funext a; match a with | ⟨0, _⟩ => rfl | ⟨1, _⟩ => rfl

/-- The reference's bias index: o. -/
theorem bidx_eq (i : Cert.ReferenceIdeal.S8x2048x4096.Idx) :
    Cert.ReferenceIdeal.ReadP.idx_main_v18 (Cert.ReferenceIdeal.ReadP.idx_main_v19 i) = ix1 (i 2) := by
  funext a; match a with | ⟨0, _⟩ => rfl

/-- The reference's composed term is its last operation's value. -/
theorem refOut_eq (x : FVec Ideal S8x2048x4096 .f32) (w : FVec Ideal S4096x4096 .f32) (b : FVec Ideal S4096 .f32) :
    Cert.ReferenceIdeal.RefSpec.refOut (F := Ideal) x w b = Cert.ReferenceIdeal.ReadP.val_main_v20 (F := Ideal) x w b := rfl

/-- The reference's weight operand is the product the ternarized weight was read as. -/
theorem refW_eq (w : FVec Ideal S4096x4096 .f32) :
    mulf (mulf (Host.sign (F := Ideal) w) (uitofp .f32 (Cert.ReferenceIdeal.RefSpec.refMask w)))
        (broadcastInDim Cert.ReferenceIdeal.S4096x4096 ![] Cert.ReferenceIdeal.Gen.bcast_S_S4096x4096
          (Cert.ReferenceIdeal.RefSpec.refScale (F := Ideal) w))
      = Cert.ReferenceIdeal.ReadP.val_main_v16 (F := Ideal) w := rfl

theorem kernelOut_eq_refOut (x : FVec Ideal S8x2048x4096 .f32) (w : FVec Ideal S4096x4096 .f32) (b : FVec Ideal S4096 .f32)
    (hs : scaleOf (F := Ideal) w (ValueIdx.ix2 0 0) = Cert.ReferenceIdeal.RefSpec.refScale (F := Ideal) w ValueIdx.ix0) :
    kernelOut (F := Ideal) x w b = Cert.ReferenceIdeal.RefSpec.refOut (F := Ideal) x w b := by
  funext i
  have h0 : (i 0).val < 8 := (i 0).isLt
  have h1 : (i 1).val < 2048 := (i 1).isLt
  have h2 : (i 2).val < 4096 := (i 2).isLt
  rw [refOut_eq, Cert.ReferenceIdeal.ReadP.val_main_v20_apply, Cert.ReferenceIdeal.ReadP.val_main_v17_apply,
    Cert.ReferenceIdeal.ReadP.val_main_v19_apply, Cert.ReferenceIdeal.ReadP.val_main_v18_apply, bidx_eq]
  show out2 (F := Ideal) (tileX (x2Of x) (((2048 * (i 0).val + (i 1).val) / 1024) * 4 + (i 2).val / 1024))
       (tileW (wtOf w) (((2048 * (i 0).val + (i 1).val) / 1024) * 4 + (i 2).val / 1024))
       (tileB b (((2048 * (i 0).val + (i 1).val) / 1024) * 4 + (i 2).val / 1024))
    (ix2 (⟨(2048 * (i 0).val + (i 1).val) % 1024, Nat.mod_lt _ (by decide)⟩ : Fin 1024) (⟨(i 2).val % 1024, Nat.mod_lt _ (by decide)⟩ : Fin 1024))
      = _ + _
  rw [out2_apply]
  refine congrArg₂ (· + ·) (Finset.sum_congr rfl fun d _ => congrArg₂ (· * ·) ?_ ?_) ?_
  · have hd : d.val < 4096 := d.isLt
    rw [tileX_x2Of_apply, lidx_eq]
    exact read_ix3_congr x _ _ _ _ _ _ (i 0) (i 1) d (by omega) (by omega) (by omega)
  · have hd : d.val < 4096 := d.isLt
    rw [tileW_apply, wtOf_apply w hs, refW_eq, ridx_eq]
    exact read_ix2_congr _ _ _ _ _ (i 2) d (by omega) (by omega)
  · rw [tileB_apply]
    exact read_ix1_congr b _ _ (i 2) (by omega)

end Cert.KernelIdeal.H

end
-- ==== Proof.LibColumnCast.lean ====
/-
  A vector cast to a one-column matrix: the companion of the library's row forms `shapeCast_a_1a_apply` /
  `shapeCast_1a_a_apply` (a trailing unit axis instead of a leading one).
-/
import Idealize.ShloMosaic.Lib.Pipeline.Value
import Idealize.ShloMosaic.Lib.ValueIdx

namespace Cert.LibColumnCast

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Cert.LibColumnCast
-- ==== Proof.ScaleKernel.lean ====
/-
  Stage 1 of the kernel, entry by entry: the two 1x1 accumulators after all 32 row blocks are the sums, over every
  entry of the 4096 x 4096 weight matrix, of the entry's indicator (one where the magnitude exceeds one half, else
  zero, as a float) and of the entry's masked magnitude. A block's contribution is a sum over its 128 rows of the
  row's sum over the 4096 lanes; the blocks' contributions add up block after block from zero; and the 32 blocks of
  128 rows are the 4096 rows. Only commutativity and associativity of the extended reals' addition are used.
-/
import proofs.«171202_j46084999086226_2_alg».proof.Proof.Spec
import proofs.«171202_j46084999086226_2_alg».proof.Proof.LibSumChunks
import proofs.«171202_j46084999086226_2_alg».proof.Proof.LibColumnCast
import Idealize.ShloMosaic.PureOps.Ideal.Laws
import Idealize.ShloMosaic.Lib.IdealHost
import Idealize.ShloMosaic.Lib.Pipeline.Value

noncomputable section

open scoped BigOperators

namespace Cert.KernelIdeal.H

open Idealize.ShloMosaic Idealize.ShloMosaic.ValueIdx Cert.KernelIdeal Cert.KernelIdeal.Gen

/-- The mask bit of one entry: its magnitude exceeds the constant one half. -/
def bitE (a : EReal) : BitVec 1 :=
  FloatOps.cmpf (F := Ideal) (φ := .f32) .ogt (FloatOps.absf (F := Ideal) (φ := .f32) a) (Ideal.ofBits .f32 0x3F000000#32)

/-- The entry's indicator as a float: the mask bit widened to 32 bits and converted. -/
def cntE (a : EReal) : EReal := FloatOps.sitofp (F := Ideal) .f32 ((bitE a).setWidth 32)

/-- The entry's masked magnitude: the magnitude where the mask bit is set, else zero. -/
def magE (a : EReal) : EReal :=
  Scalar.select (bitE a) (FloatOps.absf (F := Ideal) (φ := .f32) a) (Ideal.ofBits .f32 0x00000000#32)

theorem pay4_apply (x : Vec Ideal S128x4096 .f32) (i : S128x4096.Idx) : k0_pay4 (F := Ideal) x i = bitE (x i) := rfl

theorem cntSrc_apply (x : Vec Ideal S128x4096 .f32) (i : S128x4096.Idx) :
    (sitofp .f32 (extui 32 (k0_pay4 (F := Ideal) x) natLt_1_32) : FVec Ideal S128x4096 .f32) i = cntE (x i) := rfl

theorem magSrc_apply (x : Vec Ideal S128x4096 .f32) (i : S128x4096.Idx) :
    select (k0_pay4 (F := Ideal) x) (k0_pay3 (F := Ideal) x) (broadcast S128x4096 (Scalar.ofBits (F := Ideal) .f32 0x00000000#32)) i
      = magE (x i) := rfl

/-- The lanes-then-rows reduction of a 128 x 4096 block, read at its one entry: the sum over the rows of the rows' sums. -/
theorem rowcol_sum (v : FVec Ideal S128x4096 .f32) :
    shapeCast S1x1 (multiReduction .add [0] S1
        (shapeCast S128x1 (multiReduction .add [1] S128 v 0x00000000#32 reduces_S128x4096_S128 (.inl rfl) rfl) shapeCasts_S128_S128x1)
        0x00000000#32 reduces_S128x1_S1 (.inl rfl) rfl) shapeCasts_S1_S1x1 (ix2 (0 : Fin 1) (0 : Fin 1))
      = ∑ r : Fin 128, ∑ c : Fin 4096, v (ix2 r c) := by
  refine (Cert.LibColumnCast.shapeCast_a_a1_apply _ _ 0 0).trans ?_
  refine (Ideal.multiReduction_add_single _ _ _ _ _ _).trans ?_
  refine Finset.sum_congr rfl fun r _ => ?_
  have e : reduces_S128x1_S1.lift (ix1 (0 : Fin 1)) r = ix2 (n0 := 128) (n1 := 1) r (0 : Fin 1) := by
    funext a; match a with | ⟨0, _⟩ => rfl | ⟨1, _⟩ => rfl
  refine (congrArg _ e).trans ?_
  refine (Cert.LibColumnCast.shapeCast_a_a1_apply _ _ r 0).trans ?_
  refine (Ideal.multiReduction_add_single _ _ _ _ _ _).trans ?_
  refine Finset.sum_congr rfl fun c _ => ?_
  refine congrArg v ?_
  funext a; match a with | ⟨0, _⟩ => rfl | ⟨1, _⟩ => rfl

/-- One block's step of the count accumulator, at its one entry: what the block before left plus the block's indicators. -/
theorem pay5_apply (x : Vec Ideal S128x4096 .f32) (a : Vec Ideal S1x1 .f32) :
    k0_pay5 (F := Ideal) x a (ix2 (0 : Fin 1) (0 : Fin 1)) = a (ix2 0 0) + ∑ r : Fin 128, ∑ c : Fin 4096, cntE (x (ix2 r c)) := by
  unfold k0_pay5
  refine (congrFun (shapeCast_self _ _) _).trans ?_
  refine (addf_apply _ _ _).trans ?_
  refine congrArg (a (ix2 0 0) + ·) ?_
  refine (rowcol_sum _).trans ?_
  exact Finset.sum_congr rfl fun r _ => Finset.sum_congr rfl fun c _ => cntSrc_apply x (ix2 r c)

/-- One block's step of the magnitude accumulator, at its one entry. -/
theorem pay6_apply (x : Vec Ideal S128x4096 .f32) (a : Vec Ideal S1x1 .f32) :
    k0_pay6 (F := Ideal) x a (ix2 (0 : Fin 1) (0 : Fin 1)) = a (ix2 0 0) + ∑ r : Fin 128, ∑ c : Fin 4096, magE (x (ix2 r c)) := by
  unfold k0_pay6
  refine (congrFun (shapeCast_self _ _) _).trans ?_
  refine (addf_apply _ _ _).trans ?_
  refine congrArg (a (ix2 0 0) + ·) ?_
  refine (rowcol_sum _).trans ?_
  exact Finset.sum_congr rfl fun r _ => Finset.sum_congr rfl fun c _ => magSrc_apply x (ix2 r c)

/-- Both accumulators start at the zero the first grid point stores. -/
theorem pay1_apply (j : S1x1.Idx) : k0_pay1 (F := Ideal) j = 0 := by
  unfold k0_pay1
  refine (congrFun (shapeCast_self _ _) _).trans ?_
  exact Ideal.ofBits_zero_f32

theorem pay2_apply (j : S1x1.Idx) : k0_pay2 (F := Ideal) j = 0 := by
  unfold k0_pay2
  refine (congrFun (shapeCast_self _ _) _).trans ?_
  exact Ideal.ofBits_zero_f32

/-- The recursion's two equations. -/
theorem acc0_zero (xs : ℕ → Vec Ideal S128x4096 .f32) :
    acc0 (F := Ideal) xs 0 = (k0_pay5 (xs 0) (k0_pay1 (F := Ideal)), k0_pay6 (xs 0) (k0_pay2 (F := Ideal))) := rfl
theorem acc0_succ (xs : ℕ → Vec Ideal S128x4096 .f32) (n : ℕ) :
    acc0 (F := Ideal) xs (n + 1) = (k0_pay5 (xs (n + 1)) (acc0 xs n).1, k0_pay6 (xs (n + 1)) (acc0 xs n).2) := rfl

/-- After the blocks 0 … n the count accumulator holds the sum of those blocks' indicators. -/
theorem acc0_fst (xs : ℕ → Vec Ideal S128x4096 .f32) : ∀ n : ℕ,
    (acc0 (F := Ideal) xs n).1 (ix2 (0 : Fin 1) (0 : Fin 1))
      = ∑ k ∈ Finset.range (n + 1), ∑ r : Fin 128, ∑ c : Fin 4096, cntE (xs k (ix2 r c))
  | 0 => by
    refine (congrFun (congrArg Prod.fst (acc0_zero xs)) _).trans ?_
    refine (pay5_apply (xs 0) (k0_pay1 (F := Ideal))).trans ?_
    rw [pay1_apply, zero_add, Finset.sum_range_one]
  | n + 1 => by
    refine (congrFun (congrArg Prod.fst (acc0_succ xs n)) _).trans ?_
    refine (pay5_apply (xs (n + 1)) (acc0 (F := Ideal) xs n).1).trans ?_
    rw [acc0_fst xs n, Finset.sum_range_succ _ (n + 1)]

/-- After the blocks 0 … n the magnitude accumulator holds the sum of those blocks' masked magnitudes. -/
theorem acc0_snd (xs : ℕ → Vec Ideal S128x4096 .f32) : ∀ n : ℕ,
    (acc0 (F := Ideal) xs n).2 (ix2 (0 : Fin 1) (0 : Fin 1))
      = ∑ k ∈ Finset.range (n + 1), ∑ r : Fin 128, ∑ c : Fin 4096, magE (xs k (ix2 r c))
  | 0 => by
    refine (congrFun (congrArg Prod.snd (acc0_zero xs)) _).trans ?_
    refine (pay6_apply (xs 0) (k0_pay2 (F := Ideal))).trans ?_
    rw [pay2_apply, zero_add, Finset.sum_range_one]
  | n + 1 => by
    refine (congrFun (congrArg Prod.snd (acc0_succ xs n)) _).trans ?_
    refine (pay6_apply (xs (n + 1)) (acc0 (F := Ideal) xs n).2).trans ?_
    rw [acc0_snd xs n, Finset.sum_range_succ _ (n + 1)]

/-- The 32 row blocks of 128 rows are the 4096 rows: a sum over the blocks of each block's sum over its entries is
    the sum over every entry of the matrix. -/
theorem sum_blocks (w : FVec Ideal S4096x4096 .f32) (f : EReal → EReal) :
    ∑ k ∈ Finset.range 32, ∑ r : Fin 128, ∑ c : Fin 4096, f (wBlk w k (ix2 r c)) = ∑ i : S4096x4096.Idx, f (w i) := by
  rw [sum_idx2 (fun i => f (w i)), Cert.Lib.SumChunks.sum_chunks 32 128 (by decide) (fun a : Fin 4096 => ∑ b : Fin 4096, f (w (ix2 a b))),
    Finset.sum_range (fun k => ∑ r : Fin 128, ∑ c : Fin 4096, f (wBlk w k (ix2 r c)))]
  refine Finset.sum_congr rfl fun k _ => Finset.sum_congr rfl fun r _ => Finset.sum_congr rfl fun c _ => ?_
  refine congrArg (fun i => f (w i)) ?_
  have hk : k.val % 32 = k.val := Nat.mod_eq_of_lt k.isLt
  funext a
  match a with
  | ⟨0, _⟩ => exact Fin.ext (by show 128 * (k.val % 32) + r.val = r.val + 128 * k.val; rw [hk, Nat.add_comm])
  | ⟨1, _⟩ => rfl

/-- The kernel's final count accumulator: the sum of every entry's indicator. -/
theorem count_total (w : FVec Ideal S4096x4096 .f32) :
    (acc0 (F := Ideal) (wBlk w) 31).1 (ix2 (0 : Fin 1) (0 : Fin 1)) = ∑ i : S4096x4096.Idx, cntE (w i) :=
  (acc0_fst (wBlk w) 31).trans (sum_blocks w cntE)

/-- The kernel's final magnitude accumulator: the sum of every entry's masked magnitude. -/
theorem mag_total (w : FVec Ideal S4096x4096 .f32) :
    (acc0 (F := Ideal) (wBlk w) 31).2 (ix2 (0 : Fin 1) (0 : Fin 1)) = ∑ i : S4096x4096.Idx, magE (w i) :=
  (acc0_snd (wBlk w) 31).trans (sum_blocks w magE)

end Cert.KernelIdeal.H

end
-- ==== Proof.ScaleRef.lean ====
/-
  The reference's scale, entry by entry, and the meeting point. The reference's mask is the kernel's mask bit at each
  entry; its float sum is zero plus the sum of every entry's masked magnitude; its count, a 32-bit integer sum of the
  mask bits, is the number of set bits as a 32-bit word, and with at most 2^24 entries that word, read signed, is the
  number itself. The kernel's float count adds one per set bit and zero per clear bit, so it is the same number as a
  real. Hence "count > 0" is the same condition on both sides, and for a positive count the integer clamp "at least
  one" followed by the conversion is the float maximum with one.
-/
import proofs.«171202_j46084999086226_2_alg».proof.Proof.ScaleKernel
import Idealize.ShloMosaic.Lib.IndicatorCount

noncomputable section

open scoped BigOperators

namespace Cert.ReferenceIdeal.RefSpec

open Idealize.ShloMosaic Idealize.ShloMosaic.ValueIdx Cert.ReferenceIdeal Cert.ReferenceIdeal.Gen
open Cert.KernelIdeal.H (bitE cntE magE)

/-- The reference's mask at an entry is the kernel's mask bit of that entry. -/
theorem refMask_apply (w : FVec Ideal S4096x4096 .f32) (i : S4096x4096.Idx) : refMask (F := Ideal) w i = bitE (w i) := by
  show FloatOps.cmpf (F := Ideal) (φ := .f32) .ogt (FloatOps.absf (F := Ideal) (φ := .f32) (w i))
      (broadcastInDim S4096x4096 ![] bcast_S_S4096x4096 (constant (F := Ideal) S_ .f32 0x3F000000#32) i)
    = FloatOps.cmpf (F := Ideal) (φ := .f32) .ogt (FloatOps.absf (F := Ideal) (φ := .f32) (w i)) (Ideal.ofBits .f32 0x3F000000#32)
  rw [broadcastInDim_scalar_apply]
  rfl

/-- The reference's integer count: the number of set mask bits, as a 32-bit word. -/
theorem refCount_apply (w : FVec Ideal S4096x4096 .f32) :
    refCount (F := Ideal) w ix0 = BitVec.ofNat 32 (Finset.univ.filter fun i : S4096x4096.Idx => bitE (w i) = 1#1).card := by
  unfold refCount
  rw [Host.reduce_eq_fold, Finset.filter_true_of_mem (fun i _ => funext fun a => a.elim0)]
  refine Eq.trans ?_ (IndicatorCount.fold_addi_setWidth_eq_card (w := 32) (fun i : S4096x4096.Idx => bitE (w i)) Finset.univ)
  refine congrArg (fun f => Finset.fold IntOp.addi (0#32) f Finset.univ) ?_
  exact funext fun k => congrArg (fun b : BitVec 1 => b.setWidth 32) (refMask_apply w k)

/-- The reference's float sum: the sum of every entry's masked magnitude. -/
theorem refSum_apply (w : FVec Ideal S4096x4096 .f32) :
    Host.reduceAdd (select (refMask (F := Ideal) w) (Host.absf w)
        (broadcastInDim S4096x4096 ![] bcast_S_S4096x4096 (id (constant (F := Ideal) S_ .f32 0x00000000#32))))
        (constant (F := Ideal) S_ .f32 0x00000000#32) reducesTo_S4096x4096_S_d0_1 h_S_ ix0
      = ∑ i : S4096x4096.Idx, magE (w i) := by
  refine (hostReduceAdd_apply _ _ _ _ _).trans ?_
  refine (Ideal.hostReduceAdd_total _ (fun b => b.elim0) _ _ _).trans ?_
  have h0 : (constant (F := Ideal) S_ .f32 0x00000000#32) (Shape.Idx.first h_S_) = 0 := Ideal.ofBits_zero_f32
  rw [h0, zero_add]
  refine Finset.sum_congr rfl fun i _ => ?_
  refine (select_apply _ _ _ _).trans ?_
  rw [refMask_apply, broadcastInDim_scalar_apply]
  rfl

/-- A set bit counts one, as a float. -/
theorem cntE_one {a : EReal} (h : bitE a = 1#1) : cntE a = 1 := by
  show ((((bitE a).setWidth 32).toInt : ℝ) : EReal) = 1
  rw [h, show ((1#1 : BitVec 1).setWidth 32).toInt = 1 by decide]
  norm_num

/-- A clear bit counts zero, as a float. -/
theorem cntE_zero {a : EReal} (h : bitE a = 0#1) : cntE a = 0 := by
  show ((((bitE a).setWidth 32).toInt : ℝ) : EReal) = 0
  rw [h, show ((0#1 : BitVec 1).setWidth 32).toInt = 0 by decide]
  norm_num

/-- The kernel's float count over any finite set of entries: the number of set mask bits among them, as a real. -/
theorem sum_cntE {ι : Type} (g : ι → EReal) (S : Finset ι) :
    ∑ i ∈ S, cntE (g i) = (((S.filter fun i => bitE (g i) = 1#1).card : ℝ) : EReal) := by
  classical
  induction S using Finset.induction_on with
  | empty => simp
  | insert a S ha ih =>
    rw [Finset.sum_insert ha, ih, Finset.filter_insert]
    by_cases h : bitE (g a) = 1#1
    · rw [if_pos h, Finset.card_insert_of_notMem (fun hm => ha (Finset.mem_filter.1 hm).1), cntE_one h, Nat.cast_succ,
        EReal.coe_add, EReal.coe_one, add_comm]
    · rw [if_neg h, cntE_zero (eq_zero_of_ne_one h), zero_add]

/-- There are 2^24 entries, so at most that many are counted. -/
theorem card_le (p : S4096x4096.Idx → Prop) [DecidablePred p] : (Finset.univ.filter p).card ≤ 2 ^ 24 := by
  refine (Finset.card_filter_le _ _).trans ?_
  rw [Finset.card_univ, Fintype.card_congr (idxEquiv2 (n0 := 4096) (n1 := 4096)), Fintype.card_prod, Fintype.card_fin]
  decide

/-- The reference's scale at its one index, operation by operation. -/
theorem refScale_apply (w : FVec Ideal S4096x4096 .f32) :
    refScale (F := Ideal) w ix0
      = Scalar.select (IntOp.cmpi .sgt (refCount (F := Ideal) w ix0) 0#32)
          (Ideal.div
            (Host.reduceAdd (select (refMask (F := Ideal) w) (Host.absf w)
              (broadcastInDim S4096x4096 ![] bcast_S_S4096x4096 (id (constant (F := Ideal) S_ .f32 0x00000000#32))))
              (constant (F := Ideal) S_ .f32 0x00000000#32) reducesTo_S4096x4096_S_d0_1 h_S_ ix0)
            ((((IntOp.maxsi (refCount (F := Ideal) w ix0) 1#32).toInt : ℝ)) : EReal))
          (Ideal.ofBits .f32 0x3F800000#32) := rfl

end Cert.ReferenceIdeal.RefSpec

end
-- ==== Proof.ScaleCore.lean ====
/-
  The arithmetic core of the scale, over a natural number N ≤ 2^24 (the number of counted entries) and an extended
  real S (the sum of their magnitudes): the float form "if N > 0 then S / max N 1 else 1" and the integer form
  "if N > 0 (as a signed 32-bit word) then S / float (max N 1 as signed words) else 1" are one value. N fits a signed
  32-bit word, so the word read signed is N; for N = 0 both conditions fail; for N ≥ 1 both maxima are N.
-/
import Idealize.ShloMosaic.Lib.IdealHost

noncomputable section

namespace Cert.KernelIdeal.H

open Idealize.ShloMosaic

/-- A number below 2^31 as a 32-bit word, read signed, is itself. -/
theorem toInt_ofNat_small (N : ℕ) (h : N < 2 ^ 31) : (BitVec.ofNat 32 N).toInt = (N : ℤ) := by
  rw [BitVec.toInt_eq_toNat_cond, BitVec.toNat_ofNat]
  split_ifs <;> omega

theorem scale_core (N : ℕ) (hN : N ≤ 2 ^ 24) (S : EReal) :
    Scalar.select (Ideal.cmp .ogt ((N : ℝ) : EReal) (Ideal.ofBits .f32 0x00000000#32))
        (Ideal.div S (max ((N : ℝ) : EReal) (Ideal.ofBits .f32 0x3F800000#32))) (Ideal.ofBits .f32 0x3F800000#32)
      = Scalar.select (IntOp.cmpi .sgt (BitVec.ofNat 32 N) 0#32)
        (Ideal.div S ((((IntOp.maxsi (BitVec.ofNat 32 N) 1#32).toInt : ℝ)) : EReal)) (Ideal.ofBits .f32 0x3F800000#32) := by
  have hI : (BitVec.ofNat 32 N).toInt = (N : ℤ) := toInt_ofNat_small N (by omega)
  rw [Ideal.ofBits_zero_f32, Ideal.ofBits_one_f32]
  rcases Nat.eq_zero_or_pos N with h0 | hpos
  · subst h0
    have c1 : Ideal.cmp .ogt (((0 : ℕ) : ℝ) : EReal) 0 = 0#1 := by simp [Ideal.cmp]
    have c2 : IntOp.cmpi .sgt (BitVec.ofNat 32 0) 0#32 = 0#1 := by decide
    rw [c1, c2]
    rfl
  · have hpos' : (0 : EReal) < ((N : ℝ) : EReal) := by exact_mod_cast hpos
    have hone : (1 : EReal) ≤ ((N : ℝ) : EReal) := by exact_mod_cast hpos
    have c1 : Ideal.cmp .ogt ((N : ℝ) : EReal) 0 = 1#1 := by
      show BitVec.ofBool (decide ((0 : EReal) < ((N : ℝ) : EReal))) = 1#1
      rw [decide_eq_true hpos']; rfl
    have hslt : (0#32 : BitVec 32).slt (BitVec.ofNat 32 N) = true := by
      rw [BitVec.slt, hI]; simpa using hpos
    have c2 : IntOp.cmpi .sgt (BitVec.ofNat 32 N) 0#32 = 1#1 := by
      show BitVec.ofBool ((0#32 : BitVec 32).slt (BitVec.ofNat 32 N)) = 1#1
      rw [hslt]; rfl
    have m : (IntOp.maxsi (BitVec.ofNat 32 N) 1#32).toInt = (N : ℤ) := by
      unfold IntOp.maxsi
      split
      · exact hI
      · rename_i hlt
        have h1 : ¬ ((1 : ℤ) < (N : ℤ)) := by
          intro hh; apply hlt; rw [BitVec.slt, hI]; simpa using hh
        have : N = 1 := by omega
        subst this; decide
    rw [c1, c2, m, max_eq_left hone, Int.cast_natCast]

end Cert.KernelIdeal.H

end
-- ==== Proof.Scale.lean ====
/-
  The kernel's scale is the reference's scale. The kernel's two final accumulators are the sums over every entry of
  the indicator and of the masked magnitude; the float count is the number N of counted entries as a real; the
  reference's integer count is N as a 32-bit word and its float sum is the same sum of masked magnitudes; and the
  two forms of "mean magnitude if anything was counted, else one" agree for N ≤ 2^24.
-/
import proofs.«171202_j46084999086226_2_alg».proof.Proof.ScaleRef
import proofs.«171202_j46084999086226_2_alg».proof.Proof.ScaleCore

noncomputable section

open scoped BigOperators

namespace Cert.KernelIdeal.H

open Idealize.ShloMosaic Idealize.ShloMosaic.ValueIdx Cert.KernelIdeal Cert.KernelIdeal.Gen

/-- The kernel's last step at an entry, operation by operation. -/
theorem pay7_apply (A B : Vec Ideal S1x1 .f32) (j : S1x1.Idx) :
    k0_pay7 (F := Ideal) A B j
      = Scalar.select (Ideal.cmp .ogt (A j) (Ideal.ofBits .f32 0x00000000#32))
          (Ideal.div (B j) (max (A j) (Ideal.ofBits .f32 0x3F800000#32))) (Ideal.ofBits .f32 0x3F800000#32) := rfl

/-- The scale is the last step applied to the two final accumulators. -/
theorem scaleOf_apply (w : FVec Ideal S4096x4096 .f32) (j : S1x1.Idx) :
    scaleOf (F := Ideal) w j = k0_pay7 (F := Ideal) (acc0 (F := Ideal) (wBlk w) 31).1 (acc0 (F := Ideal) (wBlk w) 31).2 j := by
  unfold scaleOf scale0
  rfl

theorem scaleOf_eq_refScale (w : FVec Ideal S4096x4096 .f32) :
    scaleOf (F := Ideal) w (ValueIdx.ix2 0 0) = Cert.ReferenceIdeal.RefSpec.refScale (F := Ideal) w ValueIdx.ix0 := by
  have hA := count_total w
  have hB := mag_total w
  have hC := Cert.ReferenceIdeal.RefSpec.refCount_apply w
  have hS := Cert.ReferenceIdeal.RefSpec.refSum_apply w
  have hN := Cert.ReferenceIdeal.RefSpec.sum_cntE (fun i : S4096x4096.Idx => w i) Finset.univ
  refine (scaleOf_apply w _).trans ?_
  refine (pay7_apply (acc0 (F := Ideal) (wBlk w) 31).1 (acc0 (F := Ideal) (wBlk w) 31).2 _).trans ?_
  refine Eq.trans ?_ (Cert.ReferenceIdeal.RefSpec.refScale_apply w).symm
  rw [hA, hB, hC, hS, hN]
  exact scale_core _ (Cert.ReferenceIdeal.RefSpec.card_le _) _

end Cert.KernelIdeal.H

end
-- ==== Proof.Claims.lean ====
/-
  The claims.

  Each of the three programs runs to the end with its argument arrays unchanged. The word-level kernel and its
  idealization differ by one rewrite, the sign-bit read of stage 2, restated as its rule's statement. At the ideal
  instance the kernel's result array ends at one function of the three argument arrays: the scale of the weight matrix
  from stage 1's recursion over its 32 row blocks, the ternarized weight entry by entry from stage 2's payload, and for
  every output tile stage 3's recursion over the four contraction blocks plus the bias tile. The reference's result
  array ends at its composed term of the same three arrays. The two are equal entry by entry: the two scales agree, the
  ternarized weight is the reference's sign times mask times scale, and the tile's accumulated products are the
  reference's sum over the 4096 columns regrouped in four chunks of 1024.
-/
import proofs.«171202_j46084999086226_2_alg».proof.Defs
import proofs.«171202_j46084999086226_2_alg».proof.Proof.Gen.Kernel
import proofs.«171202_j46084999086226_2_alg».proof.Proof.Gen.KernelIdeal
import proofs.«171202_j46084999086226_2_alg».proof.Proof.Gen.ReferenceIdeal
import proofs.«171202_j46084999086226_2_alg».proof.Proof.Gen.Pre_finite_inputs
import proofs.«171202_j46084999086226_2_alg».proof.Proof.KI.Run
import proofs.«171202_j46084999086226_2_alg».proof.Proof.KI.Compose
import proofs.«171202_j46084999086226_2_alg».proof.Proof.KI.Frame
import proofs.«171202_j46084999086226_2_alg».proof.Proof.K.Run
import proofs.«171202_j46084999086226_2_alg».proof.Proof.RefRunH
import proofs.«171202_j46084999086226_2_alg».proof.Proof.Bridge
import proofs.«171202_j46084999086226_2_alg».proof.Proof.Scale

noncomputable section

namespace Cert.Proof.Claims

open Idealize.ShloMosaic Idealize.ShloMosaic.TcCoe Idealize.SL.Sem

/-- The word-level program runs and leaves its arguments unchanged. -/
theorem frame_p : Cert.frame_Kernel := fun m ρ _ => Cert.Kernel.H.frame m ρ

/-- The idealized kernel runs and leaves its arguments unchanged. -/
theorem frame_pi : Cert.frame_KernelIdeal := fun m ρ _ => Cert.KernelIdeal.H.frame m ρ

/-- The idealized reference's run: the result array ends at the composed term `refOut` of the three argument arrays,
    which end unchanged. -/
theorem ref_run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
        r.2.mem ((c.tc : Thread Cert.ReferenceIdeal.nD Cert.ReferenceIdeal.τ).loc Cert.ReferenceIdeal.main_v20)
            = Cert.ReferenceIdeal.RefSpec.refOut (F := Ideal)
                (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2)) :=
  Cert.ReferenceIdeal.RefSpecH.run_refOut m ρ

/-- The idealized reference runs and leaves its arguments unchanged: its run with the result's equation dropped. -/
theorem frame_ri : Cert.frame_ReferenceIdeal := fun m ρ _ =>
  (θ_run Cert.ReferenceIdeal.defs _ _).mono (fun _ h c => (h c).2) (ref_run m ρ)

/-- The one rewrite of the idealization, the sign-bit read of stage 2, restated at its site's shape and format. -/
theorem preserves : Cert.preserves_Kernel_KernelIdeal := IdealRules.sign_bit.statement Cert.KernelIdeal.S128x4096 .f32

section
open Cert.KernelIdeal Cert.KernelIdeal.H

/-- The idealized kernel's run: the result array ends at `kernelOut` of the three argument arrays, which end unchanged. -/
theorem kernel_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v5)
          = kernelOut (F := Ideal) (m ((c.tc : Thread nD τ).loc main_arg0)) (m ((c.tc : Thread nD τ).loc main_arg1))
              (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c =>
      ⟨(h c _ (mem_uc main_v5 (by decide))).trans (W5_out m c),
        (h c _ (mem_uc main_arg0 (by decide))).trans (W5_main_arg0 m c),
        (h c _ (mem_uc main_arg1 (by decide))).trans (W5_main_arg1 m c),
        (h c _ (mem_uc main_arg2 (by decide))).trans (W5_main_arg2 m c)⟩)
    (run_all m ρ)

end

/-- At the ideal instance, from memories that agree on the three arguments, both programs run and end with the same
    result: the kernel's `kernelOut` of the arguments is the reference's composed term of them, entry by entry. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (ref_run m' ρ')
  rw [(hagree c).1, (hagree c).2.1, (hagree c).2.2]
  exact (Cert.KernelIdeal.H.kernelOut_eq_refOut _ _ _ (Cert.KernelIdeal.H.scaleOf_eq_refScale _)).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof.Claims

end
-- ==== Proof.lean ====
/-
  The certificate of the ternary-linear kernel against its jnp reference: `Cert.Claim`.

  The kernel is three grid programs. The first walks the weight matrix in 32 row blocks, keeping the count and the
  sum of the entries of magnitude above one half in two carried accumulators, and leaves the scale: their quotient,
  or one when nothing was counted. The second ternarizes the weight block by block: sign times mask times scale. The
  third multiplies the activations, read as a 16384 x 4096 matrix, by the ternarized weight's transpose tile by tile,
  the contracted axis in four blocks accumulated in a carried tile, and adds the bias. The reference computes the
  same scale with the count taken as an integer, the same ternarized weight, one whole contraction and the bias.

  Frames: each kernel region's pipeline is run over proof data naming what every buffer holds after every grid
  point (Proof/KI for the idealized program, Proof/K for the word-level one), the regions and the reshapes between
  them composed as segments of @main; the reference's frame is its run with the result dropped. Preservation: the
  one rewrite of the ideal pass, the sign built from the sign bit, by its rule's statement. Equivalence at the ideal
  instance: the kernel's result buffer is one function of the arguments (`kernelOut`, the regions' values composed),
  the reference's is `refOut`, and the two are equal for all extended-real arguments — the integer count is the
  float count because the count is at most 2^24, and the blocked sums are the whole sums because addition of
  extended reals is commutative and associative; no finiteness is used.
-/
import proofs.«171202_j46084999086226_2_alg».proof.Proof.Claims

namespace Cert.Proof

theorem claim : Cert.Claim := Cert.Proof.Claims.claim

end Cert.Proof
